-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16777216 : Shape := ⟨2, ![4, 16777216]⟩
abbrev S_ : Shape := ⟨0, ![]⟩

class Facts : Prop where
  bcast_S_S4x16777216 : S_.BroadcastsInDim S4x16777216 (![] : Fin 0 → Fin S4x16777216.rank)
  reducesTo_S4x16777216_S_d0_1 : S4x16777216.ReducesTo [0, 1] S_
  h_S_ : 0 < S_.numel

variable [Facts]

def fn {F : FTy → Type} [FloatOps F] (main_arg0 : FVec F S4x16777216 .f32) (main_arg1 : FVec F S4x16777216 .f32) : IVec S_ 1 :=
  let main_v0 : FVec F S4x16777216 .f32 := Host.absf main_arg0
  let main_cst : FVec F S_ .f32 := constant S_ .f32 0x7F800000#32
  let main_v1 : FVec F S4x16777216 .f32 := broadcastInDim S4x16777216 ![] bcast_S_S4x16777216 main_cst
  let main_v2 : IVec S4x16777216 1 := cmpf .olt main_v0 main_v1
  let main_c : IVec S_ 1 := constantI S_ 1 1#1
  let main_v3 : IVec S_ 1 := (fun x v => Host.reduce IntOp.andi x v reducesTo_S4x16777216_S_d0_1 h_S_) main_v2 main_c
  let main_v4 : FVec F S4x16777216 .f32 := Host.absf main_arg1
  let main_cst_0 : FVec F S_ .f32 := constant S_ .f32 0x7F800000#32
  let main_v5 : FVec F S4x16777216 .f32 := broadcastInDim S4x16777216 ![] bcast_S_S4x16777216 main_cst_0
  let main_v6 : IVec S4x16777216 1 := cmpf .olt main_v4 main_v5
  let main_c_1 : IVec S_ 1 := constantI S_ 1 1#1
  let main_v7 : IVec S_ 1 := (fun x v => Host.reduce IntOp.andi x v reducesTo_S4x16777216_S_d0_1 h_S_) main_v6 main_c_1
  let main_v8 : IVec S_ 1 := andi main_v3 main_v7
  main_v8
-- ==== Kernel.lean ====
abbrev S4x16777216 : Shape := ⟨2, ![4, 16777216]⟩
abbrev S32x2097152 : Shape := ⟨2, ![32, 2097152]⟩
abbrev S64x1 : Shape := ⟨2, ![64, 1]⟩
abbrev S32x16384 : Shape := ⟨2, ![32, 16384]⟩
abbrev S32x1 : Shape := ⟨2, ![32, 1]⟩
abbrev S32 : Shape := ⟨1, ![32]⟩
abbrev S2x32x1 : Shape := ⟨3, ![2, 32, 1]⟩
abbrev S_ : Shape := ⟨0, ![]⟩
abbrev S4x8x1 : Shape := ⟨3, ![4, 8, 1]⟩
abbrev S4x1 : Shape := ⟨2, ![4, 1]⟩

abbrev nBuf : Space → Nat
  | .hbm => 132
  | .vmem => 38
  | .smem => 0
  | _ => 0

abbrev hbmTy0_0 (i : Nat) : BufTy := match i % 128 with
  | 0 => ⟨S4x16777216, .f32⟩
  | 1 => ⟨S4x16777216, .f32⟩
  | 2 => ⟨S32x2097152, .f32⟩
  | 3 => ⟨S32x2097152, .f32⟩
  | 4 => ⟨S64x1, .f32⟩
  | 5 => ⟨S64x1, .f32⟩
  | 6 => ⟨S64x1, .f32⟩
  | 7 => ⟨S64x1, .f32⟩
  | 8 => ⟨S64x1, .f32⟩
  | 9 => ⟨S64x1, .f32⟩
  | 10 => ⟨S2x32x1, .f32⟩
  | 11 => ⟨S_, .f32⟩
  | 12 => ⟨S32x1, .f32⟩
  | 13 => ⟨S2x32x1, .f32⟩
  | 14 => ⟨S_, .f32⟩
  | 15 => ⟨S32x1, .f32⟩
  | 16 => ⟨S2x32x1, .f32⟩
  | 17 => ⟨S_, .f32⟩
  | 18 => ⟨S32x1, .f32⟩
  | 19 => ⟨S2x32x1, .f32⟩
  | 20 => ⟨S_, .f32⟩
  | 21 => ⟨S32x1, .f32⟩
  | 22 => ⟨S2x32x1, .f32⟩
  | 23 => ⟨S_, .f32⟩
  | 24 => ⟨S32x1, .f32⟩
  | 25 => ⟨S2x32x1, .f32⟩
  | 26 => ⟨S_, .f32⟩
  | 27 => ⟨S32x1, .f32⟩
  | 28 => ⟨S4x8x1, .f32⟩
  | 29 => ⟨S_, .f32⟩
  | 30 => ⟨S4x1, .f32⟩
  | 31 => ⟨S4x8x1, .f32⟩
  | 32 => ⟨S_, .f32⟩
  | 33 => ⟨S4x1, .f32⟩
  | 34 => ⟨S4x8x1, .f32⟩
  | 35 => ⟨S_, .f32⟩
  | 36 => ⟨S4x1, .f32⟩
  | 37 => ⟨S4x8x1, .f32⟩
  | 38 => ⟨S_, .f32⟩
  | 39 => ⟨S4x1, .f32⟩
  | 40 => ⟨S4x8x1, .f32⟩
  | 41 => ⟨S_, .f32⟩
  | 42 => ⟨S4x1, .f32⟩
  | 43 => ⟨S4x8x1, .f32⟩
  | 44 => ⟨S_, .f32⟩
  | 45 => ⟨S4x1, .f32⟩
  | 46 => ⟨S_, .f32⟩
  | 47 => ⟨S4x1, .f32⟩
  | 48 => ⟨S4x1, .f32⟩
  | 49 => ⟨S_, .f32⟩
  | 50 => ⟨S4x1, .f32⟩
  | 51 => ⟨S4x1, .f32⟩
  | 52 => ⟨S4x1, .f32⟩
  | 53 => ⟨S4x1, .f32⟩
  | 54 => ⟨S_, .f32⟩
  | 55 => ⟨S4x1, .f32⟩
  | 56 => ⟨S4x1, .f32⟩
  | 57 => ⟨S_, .f32⟩
  | 58 => ⟨S4x1, .f32⟩
  | 59 => ⟨S4x1, .f32⟩
  | 60 => ⟨S4x1, .f32⟩
  | 61 => ⟨S_, .f32⟩
  | 62 => ⟨S4x1, .f32⟩
  | 63 => ⟨S4x1, .f32⟩
  | 64 => ⟨S4x1, .f32⟩
  | 65 => ⟨S4x1, .f32⟩
  | 66 => ⟨S_, .f32⟩
  | 67 => ⟨S4x1, .f32⟩
  | 68 => ⟨S4x1, .f32⟩
  | 69 => ⟨S4x1, .f32⟩
  | 70 => ⟨S4x1, .f32⟩
  | 71 => ⟨S_, .f32⟩
  | 72 => ⟨S4x1, .f32⟩
  | 73 => ⟨S4x1, .f32⟩
  | 74 => ⟨S_, .f32⟩
  | 75 => ⟨S4x1, .f32⟩
  | 76 => ⟨S4x1, .f32⟩
  | 77 => ⟨S4x1, .f32⟩
  | 78 => ⟨S4x1, .f32⟩
  | 79 => ⟨S_, .f32⟩
  | 80 => ⟨S4x1, .f32⟩
  | 81 => ⟨S4x1, .f32⟩
  | 82 => ⟨S_, .f32⟩
  | 83 => ⟨S4x1, .f32⟩
  | 84 => ⟨S4x1, .f32⟩
  | 85 => ⟨S4x1, .f32⟩
  | 86 => ⟨S_, .f32⟩
  | 87 => ⟨S4x1, .f32⟩
  | 88 => ⟨S4x1, .f32⟩
  | 89 => ⟨S4x1, .f32⟩
  | 90 => ⟨S4x1, .f32⟩
  | 91 => ⟨S_, .f32⟩
  | 92 => ⟨S4x1, .f32⟩
  | 93 => ⟨S4x1, .f32⟩
  | 94 => ⟨S4x1, .f32⟩
  | 95 => ⟨S4x1, .f32⟩
  | 96 => ⟨S4x8x1, .f32⟩
  | 97 => ⟨S32x1, .f32⟩
  | 98 => ⟨S4x8x1, .f32⟩
  | 99 => ⟨S32x1, .f32⟩
  | 100 => ⟨S4x8x1, .f32⟩
  | 101 => ⟨S32x1, .f32⟩
  | 102 => ⟨S4x8x1, .f32⟩
  | 103 => ⟨S32x1, .f32⟩
  | 104 => ⟨S64x1, .f32⟩
  | 105 => ⟨S64x1, .f32⟩
  | 106 => ⟨S2x32x1, .f32⟩
  | 107 => ⟨S_, .f32⟩
  | 108 => ⟨S32x1, .f32⟩
  | 109 => ⟨S2x32x1, .f32⟩
  | 110 => ⟨S_, .f32⟩
  | 111 => ⟨S32x1, .f32⟩
  | 112 => ⟨S4x8x1, .f32⟩
  | 113 => ⟨S_, .f32⟩
  | 114 => ⟨S4x1, .f32⟩
  | 115 => ⟨S4x8x1, .f32⟩
  | 116 => ⟨S_, .f32⟩
  | 117 => ⟨S4x1, .f32⟩
  | 118 => ⟨S4x1, .f32⟩
  | 119 => ⟨S4x1, .f32⟩
  | 120 => ⟨S4x1, .f32⟩
  | 121 => ⟨S4x1, .f32⟩
  | 122 => ⟨S4x8x1, .f32⟩
  | 123 => ⟨S32x1, .f32⟩
  | 124 => ⟨S4x8x1, .f32⟩
  | 125 => ⟨S32x1, .f32⟩
  | 126 => ⟨S64x1, .f32⟩
  | 127 => ⟨S_, .f32⟩
  | _ => ⟨S4x16777216, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S4x16777216, .f32⟩

abbrev hbmTy (i : Nat) : BufTy := match i / 128 with
  | 0 => hbmTy0_0 i
  | 1 => hbmTy0_1 i
  | _ => ⟨S4x16777216, .f32⟩

abbrev bufTy : (tb : Table) → Fin (tcTables nBuf tb) → BufTy
  | .hbm, ⟨i, _⟩ => hbmTy i
  | .local _ .vmem, ⟨0, _⟩ => ⟨S32x16384, .f32⟩
  | .local _ .vmem, ⟨1, _⟩ => ⟨S32x16384, .f32⟩
  | .local _ .vmem, ⟨2, _⟩ => ⟨S32x16384, .f32⟩
  | .local _ .vmem, ⟨3, _⟩ => ⟨S32x16384, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x1, .f32⟩
  | .local _ .vmem, ⟨9, _⟩ => ⟨S32x1, .f32⟩
  | .local _ .vmem, ⟨10, _⟩ => ⟨S32x1, .f32⟩
  | .local _ .vmem, ⟨11, _⟩ => ⟨S32x1, .f32⟩
  | .local _ .vmem, ⟨12, _⟩ => ⟨S32x1, .f32⟩
  | .local _ .vmem, ⟨13, _⟩ => ⟨S32x1, .f32⟩
  | .local _ .vmem, ⟨14, _⟩ => ⟨S32x1, .f32⟩
  | .local _ .vmem, ⟨15, _⟩ => ⟨S32x1, .f32⟩
  | .local _ .vmem, ⟨16, _⟩ => ⟨S32x16384, .f32⟩
  | .local _ .vmem, ⟨17, _⟩ => ⟨S32x16384, .f32⟩
  | .local _ .vmem, ⟨18, _⟩ => ⟨S32x16384, .f32⟩
  | .local _ .vmem, ⟨19, _⟩ => ⟨S32x16384, .f32⟩
  | .local _ .vmem, ⟨20, _⟩ => ⟨S32x1, .f32⟩
  | .local _ .vmem, ⟨21, _⟩ => ⟨S32x1, .f32⟩
  | .local _ .vmem, ⟨22, _⟩ => ⟨S32x1, .f32⟩
  | .local _ .vmem, ⟨23, _⟩ => ⟨S32x1, .f32⟩
  | .local _ .vmem, ⟨24, _⟩ => ⟨S32x1, .f32⟩
  | .local _ .vmem, ⟨25, _⟩ => ⟨S32x1, .f32⟩
  | .local _ .vmem, ⟨26, _⟩ => ⟨S32x1, .f32⟩
  | .local _ .vmem, ⟨27, _⟩ => ⟨S32x1, .f32⟩
  | .local _ .vmem, ⟨28, _⟩ => ⟨S32x16384, .f32⟩
  | .local _ .vmem, ⟨29, _⟩ => ⟨S32x16384, .f32⟩
  | .local _ .vmem, ⟨30, _⟩ => ⟨S32x16384, .f32⟩
  | .local _ .vmem, ⟨31, _⟩ => ⟨S32x16384, .f32⟩
  | .local _ .vmem, ⟨32, _⟩ => ⟨S32x1, .f32⟩
  | .local _ .vmem, ⟨33, _⟩ => ⟨S32x1, .f32⟩
  | .local _ .vmem, ⟨34, _⟩ => ⟨S32x1, .f32⟩
  | .local _ .vmem, ⟨35, _⟩ => ⟨S32x1, .f32⟩
  | .local _ .vmem, ⟨36, _⟩ => ⟨S32x1, .f32⟩
  | .local _ .vmem, ⟨37, _⟩ => ⟨S32x1, .f32⟩
  | _, _ => ⟨S4x16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_cst_10 : Ref sig .tc := ⟨.hbm, 44, rfl⟩
abbrev main_v26 : Ref sig .tc := ⟨.hbm, 45, rfl⟩
abbrev main_cst_11 : Ref sig .tc := ⟨.hbm, 46, rfl⟩
abbrev main_v27 : Ref sig .tc := ⟨.hbm, 47, rfl⟩
abbrev main_v28 : Ref sig .tc := ⟨.hbm, 48, rfl⟩
abbrev main_cst_12 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_13 : Ref sig .tc := ⟨.hbm, 54, rfl⟩
abbrev main_v33 : Ref sig .tc := ⟨.hbm, 55, rfl⟩
abbrev main_v34 : Ref sig .tc := ⟨.hbm, 56, rfl⟩
abbrev main_cst_14 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_15 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_16 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_17 : Ref sig .tc := ⟨.hbm, 71, rfl⟩
abbrev main_v46 : Ref sig .tc := ⟨.hbm, 72, rfl⟩
abbrev main_v47 : Ref sig .tc := ⟨.hbm, 73, rfl⟩
abbrev main_cst_18 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_19 : Ref sig .tc := ⟨.hbm, 79, rfl⟩
abbrev main_v52 : Ref sig .tc := ⟨.hbm, 80, rfl⟩
abbrev main_v53 : Ref sig .tc := ⟨.hbm, 81, rfl⟩
abbrev main_cst_20 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_21 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_22 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73_0 : Ref sig .tc := ⟨.hbm, 104, rfl⟩
abbrev main_v73_1 : Ref sig .tc := ⟨.hbm, 105, rfl⟩
abbrev main_v74 : Ref sig .tc := ⟨.hbm, 106, rfl⟩
abbrev main_cst_23 : Ref sig .tc := ⟨.hbm, 107, rfl⟩
abbrev main_v75 : Ref sig .tc := ⟨.hbm, 108, rfl⟩
abbrev main_v76 : Ref sig .tc := ⟨.hbm, 109, rfl⟩
abbrev main_cst_24 : Ref sig .tc := ⟨.hbm, 110, rfl⟩
abbrev main_v77 : Ref sig .tc := ⟨.hbm, 111, rfl⟩
abbrev main_v78 : Ref sig .tc := ⟨.hbm, 112, rfl⟩
abbrev main_cst_25 : Ref sig .tc := ⟨.hbm, 113, rfl⟩
abbrev main_v79 : Ref sig .tc := ⟨.hbm, 114, rfl⟩
abbrev main_v80 : Ref sig .tc := ⟨.hbm, 115, rfl⟩
abbrev main_cst_26 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_27 : Ref sig .tc := ⟨.hbm, 127, rfl⟩
abbrev main_v91 : Ref sig .tc := ⟨.hbm, 128, rfl⟩
abbrev main_cst_28 : Ref sig .tc := ⟨.hbm, 129, rfl⟩
abbrev main_v92 : Ref sig .tc := ⟨.hbm, 130, rfl⟩
abbrev main_v93 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S32x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x16384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S32x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S32x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 64], ![false, false]⟩

def cc2_transform_0 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc2_transform_1 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S32x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S32x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S32x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S4x16777216_S32x2097152 : S4x16777216.ShapeCasts S32x2097152
  inb_S32x1_S32x1_0_0 : ∀ a, (![0, 0] : Fin 2 → Nat) a + S32x1.size a ≤ S32x1.size a
  h_S32x1 : 0 < S32x1.numel
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  shapeCasts_S32x1_S32x1 : S32x1.ShapeCasts S32x1
  reduces_S32x16384_S32 : S32x16384.Reduces [1] S32
  shapeCasts_S32_S32x1 : S32.ShapeCasts S32x1
  shapeCasts_S64x1_S2x32x1 : S64x1.ShapeCasts S2x32x1
  reducesTo_S2x32x1_S32x1_d0 : S2x32x1.ReducesTo [0] S32x1
  h_S_ : 0 < S_.numel
  shapeCasts_S32x1_S4x8x1 : S32x1.ShapeCasts S4x8x1
  reducesTo_S4x8x1_S4x1_d1 : S4x8x1.ReducesTo [1] S4x1
  bcast_S_S4x1 : S_.BroadcastsInDim S4x1 (![] : Fin 0 → Fin S4x1.rank)
  bcast_S4x1_S4x8x1_0_2 : S4x1.BroadcastsInDim S4x8x1 (![0, 2] : Fin 2 → Fin S4x8x1.rank)
  shapeCasts_S4x8x1_S32x1 : S4x8x1.ShapeCasts S32x1
  broadcasts_S32x1_S32x16384 : S32x1.Broadcasts S32x16384
  reducesTo_S64x1_S_d0_1 : S64x1.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16384.size a ≤ S32x2097152.size a
  hwx0_0 : ∀ i : grid0.Coords, EltTy.bits .f32 = 32 ∨ (Rect.block (s := S32x2097152) S32x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16384.size a ≤ S32x2097152.size a
  hwx0_1 : ∀ i : grid0.Coords, EltTy.bits .f32 = 32 ∨ (Rect.block (s := S32x2097152) S32x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S64x1.size a
  hwx0_2 : ∀ i : grid0.Coords, EltTy.bits .f32 = 32 ∨ (Rect.block (s := S64x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S64x1.size a
  hwx0_5 : ∀ i : grid0.Coords, EltTy.bits .f32 = 32 ∨ (Rect.block (s := S64x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S64x1.size a
  hwx0_6 : ∀ i : grid0.Coords, EltTy.bits .f32 = 32 ∨ (Rect.block (s := S64x1) S32x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S64x1.size a
  hwx0_7 : ∀ i : grid0.Coords, EltTy.bits .f32 = 32 ∨ (Rect.block (s := S64x1) S32x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16384.size a ≤ S32x2097152.size a
  hwx1_0 : ∀ i : grid1.Coords, EltTy.bits .f32 = 32 ∨ (Rect.block (s := S32x2097152) S32x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16384.size a ≤ S32x2097152.size a
  hwx1_1 : ∀ i : grid1.Coords, EltTy.bits .f32 = 32 ∨ (Rect.block (s := S32x2097152) S32x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .f32 = 32 ∨ (Rect.block (s := S32x1) S32x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x1.size a ≤ S32x1.size a
  hwx1_5 : ∀ i : grid1.Coords, EltTy.bits .f32 = 32 ∨ (Rect.block (s := S32x1) S32x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x1.size a ≤ S64x1.size a
  hwx1_6 : ∀ i : grid1.Coords, EltTy.bits .f32 = 32 ∨ (Rect.block (s := S64x1) S32x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S64x1.size a
  hwx1_7 : ∀ i : grid1.Coords, EltTy.bits .f32 = 32 ∨ (Rect.block (s := S64x1) S32x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x16384.size a ≤ S32x2097152.size a
  hwx2_0 : ∀ i : grid2.Coords, EltTy.bits .f32 = 32 ∨ (Rect.block (s := S32x2097152) S32x16384.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x16384.size a ≤ S32x2097152.size a
  hwx2_1 : ∀ i : grid2.Coords, EltTy.bits .f32 = 32 ∨ (Rect.block (s := S32x2097152) S32x16384.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x1.size a ≤ S32x1.size a
  hwx2_4 : ∀ i : grid2.Coords, EltTy.bits .f32 = 32 ∨ (Rect.block (s := S32x1) S32x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S32x1.size a ≤ S64x1.size a
  hwx2_6 : ∀ i : grid2.Coords, EltTy.bits .f32 = 32 ∨ (Rect.block (s := S64x1) S32x1.size (cc2_transform_6 i) (hinb2_6 i)).WholeWords (EltTy.packing .f32)

variable [Facts₀]

abbrev win0_0 : Pipeline.Window sig grid0 :=
  Pipeline.Window.ofSpec (Memref.whole main_v0) S32x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S32x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S32x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S32x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S32x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_4) S32x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_5) S32x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S32x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x16384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v66) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S32x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73_0) S32x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v73_1) S32x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v0) S32x16384.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S32x16384.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S32x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v90) S32x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x16777216 : Shape := ⟨2, ![4, 16777216]⟩
abbrev S_ : Shape := ⟨0, ![]⟩
abbrev S4 : Shape := ⟨1, ![4]⟩
abbrev S4x1 : Shape := ⟨2, ![4, 1]⟩

abbrev nBuf : Space → Nat
  | .hbm => 134
  | .vmem => 0
  | .smem => 0
  | _ => 0

abbrev hbmTy0_0 (i : Nat) : BufTy := match i % 128 with
  | 0 => ⟨S4x16777216, .f32⟩
  | 1 => ⟨S4x16777216, .f32⟩
  | 2 => ⟨S_, .f32⟩
  | 3 => ⟨S4, .f32⟩
  | 4 => ⟨S_, .f32⟩
  | 5 => ⟨S4, .f32⟩
  | 6 => ⟨S4, .f32⟩
  | 7 => ⟨S4x1, .f32⟩
  | 8 => ⟨S4x16777216, .f32⟩
  | 9 => ⟨S4x16777216, .f32⟩
  | 10 => ⟨S_, .i32⟩
  | 11 => ⟨S_, .f32⟩
  | 12 => ⟨S4, .f32⟩
  | 13 => ⟨S4x1, .f32⟩
  | 14 => ⟨S_, .f32⟩
  | 15 => ⟨S4x1, .f32⟩
  | 16 => ⟨S4x1, .f32⟩
  | 17 => ⟨S4x16777216, .f32⟩
  | 18 => ⟨S4x16777216, .f32⟩
  | 19 => ⟨S4x16777216, .f32⟩
  | 20 => ⟨S_, .f32⟩
  | 21 => ⟨S_, .f32⟩
  | 22 => ⟨S_, .f32⟩
  | 23 => ⟨S_, .f32⟩
  | 24 => ⟨S4, .f32⟩
  | 25 => ⟨S4, .f32⟩
  | 26 => ⟨S4, .f32⟩
  | 27 => ⟨S_, .f32⟩
  | 28 => ⟨S_, .i1⟩
  | 29 => ⟨S_, .f32⟩
  | 30 => ⟨S_, .f32⟩
  | 31 => ⟨S4, .f32⟩
  | 32 => ⟨S4, .f32⟩
  | 33 => ⟨S4, .f32⟩
  | 34 => ⟨S_, .f32⟩
  | 35 => ⟨S4, .f32⟩
  | 36 => ⟨S4, .f32⟩
  | 37 => ⟨S4x1, .f32⟩
  | 38 => ⟨S4x16777216, .f32⟩
  | 39 => ⟨S4x16777216, .f32⟩
  | 40 => ⟨S_, .f32⟩
  | 41 => ⟨S4, .f32⟩
  | 42 => ⟨S_, .f32⟩
  | 43 => ⟨S4, .f32⟩
  | 44 => ⟨S4, .f32⟩
  | 45 => ⟨S4x1, .f32⟩
  | 46 => ⟨S4x16777216, .f32⟩
  | 47 => ⟨S4x16777216, .f32⟩
  | 48 => ⟨S_, .i32⟩
  | 49 => ⟨S_, .f32⟩
  | 50 => ⟨S4, .f32⟩
  | 51 => ⟨S4x1, .f32⟩
  | 52 => ⟨S_, .f32⟩
  | 53 => ⟨S4x1, .f32⟩
  | 54 => ⟨S4x1, .f32⟩
  | 55 => ⟨S4x16777216, .f32⟩
  | 56 => ⟨S4x16777216, .f32⟩
  | 57 => ⟨S4x16777216, .f32⟩
  | 58 => ⟨S_, .f32⟩
  | 59 => ⟨S_, .f32⟩
  | 60 => ⟨S_, .f32⟩
  | 61 => ⟨S_, .f32⟩
  | 62 => ⟨S4, .f32⟩
  | 63 => ⟨S4, .f32⟩
  | 64 => ⟨S4, .f32⟩
  | 65 => ⟨S_, .f32⟩
  | 66 => ⟨S_, .i1⟩
  | 67 => ⟨S_, .f32⟩
  | 68 => ⟨S_, .f32⟩
  | 69 => ⟨S4, .f32⟩
  | 70 => ⟨S4, .f32⟩
  | 71 => ⟨S4, .f32⟩
  | 72 => ⟨S_, .f32⟩
  | 73 => ⟨S4, .f32⟩
  | 74 => ⟨S4, .f32⟩
  | 75 => ⟨S4x1, .f32⟩
  | 76 => ⟨S4x16777216, .f32⟩
  | 77 => ⟨S4x16777216, .f32⟩
  | 78 => ⟨S_, .f32⟩
  | 79 => ⟨S4, .f32⟩
  | 80 => ⟨S_, .f32⟩
  | 81 => ⟨S4, .f32⟩
  | 82 => ⟨S4, .f32⟩
  | 83 => ⟨S4x1, .f32⟩
  | 84 => ⟨S4x16777216, .f32⟩
  | 85 => ⟨S4x16777216, .f32⟩
  | 86 => ⟨S4x16777216, .f32⟩
  | 87 => ⟨S_, .f32⟩
  | 88 => ⟨S4, .f32⟩
  | 89 => ⟨S4x1, .f32⟩
  | 90 => ⟨S4x16777216, .f32⟩
  | 91 => ⟨S4x16777216, .f32⟩
  | 92 => ⟨S_, .f32⟩
  | 93 => ⟨S4, .f32⟩
  | 94 => ⟨S_, .f32⟩
  | 95 => ⟨S4, .f32⟩
  | 96 => ⟨S4, .f32⟩
  | 97 => ⟨S4x1, .f32⟩
  | 98 => ⟨S4x16777216, .f32⟩
  | 99 => ⟨S4x16777216, .f32⟩
  | 100 => ⟨S4x16777216, .f32⟩
  | 101 => ⟨S_, .f32⟩
  | 102 => ⟨S4, .f32⟩
  | 103 => ⟨S4x1, .f32⟩
  | 104 => ⟨S4x1, .f32⟩
  | 105 => ⟨S4x16777216, .f32⟩
  | 106 => ⟨S4x16777216, .f32⟩
  | 107 => ⟨S_, .f32⟩
  | 108 => ⟨S4, .f32⟩
  | 109 => ⟨S_, .f32⟩
  | 110 => ⟨S4, .f32⟩
  | 111 => ⟨S4, .f32⟩
  | 112 => ⟨S4x1, .f32⟩
  | 113 => ⟨S4x16777216, .f32⟩
  | 114 => ⟨S4x16777216, .f32⟩
  | 115 => ⟨S4x16777216, .f32⟩
  | 116 => ⟨S_, .f32⟩
  | 117 => ⟨S4, .f32⟩
  | 118 => ⟨S4x1, .f32⟩
  | 119 => ⟨S4x16777216, .f32⟩
  | 120 => ⟨S4x16777216, .f32⟩
  | 121 => ⟨S_, .f32⟩
  | 122 => ⟨S4x16777216, .f32⟩
  | 123 => ⟨S4x16777216, .f32⟩
  | 124 => ⟨S4x16777216, .f32⟩
  | 125 => ⟨S4x16777216, .f32⟩
  | 126 => ⟨S4x16777216, .f32⟩
  | 127 => ⟨S_, .f32⟩
  | _ => ⟨S4x16777216, .f32⟩

abbrev hbmTy0_1 (i : Nat) : BufTy := match i % 128 with
  | 0 => ⟨S4, .f32⟩
  | 1 => ⟨S_, .f32⟩
  | 2 => ⟨S_, .f32⟩
  | 3 => ⟨S_, .f32⟩
  | 4 => ⟨S_, .f32⟩
  | 5 => ⟨S_, .f32⟩
  | _ => ⟨S4x16777216, .f32⟩

abbrev hbmTy (i : Nat) : BufTy := match i / 128 with
  | 0 => hbmTy0_0 i
  | 1 => hbmTy0_1 i
  | _ => ⟨S4x16777216, .f32⟩

abbrev bufTy : (tb : Table) → Fin (tcTables nBuf tb) → BufTy
  | .hbm, ⟨i, _⟩ => hbmTy i
  | _, _ => ⟨S4x16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_cst_0 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_cst_1 : Ref sig .tc := ⟨.hbm, 21, rfl⟩
abbrev main_call0_call0_v8 : Ref sig .tc := ⟨.hbm, 22, rfl⟩
abbrev main_call0_call0_cst_2 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_cst_3 : Ref sig .tc := ⟨.hbm, 27, rfl⟩
abbrev main_call0_call0_v12 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_v0 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_2 : Ref sig .tc := ⟨.hbm, 40, rfl⟩
abbrev main_v12 : Ref sig .tc := ⟨.hbm, 41, rfl⟩
abbrev main_cst_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_cst_0 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_cst_1 : Ref sig .tc := ⟨.hbm, 59, rfl⟩
abbrev main_call1_call0_v8 : Ref sig .tc := ⟨.hbm, 60, rfl⟩
abbrev main_call1_call0_cst_2 : Ref sig .tc := ⟨.hbm, 61, rfl⟩
abbrev main_call1_call0_v9 : Ref sig .tc := ⟨.hbm, 62, rfl⟩
abbrev main_call1_call0_v10 : Ref sig .tc := ⟨.hbm, 63, rfl⟩
abbrev main_call1_call0_v11 : Ref sig .tc := ⟨.hbm, 64, rfl⟩
abbrev main_call1_call0_cst_3 : Ref sig .tc := ⟨.hbm, 65, rfl⟩
abbrev main_call1_call0_v12 : Ref sig .tc := ⟨.hbm, 66, rfl⟩
abbrev main_call1_call0_cst_4 : Ref sig .tc := ⟨.hbm, 67, rfl⟩
abbrev main_call1_call0_call0_v0 : Ref sig .tc := ⟨.hbm, 68, rfl⟩
abbrev main_call1_call0_call0_v1 : Ref sig .tc := ⟨.hbm, 69, rfl⟩
abbrev main_call1_v0 : Ref sig .tc := ⟨.hbm, 70, rfl⟩
abbrev main_v18 : Ref sig .tc := ⟨.hbm, 71, rfl⟩
abbrev main_cst_5 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_cst_6 : Ref sig .tc := ⟨.hbm, 78, rfl⟩
abbrev main_v24 : Ref sig .tc := ⟨.hbm, 79, rfl⟩
abbrev main_cst_7 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_cst_8 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v35 : Ref sig .tc := ⟨.hbm, 106, rfl⟩
abbrev main_cst_9 : Ref sig .tc := ⟨.hbm, 107, rfl⟩
abbrev main_v36 : Ref sig .tc := ⟨.hbm, 108, rfl⟩
abbrev main_cst_10 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_cst_11 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_cst_12 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_cst_13 : Ref sig .tc := ⟨.hbm, 127, rfl⟩
abbrev main_v52 : Ref sig .tc := ⟨.hbm, 128, rfl⟩
abbrev main_cst_14 : Ref sig .tc := ⟨.hbm, 129, rfl⟩
abbrev main_v53 : Ref sig .tc := ⟨.hbm, 130, rfl⟩
abbrev main_cst_15 : Ref sig .tc := ⟨.hbm, 131, rfl⟩
abbrev main_v54 : Ref sig .tc := ⟨.hbm, 132, rfl⟩
abbrev main_v55 : Ref sig .tc := ⟨.hbm, 133, rfl⟩

abbrev nD : Nat := 1
abbrev τ : Topo := Topo.v7x

variable {F : FTy → Type} [FloatOps F]

class Facts₀ : Prop where
  reducesTo_S4x16777216_S4_d1 : S4x16777216.ReducesTo [1] S4
  h_S_ : 0 < S_.numel
  bcast_S_S4 : S_.BroadcastsInDim S4 (![] : Fin 0 → Fin S4.rank)
  bcast_S4_S4x1_0 : S4.BroadcastsInDim S4x1 (![0] : Fin 1 → Fin S4x1.rank)
  bcast_S4x1_S4x16777216_0_1 : S4x1.BroadcastsInDim S4x16777216 (![0, 1] : Fin 2 → Fin S4x16777216.rank)
  bcast_S_S4x1 : S_.BroadcastsInDim S4x1 (![] : Fin 0 → Fin S4x1.rank)
  bcast_S_S4x16777216 : S_.BroadcastsInDim S4x16777216 (![] : Fin 0 → Fin S4x16777216.rank)
  reducesTo_S4_S_d0 : S4.ReducesTo [0] S_

variable [Facts₀]

class Facts : Prop extends Facts₀ where

variable [Facts]
-- ==== Proof.KRun.lean ====
/-
  The idealized kernel's run with its RESULT named. @main is seven segments — a stretch of host operations, the
  statistics region, a stretch, the sum-of-exponentials region, a stretch, the Kullback–Leibler region, a last
  stretch — and the buffer contents at each boundary are a fold from the launch memory: a stretch applies its
  operations, a region replaces its arrays by what its write-backs leave. Every weakly fair execution terminates,
  nothing faulting, with every unscoped buffer at the last boundary's contents; read at the result buffer that is
  the fold's value there, and at the two arguments the launch contents.
-/
import proofs.«111140_j6493990552354_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v93) = W7 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v93 (by decide)),
       (h c _ (mem_uc main_arg0 (by decide))).trans (W7_main_arg0 m ρ c),
       (h c _ (mem_uc main_arg1 (by decide))).trans (W7_main_arg1 m ρ c)⟩)

end Cert.KernelIdeal.KValue

end
-- ==== Proof.Spec.lean ====
/-
  The two programs' results, row by row, as functions of the two argument arrays on the extended reals.

  Both programs compute, for each of the four rows of `current` (argument 0) and `initial` (argument 1), the
  Kullback–Leibler sum  ∑ₙ p_init(n) · (log p_init(n) − log (p_cur(n) + ε))  of the softmaxes of the standardised
  rows (mean removed, divided by the unbiased standard deviation plus ε), and return minus the mean of the four sums.

  The kernel (`k…`) gets the variance from the sum of squares, (∑x² − N·mean²)/(N−1) clamped at 0, moves the row
  maximum through the positive scale, (max x − mean)/σ, multiplies by the reciprocal 1/σ instead of dividing, and
  takes the softmax as exp of the log-softmax  x·q − (mean·q + zmax + log ∑ exp(…)).
  The reference (`r…`) centres first, ∑(x − mean)²/(N − 1), divides by σ, takes the maximum of the quotients, and
  the softmax as exp(shifted)/∑exp(shifted) beside the log-softmax shifted − log ∑exp(shifted).
  Every sum and supremum here runs over a whole row of N = 16777216 entries; how the kernel tiles a row
  (8 sub-rows × 2 cores × 64 tiles × 16384 lanes) is `col` / `sub` below.
-/
import Idealize.ShloMosaic.PureOps.Ideal
import Idealize.ShloMosaic.Lib.ValueIdx

noncomputable section

open scoped BigOperators

namespace KL

open Idealize.ShloMosaic Idealize.ShloMosaic.ValueIdx

/-- The length of a row. -/
abbrev N : Nat := 16777216
/-- One row of an argument array. -/
abbrev Row := Fin N → EReal

/-- Row `p` of a [4, N] array. -/
abbrev rows (A : (⟨2, ![4, 16777216]⟩ : Shape).Idx → EReal) : Fin 4 → Row := fun p n => A (ix2 p n)

/-! ## The constants both programs spell -/

/-- N as a float: 2^24. -/
def cN : EReal := Ideal.ofBits .f32 0x4B800000#32
/-- N − 1 as the kernel's float literal: 2^24 − 1. -/
def cNm1 : EReal := Ideal.ofBits .f32 0x4B7FFFFF#32
/-- ε, the float nearest 1e-8. -/
def cEps : EReal := Ideal.ofBits .f32 0x322BCC77#32
/-- 1.0 -/
def cOne : EReal := Ideal.ofBits .f32 0x3F800000#32
/-- 4.0, the number of rows. -/
def cFour : EReal := Ideal.ofBits .f32 0x40800000#32

/-! ## The kernel's arithmetic -/

def kMean (x : Row) : EReal := Ideal.div (∑ n, x n) cN
def kVar (x : Row) : EReal := max (Ideal.div ((∑ n, x n * x n) - cN * kMean x * kMean x) cNm1) 0
def kStd (x : Row) : EReal := Ideal.sqrt (kVar x) + cEps
def kZmax (x : Row) : EReal := Ideal.div ((⨆ n, x n) - kMean x) (kStd x)
def kQ (x : Row) : EReal := Ideal.div cOne (kStd x)
def kRc (x : Row) : EReal := kMean x * kQ x + kZmax x
def kSumExp (x : Row) : EReal := ∑ n, Ideal.exp (x n * kQ x - kRc x)
def kC (x : Row) : EReal := kRc x + Ideal.log (kSumExp x)
def kLp (x : Row) (n : Fin N) : EReal := x n * kQ x - kC x
def kKl (xc xi : Row) : EReal :=
  ∑ n, Ideal.exp (kLp xi n) * (kLp xi n - Ideal.log (Ideal.exp (kLp xc n) + cEps))
/-- The kernel's result from the rows of `current` (X) and `initial` (Y). -/
def kResult (X Y : Fin 4 → Row) : EReal := -(Ideal.div (∑ p, kKl (X p) (Y p)) cFour)

/-! ## The reference's arithmetic -/

def rMean (x : Row) : EReal := Ideal.div (∑ n, x n) cN
def rVar (x : Row) : EReal := Ideal.div (∑ n, (x n - rMean x) * (x n - rMean x)) (cN - 1)
def rStd (x : Row) : EReal := Ideal.sqrt (rVar x) + cEps
def rZ (x : Row) (n : Fin N) : EReal := Ideal.div (x n - rMean x) (rStd x)
def rZmax (x : Row) : EReal := ⨆ n, rZ x n
def rSh (x : Row) (n : Fin N) : EReal := rZ x n - rZmax x
def rS (x : Row) : EReal := ∑ n, Ideal.exp (rSh x n)
def rP (x : Row) (n : Fin N) : EReal := Ideal.div (Ideal.exp (rSh x n)) (rS x)
def rLp (x : Row) (n : Fin N) : EReal := rSh x n - Ideal.log (rS x)
def rKl (xc xi : Row) : EReal := ∑ n, rP xi n * (rLp xi n - Ideal.log (rP xc n + cEps))
/-- The reference's result from the rows of `current` (X) and `initial` (Y). -/
def rResult (X Y : Fin 4 → Row) : EReal := -(Ideal.div (∑ p, rKl (X p) (Y p)) cFour)

/-! ## How the kernel tiles a row

The kernel sees each [4, N] argument as a [32, 2097152] matrix (row 8p + s is the s-th eighth of row p) and walks
its columns in 128 tiles of 16384 lanes, tiles 0–63 on core 0 and 64–127 on core 1. -/

/-- The column of lane `l` of tile `j` of core `c` in the [32, 2097152] matrix. -/
def col (c : Fin 2) (j : Fin 64) (l : Fin 16384) : Fin 2097152 :=
  ⟨(c.val * 64 + j.val) * 16384 + l.val, by have := c.isLt; have := j.isLt; have := l.isLt; omega⟩

/-- The entry of a row of N that sub-row `s`, column `m` of the matrix is. -/
def sub (s : Fin 8) (m : Fin 2097152) : Fin N :=
  ⟨s.val * 2097152 + m.val, by have := s.isLt; have := m.isLt; show _ < 16777216; omega⟩

/-- Matrix row 8p + s. -/
def mrow (p : Fin 4) (s : Fin 8) : Fin 32 := ⟨8 * p.val + s.val, by have := p.isLt; have := s.isLt; omega⟩

/-- Row c·32 + r of a [64, 1] per-core accumulator array. -/
def arow (c : Fin 2) (r : Fin 32) : Fin 64 := ⟨32 * c.val + r.val, by have := c.isLt; have := r.isLt; omega⟩

/-- The core of row q of a [64, 1] per-core accumulator array. -/
def accC (q : Fin 64) : Fin 2 := ⟨q.val / 32, by have := q.isLt; omega⟩
/-- The matrix row of row q of a [64, 1] per-core accumulator array. -/
def accR (q : Fin 64) : Fin 32 := ⟨q.val % 32, Nat.mod_lt _ (by norm_num)⟩

theorem accC_arow (c : Fin 2) (r : Fin 32) : accC (arow c r) = c := by
  apply Fin.ext; show (32 * c.val + r.val) / 32 = c.val; have := r.isLt; omega
theorem accR_arow (c : Fin 2) (r : Fin 32) : accR (arow c r) = r := by
  apply Fin.ext; show (32 * c.val + r.val) % 32 = r.val; have := r.isLt; omega

end KL

end
-- ==== Proof.Acc.lean ====
/-
  What the three kernel regions leave in their [64, 1] accumulator arrays, as functions of the matrices and parameter
  columns each region is entered with. Row q = 32·c + r of an accumulator belongs to core c and matrix row r, and
  holds the sum (or supremum) over that core's 64 tiles of 16384 lanes of the region's per-entry term.
-/
import proofs.«111140_j6493990552354_2_alg».proof.Proof.Spec

noncomputable section

open scoped BigOperators

namespace KL

open Idealize.ShloMosaic Idealize.ShloMosaic.ValueIdx

/-- A [32, 2097152] matrix: an argument array seen by eighths of rows. -/
abbrev Mat := (⟨2, ![32, 2097152]⟩ : Shape).Idx → EReal
/-- A [32, 1] parameter column. -/
abbrev Col32 := (⟨2, ![32, 1]⟩ : Shape).Idx → EReal
/-- A [64, 1] per-core accumulator array. -/
abbrev Acc := (⟨2, ![64, 1]⟩ : Shape).Idx → EReal

/-- The entry of matrix `A` that lane `l` of tile `j` contributes to accumulator row `q`. -/
abbrev tileEntry (A : Mat) (q : Fin 64) (j : Fin 64) (l : Fin 16384) : EReal := A (ix2 (accR q) (col (accC q) j l))
/-- The entry of parameter column `u` that accumulator row `q` reads. -/
abbrev colEntry (u : Col32) (q : Fin 64) : EReal := u (ix2 (accR q) (0 : Fin 1))

/-- Region 0: per-core row sums. -/
def accSum (A : Mat) : Acc := fun i => ∑ j : Fin 64, ∑ l : Fin 16384, tileEntry A (i 0) j l
/-- Region 0: per-core row sums of squares. -/
def accSumSq (A : Mat) : Acc := fun i => ∑ j : Fin 64, ∑ l : Fin 16384, tileEntry A (i 0) j l * tileEntry A (i 0) j l
/-- Region 0: per-core row maxima. -/
def accMax (A : Mat) : Acc := fun i => ⨆ j : Fin 64, ⨆ l : Fin 16384, tileEntry A (i 0) j l
/-- Region 1: per-core row sums of exp (x·q − rc). -/
def accSumExp (A : Mat) (q rc : Col32) : Acc := fun i =>
  ∑ j : Fin 64, ∑ l : Fin 16384, Ideal.exp (tileEntry A (i 0) j l * colEntry q (i 0) - colEntry rc (i 0))
/-- Region 2: per-core row sums of exp(lpᵢ)·(lpᵢ − log(exp(lp_c) + ε)), lp = x·a − c. -/
def accKl (Ac Ai : Mat) (ac cc ai ci : Col32) : Acc := fun i =>
  ∑ j : Fin 64, ∑ l : Fin 16384,
    Ideal.exp (tileEntry Ai (i 0) j l * colEntry ai (i 0) - colEntry ci (i 0))
      * ((tileEntry Ai (i 0) j l * colEntry ai (i 0) - colEntry ci (i 0))
         - Ideal.log (Ideal.exp (tileEntry Ac (i 0) j l * colEntry ac (i 0) - colEntry cc (i 0)) + cEps))

end KL

end
-- ==== Proof.KFacts.lean ====
/-
  The nine facts about the three regions that the host arithmetic between them is read against: each [64, 1]
  accumulator array, when its region ends, is the named function (Acc.lean) of the matrices and parameter columns
  the region was entered with — whatever those entry contents `V` are.
-/
import proofs.«111140_j6493990552354_2_alg».proof.Proof.Gen.KernelIdeal.Frame
import proofs.«111140_j6493990552354_2_alg».proof.Proof.Acc
import Idealize.ShloMosaic.Lib.Pipeline.Value

noncomputable section

namespace Cert.KernelIdeal.KValue

open Cert.KernelIdeal Cert.KernelIdeal.Gen
open Idealize.ShloMosaic Idealize.ShloMosaic.TcCoe Idealize.SL.Sem
open Idealize.ShloMosaic.Pipeline (Dat)

/-- The TensorCore's buffer contents when a region is entered, at the ideal instance. -/
abbrev Entry := (c : Dev nD) → (b : Ref sig .tc) → Buf (Elt Ideal) ((c : Thread nD τ).loc b)

/-- What each region's accumulators end at, for any entry contents. -/
structure RegionFacts : Prop where
  sum_cur : ∀ (V : Entry) (d : Dev nD), (dat0 V d).arrAt 2 cfg0.N = KL.accSum (V d main_v0)
  sumsq_cur : ∀ (V : Entry) (d : Dev nD), (dat0 V d).arrAt 3 cfg0.N = KL.accSumSq (V d main_v0)
  max_cur : ∀ (V : Entry) (d : Dev nD), (dat0 V d).arrAt 4 cfg0.N = KL.accMax (V d main_v0)
  sum_init : ∀ (V : Entry) (d : Dev nD), (dat0 V d).arrAt 5 cfg0.N = KL.accSum (V d main_v1)
  sumsq_init : ∀ (V : Entry) (d : Dev nD), (dat0 V d).arrAt 6 cfg0.N = KL.accSumSq (V d main_v1)
  max_init : ∀ (V : Entry) (d : Dev nD), (dat0 V d).arrAt 7 cfg0.N = KL.accMax (V d main_v1)
  sumexp_cur : ∀ (V : Entry) (d : Dev nD), (dat1 V d).arrAt 6 cfg1.N = KL.accSumExp (V d main_v0) (V d main_v66) (V d main_v68)
  sumexp_init : ∀ (V : Entry) (d : Dev nD), (dat1 V d).arrAt 7 cfg1.N = KL.accSumExp (V d main_v1) (V d main_v70) (V d main_v72)
  kl : ∀ (V : Entry) (d : Dev nD), (dat2 V d).arrAt 6 cfg2.N
        = KL.accKl (V d main_v0) (V d main_v1) (V d main_v66) (V d main_v87) (V d main_v70) (V d main_v89)

end Cert.KernelIdeal.KValue

end
-- ==== Proof.Consts.lean ====
/-
  The float constants the two programs spell, as the extended reals their bit patterns denote: N = 2^24 and
  N − 1 = 2^24 − 1 (both exactly representable in single precision), 1, 4, zero, −∞, and ε — the float nearest
  1e-8, of which only positivity and finiteness are ever used, since both programs spell the same word.
  One module unfolds the pattern reader for all of them.
-/
import proofs.«111140_j6493990552354_2_alg».proof.Proof.Spec

noncomputable section

namespace KL

open Idealize.ShloMosaic

theorem cN_eq : cN = ((16777216 : ℝ) : EReal) := by
  unfold cN; simp [Ideal.ofBits, Ideal.ieee, -EReal.coe_mul] <;> norm_num

theorem cNm1_eq : cNm1 = ((16777215 : ℝ) : EReal) := by
  unfold cNm1; simp [Ideal.ofBits, Ideal.ieee, -EReal.coe_mul] <;> norm_num

theorem cOne_eq : cOne = 1 := by
  unfold cOne; simp [Ideal.ofBits, Ideal.ieee, -EReal.coe_mul] <;> norm_num

theorem cFour_eq : cFour = ((4 : ℝ) : EReal) := by
  unfold cFour; simp [Ideal.ofBits, Ideal.ieee, -EReal.coe_mul] <;> norm_num

/-- ε is a positive real number. -/
theorem cEps_pos : ∃ e : ℝ, 0 < e ∧ cEps = (e : EReal) := by
  unfold cEps
  refine ⟨_, ?_, by simp [Ideal.ofBits, Ideal.ieee, -EReal.coe_mul]; rfl⟩
  norm_num

/-- The zero pattern denotes 0. -/
theorem zero_eq : Ideal.ofBits .f32 0x00000000#32 = 0 := by
  simp [Ideal.ofBits, Ideal.ieee]

/-- The pattern of −∞ denotes the bottom of the extended reals. -/
theorem negInf_eq : Ideal.ofBits .f32 0xFF800000#32 = ⊥ := by
  simp [Ideal.ofBits, Ideal.ieee]

/-- The pattern of +∞ denotes the top of the extended reals. -/
theorem posInf_eq : Ideal.ofBits .f32 0x7F800000#32 = ⊤ := by
  simp [Ideal.ofBits, Ideal.ieee]

end KL

end
-- ==== Proof.KlReal.lean ====
/-
  The real-number mathematics of the standardised softmax of one row  a : ι → ℝ  of  N = |ι|  entries.

  With  m = (∑ a)/N :   ∑ (a − m)² = ∑ a² − N·m·m ,  so the variance got from the sum of squares and clamped at 0
  is the centred one (a sum of squares over N − 1 > 0 is never negative).  With  σ = √var + ε > 0  the map
  t ↦ (t − m)/σ  is increasing, so the largest standardised entry is (max a − m)/σ;  multiplying by 1/σ is dividing
  by σ;  and  exp (s − log S) = exp s / S  for S > 0.  So the log-softmax written as  a·q − (m·q + zmax + log S)
  is  (a − m)/σ − zmax − log S , and its exponential is the softmax  exp(shifted)/S.
-/
import Mathlib

noncomputable section

open scoped BigOperators

namespace KL.Re

variable {ι : Type*} [Fintype ι] [Nonempty ι]

section defs
variable (Nr e : ℝ) (a : ι → ℝ)

/-- The mean of the row. -/
def mean : ℝ := (∑ n, a n) / Nr
/-- The unbiased variance, centred form. -/
def var : ℝ := (∑ n, (a n - mean Nr a) * (a n - mean Nr a)) / (Nr - 1)
/-- The variance from the sum of squares, clamped at 0. -/
def kvar : ℝ := max (((∑ n, a n * a n) - Nr * mean Nr a * mean Nr a) / (Nr - 1)) 0
/-- The standard deviation plus ε. -/
def std : ℝ := Real.sqrt (var Nr a) + e
/-- The standardised row. -/
def z (n : ι) : ℝ := (a n - mean Nr a) / std Nr e a
/-- Its largest entry. -/
def zmax : ℝ := Finset.univ.sup' Finset.univ_nonempty (z Nr e a)
/-- The largest entry of the row, standardised. -/
def kzmax : ℝ := (Finset.univ.sup' Finset.univ_nonempty a - mean Nr a) / std Nr e a
/-- The standardised row shifted by its maximum. -/
def sh (n : ι) : ℝ := z Nr e a n - zmax Nr e a
/-- The softmax denominator. -/
def S : ℝ := ∑ n, Real.exp (sh Nr e a n)
/-- The log-softmax. -/
def lp (n : ι) : ℝ := sh Nr e a n - Real.log (S Nr e a)
end defs

variable {Nr e : ℝ} {a : ι → ℝ}

omit [Nonempty ι] in
theorem sum_sq_centered (hN : (Fintype.card ι : ℝ) = Nr) (h0 : Nr ≠ 0) :
    ∑ n, (a n - mean Nr a) * (a n - mean Nr a)
      = (∑ n, a n * a n) - Nr * mean Nr a * mean Nr a := by
  have hm : ∑ n, a n = Nr * mean Nr a := by unfold mean; field_simp
  have hsq : ∀ n, (a n - mean Nr a) * (a n - mean Nr a)
      = a n * a n - 2 * mean Nr a * a n + mean Nr a * mean Nr a := fun n => by ring
  simp only [hsq, Finset.sum_add_distrib, Finset.sum_sub_distrib, ← Finset.mul_sum, Finset.sum_const,
    Finset.card_univ, nsmul_eq_mul, hN, hm]
  ring

omit [Nonempty ι] in
theorem var_nonneg (h1 : 1 < Nr) : 0 ≤ var Nr a :=
  div_nonneg (Finset.sum_nonneg fun n _ => mul_self_nonneg _) (by linarith)

omit [Nonempty ι] in
/-- The clamped sum-of-squares variance is the centred variance. -/
theorem kvar_eq (hN : (Fintype.card ι : ℝ) = Nr) (h1 : 1 < Nr) : kvar Nr a = var Nr a := by
  unfold kvar
  rw [← sum_sq_centered hN (by linarith)]
  exact max_eq_left (var_nonneg h1)

omit [Nonempty ι] in
theorem std_pos (h1 : 1 < Nr) (he : 0 < e) : 0 < std Nr e a :=
  add_pos_of_nonneg_of_pos (Real.sqrt_nonneg _) he

/-- The maximum moves through the increasing map t ↦ (t − m)/σ. -/
theorem kzmax_eq (hs : 0 < std Nr e a) : kzmax Nr e a = zmax Nr e a := by
  have hmono : Monotone (fun t : ℝ => (t - mean Nr a) / std Nr e a) := fun x y hxy =>
    div_le_div_of_nonneg_right (sub_le_sub_right hxy _) hs.le
  unfold kzmax zmax
  exact Finset.comp_sup'_eq_sup'_comp Finset.univ_nonempty
    (fun t : ℝ => (t - mean Nr a) / std Nr e a) hmono.map_sup

/-- Multiplying by the reciprocal and subtracting m·q + zmax is standardising and shifting. -/
theorem kshift_eq (n : ι) :
    a n * (1 / std Nr e a) - (mean Nr a * (1 / std Nr e a) + zmax Nr e a) = sh Nr e a n := by
  unfold sh z; ring

theorem S_pos : 0 < S Nr e a :=
  Finset.sum_pos (fun n _ => Real.exp_pos _) Finset.univ_nonempty

/-- The log-softmax in the arrangement  a·q − (m·q + zmax + log S). -/
theorem klp_eq (n : ι) :
    a n * (1 / std Nr e a) - (mean Nr a * (1 / std Nr e a) + zmax Nr e a + Real.log (S Nr e a))
      = lp Nr e a n := by
  unfold lp; rw [← kshift_eq]; ring

/-- The exponential of the log-softmax is the softmax. -/
theorem exp_lp (n : ι) : Real.exp (lp Nr e a n) = Real.exp (sh Nr e a n) / S Nr e a := by
  unfold lp; rw [Real.exp_sub, Real.exp_log S_pos]

end KL.Re

end
-- ==== Proof.KlMath.lean ====
/-
  On rows of real numbers the kernel's arrangement of the Kullback–Leibler loss and the reference's are the same
  extended real.

  Every quantity of either arrangement, evaluated on a row of real numbers, is the coercion of a real number:
  a finite sum or a supremum over a nonempty finite index of coercions is the coercion of the sum or maximum;
  division by a nonzero real, the square root of a nonnegative real and the logarithm of a positive real stay
  real.  Stage by stage the kernel's quantities are shown to be the reals of the real-number model — through
  its identities: the clamped sum-of-squares variance is the centred one, the maximum moves through the
  standardisation, multiplying by 1/σ is dividing by σ — and so are the reference's.  Both log-softmaxes are then
  the coercion of one real function, the reference's softmax is the coercion of its exponential, and the two
  Kullback–Leibler sums agree term by term.
-/
import Mathlib
import proofs.«111140_j6493990552354_2_alg».proof.Proof.Spec
import proofs.«111140_j6493990552354_2_alg».proof.Proof.Consts
import proofs.«111140_j6493990552354_2_alg».proof.Proof.KlReal

noncomputable section

open scoped BigOperators

namespace KL

open Idealize.ShloMosaic

/-! ## Coercions move out of sums, suprema and the operations with corners -/

theorem sum_coe {ι : Type*} (s : Finset ι) (f : ι → ℝ) :
    ∑ n ∈ s, ((f n : ℝ) : EReal) = ((∑ n ∈ s, f n : ℝ) : EReal) := by
  classical
  induction s using Finset.induction_on with
  | empty => simp
  | insert i s hi ih => rw [Finset.sum_insert hi, Finset.sum_insert hi, ih, EReal.coe_add]

theorem iSup_coe {ι : Type*} [Fintype ι] [Nonempty ι] (f : ι → ℝ) :
    ⨆ n, ((f n : ℝ) : EReal) = ((Finset.univ.sup' Finset.univ_nonempty f : ℝ) : EReal) := by
  apply le_antisymm
  · exact iSup_le fun n => EReal.coe_le_coe_iff.mpr (Finset.le_sup' f (Finset.mem_univ n))
  · obtain ⟨n, -, hn⟩ := Finset.exists_mem_eq_sup' Finset.univ_nonempty f
    rw [hn]; exact le_iSup (fun n => ((f n : ℝ) : EReal)) n

theorem div_coe_coe (x : ℝ) {y : ℝ} (hy : y ≠ 0) :
    Ideal.div (x : EReal) (y : EReal) = ((x / y : ℝ) : EReal) := by
  rw [Ideal.div_coe hy, ← EReal.coe_mul, mul_one_div]

theorem sqrt_coe_nonneg {r : ℝ} (h : 0 ≤ r) : Ideal.sqrt (r : EReal) = ((Real.sqrt r : ℝ) : EReal) := by
  rw [Ideal.sqrt_coe, if_neg (not_lt.mpr h)]

theorem log_coe_pos {r : ℝ} (h : 0 < r) : Ideal.log (r : EReal) = ((Real.log r : ℝ) : EReal) := by
  rw [Ideal.log_coe, if_neg (not_le.mpr h)]

/-! ## A row of real numbers -/

/-- A row of real numbers, read on the extended reals. -/
def up (a : Fin N → ℝ) : Row := fun n => ((a n : ℝ) : EReal)

@[simp] theorem up_apply (a : Fin N → ℝ) (n : Fin N) : up a n = ((a n : ℝ) : EReal) := rfl

instance : Nonempty (Fin N) := ⟨⟨0, by norm_num⟩⟩

theorem card_row : (Fintype.card (Fin N) : ℝ) = 16777216 := by
  rw [Fintype.card_fin]; show ((16777216 : ℕ) : ℝ) = 16777216; norm_num

theorem one_lt_NR : (1 : ℝ) < 16777216 := by norm_num
theorem NR_ne : (16777216 : ℝ) ≠ 0 := by norm_num
theorem NRm1_ne : (16777216 : ℝ) - 1 ≠ 0 := by norm_num

/-! ## The kernel's stages on a real row are the real model's -/

theorem kMean_up (a : Fin N → ℝ) : kMean (up a) = ((Re.mean 16777216 a : ℝ) : EReal) := by
  unfold kMean Re.mean
  simp only [up_apply]
  rw [sum_coe, cN_eq, div_coe_coe _ NR_ne]

theorem kVar_up (a : Fin N → ℝ) : kVar (up a) = ((Re.var 16777216 a : ℝ) : EReal) := by
  rw [← Re.kvar_eq card_row one_lt_NR]
  have h15 : (16777215 : ℝ) = 16777216 - 1 := by norm_num
  unfold kVar Re.kvar
  rw [kMean_up, cN_eq, cNm1_eq, h15]
  simp only [up_apply, ← EReal.coe_mul, sum_coe, ← EReal.coe_sub]
  rw [div_coe_coe _ NRm1_ne, ← EReal.coe_zero]
  exact (EReal.coe_strictMono.monotone.map_max).symm

theorem kStd_up (a : Fin N → ℝ) {e : ℝ} (he : 0 < e) (hce : cEps = (e : EReal)) : kStd (up a) = ((Re.std 16777216 e a : ℝ) : EReal) := by
  unfold kStd Re.std
  rw [kVar_up, sqrt_coe_nonneg (Re.var_nonneg one_lt_NR), hce, ← EReal.coe_add]

theorem kZmax_up (a : Fin N → ℝ) {e : ℝ} (he : 0 < e) (hce : cEps = (e : EReal)) : kZmax (up a) = ((Re.zmax 16777216 e a : ℝ) : EReal) := by
  have hs : 0 < Re.std 16777216 e a := Re.std_pos one_lt_NR he
  rw [← Re.kzmax_eq hs]
  unfold kZmax Re.kzmax
  rw [kMean_up, kStd_up a he hce]
  simp only [up_apply]
  rw [iSup_coe, ← EReal.coe_sub, div_coe_coe _ hs.ne']

theorem kQ_up (a : Fin N → ℝ) {e : ℝ} (he : 0 < e) (hce : cEps = (e : EReal)) : kQ (up a) = ((1 / Re.std 16777216 e a : ℝ) : EReal) := by
  have hs : 0 < Re.std 16777216 e a := Re.std_pos one_lt_NR he
  unfold kQ
  rw [kStd_up a he hce, cOne_eq, ← EReal.coe_one, div_coe_coe _ hs.ne']

theorem kRc_up (a : Fin N → ℝ) {e : ℝ} (he : 0 < e) (hce : cEps = (e : EReal)) :
    kRc (up a) = ((Re.mean 16777216 a * (1 / Re.std 16777216 e a) + Re.zmax 16777216 e a : ℝ) : EReal) := by
  unfold kRc
  rw [kMean_up, kQ_up a he hce, kZmax_up a he hce, ← EReal.coe_mul, ← EReal.coe_add]

theorem kSumExp_up (a : Fin N → ℝ) {e : ℝ} (he : 0 < e) (hce : cEps = (e : EReal)) : kSumExp (up a) = ((Re.S 16777216 e a : ℝ) : EReal) := by
  unfold kSumExp Re.S
  rw [kQ_up a he hce, kRc_up a he hce]
  simp only [up_apply, ← EReal.coe_mul, ← EReal.coe_sub, Re.kshift_eq, Ideal.exp_coe, sum_coe]

theorem kC_up (a : Fin N → ℝ) {e : ℝ} (he : 0 < e) (hce : cEps = (e : EReal)) :
    kC (up a) = ((Re.mean 16777216 a * (1 / Re.std 16777216 e a) + Re.zmax 16777216 e a
      + Real.log (Re.S 16777216 e a) : ℝ) : EReal) := by
  unfold kC
  rw [kRc_up a he hce, kSumExp_up a he hce, log_coe_pos Re.S_pos, ← EReal.coe_add]

theorem kLp_up (a : Fin N → ℝ) {e : ℝ} (he : 0 < e) (hce : cEps = (e : EReal)) (n : Fin N) : kLp (up a) n = ((Re.lp 16777216 e a n : ℝ) : EReal) := by
  unfold kLp
  rw [kQ_up a he hce, kC_up a he hce, up_apply, ← EReal.coe_mul, ← EReal.coe_sub, Re.klp_eq]

/-! ## The reference's stages on a real row are the real model's -/

theorem rMean_up (a : Fin N → ℝ) : rMean (up a) = ((Re.mean 16777216 a : ℝ) : EReal) := kMean_up a

theorem rVar_up (a : Fin N → ℝ) : rVar (up a) = ((Re.var 16777216 a : ℝ) : EReal) := by
  unfold rVar Re.var
  rw [rMean_up, cN_eq]
  simp only [up_apply, ← EReal.coe_sub, ← EReal.coe_mul, sum_coe]
  rw [← EReal.coe_one, ← EReal.coe_sub, div_coe_coe _ NRm1_ne]

theorem rStd_up (a : Fin N → ℝ) {e : ℝ} (he : 0 < e) (hce : cEps = (e : EReal)) : rStd (up a) = ((Re.std 16777216 e a : ℝ) : EReal) := by
  unfold rStd Re.std
  rw [rVar_up, sqrt_coe_nonneg (Re.var_nonneg one_lt_NR), hce, ← EReal.coe_add]

theorem rZ_up (a : Fin N → ℝ) {e : ℝ} (he : 0 < e) (hce : cEps = (e : EReal)) (n : Fin N) : rZ (up a) n = ((Re.z 16777216 e a n : ℝ) : EReal) := by
  have hs : 0 < Re.std 16777216 e a := Re.std_pos one_lt_NR he
  unfold rZ Re.z
  rw [rMean_up, rStd_up a he hce, up_apply, ← EReal.coe_sub, div_coe_coe _ hs.ne']

theorem rZmax_up (a : Fin N → ℝ) {e : ℝ} (he : 0 < e) (hce : cEps = (e : EReal)) : rZmax (up a) = ((Re.zmax 16777216 e a : ℝ) : EReal) := by
  unfold rZmax Re.zmax
  simp only [rZ_up a he hce]
  rw [iSup_coe]

theorem rSh_up (a : Fin N → ℝ) {e : ℝ} (he : 0 < e) (hce : cEps = (e : EReal)) (n : Fin N) : rSh (up a) n = ((Re.sh 16777216 e a n : ℝ) : EReal) := by
  unfold rSh Re.sh
  rw [rZ_up a he hce, rZmax_up a he hce, ← EReal.coe_sub]

theorem rS_up (a : Fin N → ℝ) {e : ℝ} (he : 0 < e) (hce : cEps = (e : EReal)) : rS (up a) = ((Re.S 16777216 e a : ℝ) : EReal) := by
  unfold rS Re.S
  simp only [rSh_up a he hce, Ideal.exp_coe, sum_coe]

theorem rP_up (a : Fin N → ℝ) {e : ℝ} (he : 0 < e) (hce : cEps = (e : EReal)) (n : Fin N) :
    rP (up a) n = ((Real.exp (Re.lp 16777216 e a n) : ℝ) : EReal) := by
  unfold rP
  rw [rSh_up a he hce, rS_up a he hce, Ideal.exp_coe, div_coe_coe _ Re.S_pos.ne', Re.exp_lp]

theorem rLp_up (a : Fin N → ℝ) {e : ℝ} (he : 0 < e) (hce : cEps = (e : EReal)) (n : Fin N) : rLp (up a) n = ((Re.lp 16777216 e a n : ℝ) : EReal) := by
  unfold rLp Re.lp
  rw [rSh_up a he hce, rS_up a he hce, log_coe_pos Re.S_pos, ← EReal.coe_sub]

/-! ## The two Kullback–Leibler sums, and the results -/

theorem kKl_eq_rKl (ac ai : Fin N → ℝ) {e : ℝ} (he : 0 < e) (hce : cEps = (e : EReal)) :
    kKl (up ac) (up ai) = rKl (up ac) (up ai) := by
  unfold kKl rKl
  simp only [kLp_up _ he hce, rLp_up _ he hce, rP_up _ he hce, Ideal.exp_coe]

/-- On finite arguments the kernel's arrangement and the reference's give the same result. -/
theorem kResult_eq_rResult (X Y : Fin 4 → Row)
    (hX : ∀ p n, ∃ a : ℝ, X p n = (a : EReal)) (hY : ∀ p n, ∃ a : ℝ, Y p n = (a : EReal)) :
    kResult X Y = rResult X Y := by
  obtain ⟨e, he, hce⟩ := cEps_pos
  choose A hA using hX
  choose B hB using hY
  have hX' : X = fun p => up (A p) := funext fun p => funext fun n => hA p n
  have hY' : Y = fun p => up (B p) := funext fun p => funext fun n => hB p n
  subst hX' hY'
  unfold kResult rResult
  simp only [kKl_eq_rKl _ _ he hce]

end KL

end
-- ==== Proof.Finite.lean ====
/-
  The precondition, read back: both argument arrays hold real numbers. The printed predicate is the conjunction of
  two "all entries satisfy |x| < +∞"; a conjunction of bits is 1 only if both are, an all-reduction by "and" that
  came out 1 met a 1 at every index, and on the extended reals max x (−x) < ⊤ excludes both infinities.
-/
import proofs.«111140_j6493990552354_2_alg».proof.Pre_finite_inputs
import proofs.«111140_j6493990552354_2_alg».proof.Proof.Consts
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- An extended real whose absolute value is below +∞ is a real number. -/
theorem real_of_abs_lt_top (x : EReal) (h : max x (-x) < ⊤) : ∃ a : ℝ, x = (a : EReal) := by
  induction x using EReal.rec with
  | bot => simp at h
  | coe a => exact ⟨a, rfl⟩
  | top => simp at h

/-- The comparison "less than" on extended reals that answered 1 holds. -/
theorem lt_of_cmp_olt (x y : EReal) (h : Ideal.cmp .olt x y = 1#1) : x < y := by
  unfold Ideal.cmp at h
  by_contra hn
  simp [hn] at h

variable [hP : Cert.Pre_finite_inputs.Facts]

/-- Where the printed precondition is all ones, every entry of both arrays is a real number. -/
theorem real_of_pre (A B : FVec Ideal Cert.Pre_finite_inputs.S4x16777216 .f32)
    (h : Cert.Pre_finite_inputs.fn (F := Ideal) A B = fun _ => 1#1) :
    (∀ i, ∃ a : ℝ, A i = (a : EReal)) ∧ (∀ i, ∃ a : ℝ, B i = (a : EReal)) := by
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ _ h1 i
    have e' : Ideal.cmp .olt (max (A i) (-(A i))) (Ideal.ofBits .f32 0x7F800000#32) = 1#1 := e
    rw [KL.posInf_eq] at e'
    exact real_of_abs_lt_top _ (lt_of_cmp_olt _ _ e')
  · have e := Host.reduce_andi_all _ _ _ _ _ h2 i
    have e' : Ideal.cmp .olt (max (B i) (-(B i))) (Ideal.ofBits .f32 0x7F800000#32) = 1#1 := e
    rw [KL.posInf_eq] at e'
    exact real_of_abs_lt_top _ (lt_of_cmp_olt _ _ e')

end Cert.Finite

end
-- ==== Proof.Assemble.lean ====
/-
  The claims, from their three ingredients. Given (i) what the three regions' accumulators end at, (ii) that the
  kernel program's host arithmetic turns those into the kernel's arrangement of the result, and (iii) that the
  reference's run ends at the reference's arrangement, the certificate's five conjuncts follow: the two kernel
  frames are the generated ones, the reference's frame is its run with the result forgotten, the idealization
  rewrote nothing, and the two results agree because under the precondition every entry of both arrays is a real
  number, where the two arrangements are one function.
-/
import proofs.«111140_j6493990552354_2_alg».proof.Defs
import proofs.«111140_j6493990552354_2_alg».proof.Proof.Gen.Kernel
import proofs.«111140_j6493990552354_2_alg».proof.Proof.Gen.Kernel.Frame
import proofs.«111140_j6493990552354_2_alg».proof.Proof.Gen.KernelIdeal
import proofs.«111140_j6493990552354_2_alg».proof.Proof.Gen.KernelIdeal.Frame
import proofs.«111140_j6493990552354_2_alg».proof.Proof.Gen.ReferenceIdeal
import proofs.«111140_j6493990552354_2_alg».proof.Proof.Gen.Pre_finite_inputs
import proofs.«111140_j6493990552354_2_alg».proof.Proof.KRun
import proofs.«111140_j6493990552354_2_alg».proof.Proof.KFacts
import proofs.«111140_j6493990552354_2_alg».proof.Proof.KlMath
import proofs.«111140_j6493990552354_2_alg».proof.Proof.Finite

noncomputable section

namespace Cert.Proof

open Idealize.ShloMosaic Idealize.SL.Sem

/-- The kernel program's host arithmetic, read: the last boundary's contents at the result buffer. -/
abbrev HostReads : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD),
    Cert.KernelIdeal.Gen.W7 m ρ c (Proc.devRef .tc Cert.KernelIdeal.main_v93)
      = (fun _ => KL.kResult (KL.rows (m ((c.tc : Thread Cert.KernelIdeal.nD Cert.KernelIdeal.τ).loc Cert.KernelIdeal.main_arg0)))
          (KL.rows (m ((c.tc : Thread Cert.KernelIdeal.nD Cert.KernelIdeal.τ).loc Cert.KernelIdeal.main_arg1))))

/-- The reference's run, read. -/
abbrev RefRuns : Prop :=
  ∀ (m : (ℓ : Loc Cert.ReferenceIdeal.nD Cert.ReferenceIdeal.τ Cert.ReferenceIdeal.sig) → Buf (Elt Ideal) ℓ)
    (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v55)
            = (fun _ => KL.rResult (KL.rows (m ((c.tc : Thread Cert.ReferenceIdeal.nD Cert.ReferenceIdeal.τ).loc Cert.ReferenceIdeal.main_arg0)))
                (KL.rows (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

theorem claim_of (hH : HostReads) (hRef : RefRuns) : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (hRef m ρ),
    trivial,
    by
      intro m ρ m' ρ' hpre hagree
      refine ⟨fun c => fun _ => KL.kResult
          (KL.rows (m ((c.tc : Thread Cert.KernelIdeal.nD Cert.KernelIdeal.τ).loc Cert.KernelIdeal.main_arg0)))
          (KL.rows (m ((c.tc : Thread Cert.KernelIdeal.nD Cert.KernelIdeal.τ).loc Cert.KernelIdeal.main_arg1))), ?_, ?_⟩
      · exact (θ_run Cert.KernelIdeal.defs _ _).mono (fun _ h c => ⟨(h c).1.trans (hH m ρ c), (h c).2⟩)
          (Cert.KernelIdeal.KValue.run_result (F := Ideal) m ρ)
      · refine (θ_run Cert.ReferenceIdeal.defs _ _).mono (fun _ h c => ⟨(h c).1.trans ?_, (h c).2⟩) (hRef m' ρ')
        rw [(hagree c).1, (hagree c).2]
        obtain ⟨hX, hY⟩ := Cert.Finite.real_of_pre (hP := Cert.Pre_finite_inputs.Gen.facts) _ _ (hpre c)
        funext _
        exact (KL.kResult_eq_rResult _ _ (fun p n => hX _) (fun p n => hY _)).symm⟩

end Cert.Proof

end
-- ==== Proof.KReg0Pieces.lean ====
/-
  Statistics region, the body's stores read back as values. At every grid point the body leaves in each of its six
  accumulator buffers ONE block: the accumulator's previous contents combined with a lane reduction of the point's
  input block (sum, sum of squares, maximum; of the current matrix for outputs 2–4, of the initial matrix for 5–7).
  At the first tile of a core the previous contents are what the reset just stored (zeros, or −∞ for the maxima);
  elsewhere they are what the point before left. Each lemma names that block as the store's payload applied to the
  input block and the previous contents, for any float values.
-/
import proofs.«111140_j6493990552354_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-! ## A point that carries the accumulators over: each output is its one store's payload, over the two input
blocks and the accumulator's previous contents -/

theorem out_B_2 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : ¬cond0_0 i) (x0 x1 : Vec F S32x16384 .f32) (xo2 xo3 xo4 xo5 xo6 xo7 : Vec F S32x1 .f32) :
    out0_B_2 c i a2 h2 a3 h3 a4 h4 a5 h5 a6 h6 a7 h7 a8 h8 a9 h9 hc x0 x1 xo2 xo3 xo4 xo5 xo6 xo7 = k0_pay12 x0 xo2 := by
  unfold out0_B_2
  rw [View.read_writes_eq_canon _ _ _ (cover0_B_2 c i a2 h2 a3 h3 a4 h4 a5 h5 a6 h6 a7 h7 a8 h8 a9 h9 hc x0 x1 xo2 xo3 xo4 xo5 xo6 xo7)]
  unfold kernelRun0_B
  dsimp only
  sl_unfold_words
  rw [View.canon_unit_zero hz]
  simp only [View.readAt_eq_ld, h2.read_unread, h4.read_unread, View.ld_unit_zero (S := S32x16384) hz, View.ld_unit_zero (S := S32x1) hz]

theorem out_B_3 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : ¬cond0_0 i) (x0 x1 : Vec F S32x16384 .f32) (xo2 xo3 xo4 xo5 xo6 xo7 : Vec F S32x1 .f32) :
    out0_B_3 c i a2 h2 a3 h3 a4 h4 a5 h5 a6 h6 a7 h7 a8 h8 a9 h9 hc x0 x1 xo2 xo3 xo4 xo5 xo6 xo7 = k0_pay13 x0 xo3 := by
  unfold out0_B_3
  rw [View.read_writes_eq_canon _ _ _ (cover0_B_3 c i a2 h2 a3 h3 a4 h4 a5 h5 a6 h6 a7 h7 a8 h8 a9 h9 hc x0 x1 xo2 xo3 xo4 xo5 xo6 xo7)]
  unfold kernelRun0_B
  dsimp only
  sl_unfold_words
  rw [View.canon_unit_zero hz]
  simp only [View.readAt_eq_ld, h2.read_unread, h5.read_unread, View.ld_unit_zero (S := S32x16384) hz, View.ld_unit_zero (S := S32x1) hz]

theorem out_B_4 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : ¬cond0_0 i) (x0 x1 : Vec F S32x16384 .f32) (xo2 xo3 xo4 xo5 xo6 xo7 : Vec F S32x1 .f32) :
    out0_B_4 c i a2 h2 a3 h3 a4 h4 a5 h5 a6 h6 a7 h7 a8 h8 a9 h9 hc x0 x1 xo2 xo3 xo4 xo5 xo6 xo7 = k0_pay14 x0 xo4 := by
  unfold out0_B_4
  rw [View.read_writes_eq_canon _ _ _ (cover0_B_4 c i a2 h2 a3 h3 a4 h4 a5 h5 a6 h6 a7 h7 a8 h8 a9 h9 hc x0 x1 xo2 xo3 xo4 xo5 xo6 xo7)]
  unfold kernelRun0_B
  dsimp only
  sl_unfold_words
  rw [View.canon_unit_zero hz]
  simp only [View.readAt_eq_ld, h2.read_unread, h6.read_unread, View.ld_unit_zero (S := S32x16384) hz, View.ld_unit_zero (S := S32x1) hz]

theorem out_B_5 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : ¬cond0_0 i) (x0 x1 : Vec F S32x16384 .f32) (xo2 xo3 xo4 xo5 xo6 xo7 : Vec F S32x1 .f32) :
    out0_B_5 c i a2 h2 a3 h3 a4 h4 a5 h5 a6 h6 a7 h7 a8 h8 a9 h9 hc x0 x1 xo2 xo3 xo4 xo5 xo6 xo7 = k0_pay1 (k0_pay15 xo5) (k0_pay16 x1) := by
  unfold out0_B_5
  rw [View.read_writes_eq_canon _ _ _ (cover0_B_5 c i a2 h2 a3 h3 a4 h4 a5 h5 a6 h6 a7 h7 a8 h8 a9 h9 hc x0 x1 xo2 xo3 xo4 xo5 xo6 xo7)]
  unfold kernelRun0_B
  dsimp only
  sl_unfold_words
  rw [View.canon_unit_zero hz]
  simp only [View.readAt_eq_ld, h3.read_unread, h7.read_unread, View.ld_unit_zero (S := S32x16384) hz, View.ld_unit_zero (S := S32x1) hz]

theorem out_B_6 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : ¬cond0_0 i) (x0 x1 : Vec F S32x16384 .f32) (xo2 xo3 xo4 xo5 xo6 xo7 : Vec F S32x1 .f32) :
    out0_B_6 c i a2 h2 a3 h3 a4 h4 a5 h5 a6 h6 a7 h7 a8 h8 a9 h9 hc x0 x1 xo2 xo3 xo4 xo5 xo6 xo7 = k0_pay2 (k0_pay11 x1) xo6 := by
  unfold out0_B_6
  rw [View.read_writes_eq_canon _ _ _ (cover0_B_6 c i a2 h2 a3 h3 a4 h4 a5 h5 a6 h6 a7 h7 a8 h8 a9 h9 hc x0 x1 xo2 xo3 xo4 xo5 xo6 xo7)]
  unfold kernelRun0_B
  dsimp only
  sl_unfold_words
  rw [View.canon_unit_zero hz]
  simp only [View.readAt_eq_ld, h3.read_unread, h8.read_unread, View.ld_unit_zero (S := S32x16384) hz, View.ld_unit_zero (S := S32x1) hz]

theorem out_B_7 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : ¬cond0_0 i) (x0 x1 : Vec F S32x16384 .f32) (xo2 xo3 xo4 xo5 xo6 xo7 : Vec F S32x1 .f32) :
    out0_B_7 c i a2 h2 a3 h3 a4 h4 a5 h5 a6 h6 a7 h7 a8 h8 a9 h9 hc x0 x1 xo2 xo3 xo4 xo5 xo6 xo7 = k0_pay3 (k0_pay11 x1) xo7 := by
  unfold out0_B_7
  rw [View.read_writes_eq_canon _ _ _ (cover0_B_7 c i a2 h2 a3 h3 a4 h4 a5 h5 a6 h6 a7 h7 a8 h8 a9 h9 hc x0 x1 xo2 xo3 xo4 xo5 xo6 xo7)]
  unfold kernelRun0_B
  dsimp only
  sl_unfold_words
  rw [View.canon_unit_zero hz]
  simp only [View.readAt_eq_ld, h3.read_unread, h9.read_unread, View.ld_unit_zero (S := S32x16384) hz, View.ld_unit_zero (S := S32x1) hz]

/-! ## A point that resets the accumulators: the same payloads, the accumulator read back from the reset store -/

theorem out_A_2 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : cond0_0 i) (x0 x1 : Vec F S32x16384 .f32) :
    out0_A_2 c i a2 h2 a3 h3 a4 h4 a5 h5 a6 h6 a7 h7 a8 h8 a9 h9 hc x0 x1 = k0_pay12 x0 k0_pay4 := by
  unfold out0_A_2
  rw [View.read_writes_eq_canon _ _ _ (cover0_A_2 c i a2 h2 a3 h3 a4 h4 a5 h5 a6 h6 a7 h7 a8 h8 a9 h9 hc x0 x1)]
  unfold kernelRun0_A
  dsimp only
  sl_unfold_words
  rw [View.canon_cons_unit_zero (S := S32x1) hz, View.readCov_unit_zero (S := S32x1) _ hz]
  simp only [View.readAt_eq_ld, h2.read_unread, View.ld_unit_zero (S := S32x16384) hz]

theorem out_A_3 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : cond0_0 i) (x0 x1 : Vec F S32x16384 .f32) :
    out0_A_3 c i a2 h2 a3 h3 a4 h4 a5 h5 a6 h6 a7 h7 a8 h8 a9 h9 hc x0 x1 = k0_pay13 x0 k0_pay5 := by
  unfold out0_A_3
  rw [View.read_writes_eq_canon _ _ _ (cover0_A_3 c i a2 h2 a3 h3 a4 h4 a5 h5 a6 h6 a7 h7 a8 h8 a9 h9 hc x0 x1)]
  unfold kernelRun0_A
  dsimp only
  sl_unfold_words
  rw [View.canon_cons_unit_zero (S := S32x1) hz, View.readCov_unit_zero (S := S32x1) _ hz]
  simp only [View.readAt_eq_ld, h2.read_unread, View.ld_unit_zero (S := S32x16384) hz]

theorem out_A_4 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : cond0_0 i) (x0 x1 : Vec F S32x16384 .f32) :
    out0_A_4 c i a2 h2 a3 h3 a4 h4 a5 h5 a6 h6 a7 h7 a8 h8 a9 h9 hc x0 x1 = k0_pay14 x0 k0_pay6 := by
  unfold out0_A_4
  rw [View.read_writes_eq_canon _ _ _ (cover0_A_4 c i a2 h2 a3 h3 a4 h4 a5 h5 a6 h6 a7 h7 a8 h8 a9 h9 hc x0 x1)]
  unfold kernelRun0_A
  dsimp only
  sl_unfold_words
  rw [View.canon_cons_unit_zero (S := S32x1) hz, View.readCov_unit_zero (S := S32x1) _ hz]
  simp only [View.readAt_eq_ld, h2.read_unread, View.ld_unit_zero (S := S32x16384) hz]

theorem out_A_5 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : cond0_0 i) (x0 x1 : Vec F S32x16384 .f32) :
    out0_A_5 c i a2 h2 a3 h3 a4 h4 a5 h5 a6 h6 a7 h7 a8 h8 a9 h9 hc x0 x1 = k0_pay1 (k0_pay15 k0_pay7) (k0_pay16 x1) := by
  unfold out0_A_5
  rw [View.read_writes_eq_canon _ _ _ (cover0_A_5 c i a2 h2 a3 h3 a4 h4 a5 h5 a6 h6 a7 h7 a8 h8 a9 h9 hc x0 x1)]
  unfold kernelRun0_A
  dsimp only
  sl_unfold_words
  rw [View.canon_cons_unit_zero (S := S32x1) hz, View.readCov_unit_zero (S := S32x1) _ hz]
  simp only [View.readAt_eq_ld, h3.read_unread, View.ld_unit_zero (S := S32x16384) hz]

theorem out_A_6 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : cond0_0 i) (x0 x1 : Vec F S32x16384 .f32) :
    out0_A_6 c i a2 h2 a3 h3 a4 h4 a5 h5 a6 h6 a7 h7 a8 h8 a9 h9 hc x0 x1 = k0_pay2 (k0_pay11 x1) k0_pay8 := by
  unfold out0_A_6
  rw [View.read_writes_eq_canon _ _ _ (cover0_A_6 c i a2 h2 a3 h3 a4 h4 a5 h5 a6 h6 a7 h7 a8 h8 a9 h9 hc x0 x1)]
  unfold kernelRun0_A
  dsimp only
  sl_unfold_words
  rw [View.canon_cons_unit_zero (S := S32x1) hz, View.readCov_unit_zero (S := S32x1) _ hz]
  simp only [View.readAt_eq_ld, h3.read_unread, View.ld_unit_zero (S := S32x16384) hz]

theorem out_A_7 (c : Dev nD) (i : grid0.Coords) (a2 : Memref sig .tc .vmem S32x16384 .f32) (h2 : a2.IsWhole) (a3 : Memref sig .tc .vmem S32x16384 .f32) (h3 : a3.IsWhole) (a4 : Memref sig .tc .vmem S32x1 .f32) (h4 : a4.IsWhole) (a5 : Memref sig .tc .vmem S32x1 .f32) (h5 : a5.IsWhole) (a6 : Memref sig .tc .vmem S32x1 .f32) (h6 : a6.IsWhole) (a7 : Memref sig .tc .vmem S32x1 .f32) (h7 : a7.IsWhole) (a8 : Memref sig .tc .vmem S32x1 .f32) (h8 : a8.IsWhole) (a9 : Memref sig .tc .vmem S32x1 .f32) (h9 : a9.IsWhole) (hc : cond0_0 i) (x0 x1 : Vec F S32x16384 .f32) :
    out0_A_7 c i a2 h2 a3 h3 a4 h4 a5 h5 a6 h6 a7 h7 a8 h8 a9 h9 hc x0 x1 = k0_pay3 (k0_pay11 x1) k0_pay9 := by
  unfold out0_A_7
  rw [View.read_writes_eq_canon _ _ _ (cover0_A_7 c i a2 h2 a3 h3 a4 h4 a5 h5 a6 h6 a7 h7 a8 h8 a9 h9 hc x0 x1)]
  unfold kernelRun0_A
  dsimp only
  sl_unfold_words
  rw [View.canon_cons_unit_zero (S := S32x1) hz, View.readCov_unit_zero (S := S32x1) _ hz]
  simp only [View.readAt_eq_ld, h3.read_unread, View.ld_unit_zero (S := S32x16384) hz]

end Cert.KernelIdeal.KReg0
end
-- ==== Proof.KReg0Pay.lean ====
/-
  Statistics region, the body's arithmetic at one accumulator row, on the extended reals.

  Each of the six stores writes a [32, 1] column: the accumulator's previous column combined, row by row, with a
  reduction of the [32, 16384] input block along its lanes — for row r the sum of the block's row r, the sum of its
  squares, or its maximum (a fold of max from −∞, which is the supremum). The reset columns are 0, or −∞ for the
  maxima. A [32] vector recast as a [32, 1] column reads, at (r, 0), its entry r.
-/
import proofs.«111140_j6493990552354_2_alg».proof.Proof.Gen.KernelIdeal.Skeleton
import proofs.«111140_j6493990552354_2_alg».proof.Proof.Consts
import Idealize.ShloMosaic.Lib.Pipeline.Value
import Idealize.ShloMosaic.Lib.ValueIdx
import Idealize.ShloMosaic.PureOps.Ideal.Laws

noncomputable section

open Idealize.ShloMosaic
open Idealize.ShloMosaic.ValueIdx
open scoped BigOperators

namespace Cert.KernelIdeal.KReg0

open Cert.KernelIdeal Cert.KernelIdeal.Gen

/-- Folding max from the bottom element over a finite type is the supremum. -/
theorem fold_max_bot {ι : Type} [Fintype ι] (x : ι → EReal) :
    (Finset.univ : Finset ι).fold max ⊥ x = ⨆ i, x i := by
  apply le_antisymm
  · rw [Finset.fold_max_le]
    exact ⟨bot_le, fun i _ => le_iSup x i⟩
  · refine iSup_le fun i => ?_
    rw [Finset.le_fold_max]
    exact Or.inr ⟨i, Finset.mem_univ _, le_rfl⟩

/-- The index the lane reduction puts back under row r at lane l is (r, l). -/
theorem lift_row (h : S32x16384.Reduces [1] S32) (r : Fin 32) (l : Fin 16384) :
    h.lift (ix1 r) l = ix2 r l :=
  funext fun c => Fin.ext (by
    match c with
    | ⟨0, _⟩ => rfl
    | ⟨1, _⟩ => rfl)

/-- The sum along the lanes at row r. -/
theorem rowSum_apply (X : FVec Ideal S32x16384 .f32) (h : S32x16384.Reduces [1] S32) (hφ : FKind.Formats .f32)
    (hacc : (0x00000000#32 : BitVec 32) = FKind.add.neutral .f32 hφ) (r : Fin 32) :
    multiReduction .add [1] S32 X 0x00000000#32 h hφ hacc (ix1 r) = ∑ l : Fin 16384, X (ix2 r l) := by
  refine (Ideal.multiReduction_add_single X _ h hφ hacc (ix1 r)).trans ?_
  show ∑ l : Fin 16384, _ = _
  exact Finset.sum_congr rfl fun l _ => congrArg X (lift_row h r l)

/-- The maximum along the lanes at row r, started from −∞: the supremum of the row. -/
theorem rowMax_apply (X : FVec Ideal S32x16384 .f32) (h : S32x16384.Reduces [1] S32) (hφ : FKind.Formats .f32)
    (hacc : (0xFF800000#32 : BitVec 32) = FKind.maximumf.neutral .f32 hφ) (r : Fin 32) :
    multiReduction .maximumf [1] S32 X 0xFF800000#32 h hφ hacc (ix1 r) = ⨆ l : Fin 16384, X (ix2 r l) := by
  refine (Ideal.multiReduction_maximumf_single X _ h hφ hacc (ix1 r)).trans ?_
  show (Finset.univ : Finset (Fin 16384)).fold max (Ideal.ofBits .f32 0xFF800000#32) (fun l => X (h.lift (ix1 r) l)) = _
  rw [KL.negInf_eq]
  exact (fold_max_bot (fun l : Fin 16384 => X (h.lift (ix1 r) l))).trans
    (iSup_congr fun l => congrArg X (lift_row h r l))

/-- A [32] vector recast as a column reads, at (r, 0), its entry r. -/
theorem castCol_apply {α : Type} (v : S32.Idx → α) (h : S32.ShapeCasts S32x1) (r : Fin 32) :
    shapeCast S32x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

variable (x : Vec Ideal S32x16384 .f32) (acc : Vec Ideal S32x1 .f32) (r : Fin 32)

/-- Output 2's store: the previous column plus the current block's row sums. -/
theorem pay12_apply : k0_pay12 x acc (ix2 r (0 : Fin 1)) = acc (ix2 r (0 : Fin 1)) + ∑ l : Fin 16384, x (ix2 r l) := by
  unfold k0_pay12 k0_pay10
  dsimp only
  refine (addf_apply _ _ _).trans ?_
  refine congrArg₂ (· + ·) (congrFun (shapeCast_self acc _) _) ?_
  refine (castCol_apply _ _ r).trans ?_
  refine (rowSum_apply _ _ _ _ r).trans ?_
  exact Finset.sum_congr rfl fun l _ => congrFun (shapeCast_self x _) _

/-- Output 3's store: the previous column plus the row sums of the current block's squares. -/
theorem pay13_apply :
    k0_pay13 x acc (ix2 r (0 : Fin 1)) = acc (ix2 r (0 : Fin 1)) + ∑ l : Fin 16384, x (ix2 r l) * x (ix2 r l) := by
  unfold k0_pay13 k0_pay10
  dsimp only
  refine (addf_apply _ _ _).trans ?_
  refine congrArg₂ (· + ·) (congrFun (shapeCast_self acc _) _) ?_
  refine (castCol_apply _ _ r).trans ?_
  refine (rowSum_apply _ _ _ _ r).trans ?_
  refine Finset.sum_congr rfl fun l _ => ?_
  refine (mulf_apply _ _ _).trans ?_
  rw [shapeCast_self]

/-- Output 4's store: the larger of the previous column and the current block's row maxima. -/
theorem pay14_apply :
    k0_pay14 x acc (ix2 r (0 : Fin 1)) = max (acc (ix2 r (0 : Fin 1))) (⨆ l : Fin 16384, x (ix2 r l)) := by
  unfold k0_pay14 k0_pay10
  dsimp only
  refine (maximumf_apply _ _ _).trans ?_
  refine congrArg₂ max (congrFun (shapeCast_self acc _) _) ?_
  refine (castCol_apply _ _ r).trans ?_
  refine (rowMax_apply _ _ _ _ r).trans ?_
  exact iSup_congr fun l => congrFun (shapeCast_self x _) _

/-- Output 5's store: the previous column plus the initial block's row sums. -/
theorem pay1_apply :
    k0_pay1 (k0_pay15 acc) (k0_pay16 x) (ix2 r (0 : Fin 1)) = acc (ix2 r (0 : Fin 1)) + ∑ l : Fin 16384, x (ix2 r l) := by
  unfold k0_pay1 k0_pay15 k0_pay16 k0_pay11
  dsimp only
  refine (addf_apply _ _ _).trans ?_
  refine congrArg₂ (· + ·) (congrFun (shapeCast_self acc _) _) ?_
  refine (castCol_apply _ _ r).trans ?_
  refine (rowSum_apply _ _ _ _ r).trans ?_
  exact Finset.sum_congr rfl fun l _ => congrFun (shapeCast_self x _) _

/-- Output 6's store: the previous column plus the row sums of the initial block's squares. -/
theorem pay2_apply :
    k0_pay2 (k0_pay11 x) acc (ix2 r (0 : Fin 1)) = acc (ix2 r (0 : Fin 1)) + ∑ l : Fin 16384, x (ix2 r l) * x (ix2 r l) := by
  unfold k0_pay2 k0_pay11
  dsimp only
  refine (addf_apply _ _ _).trans ?_
  refine congrArg₂ (· + ·) (congrFun (shapeCast_self acc _) _) ?_
  refine (castCol_apply _ _ r).trans ?_
  refine (rowSum_apply _ _ _ _ r).trans ?_
  refine Finset.sum_congr rfl fun l _ => ?_
  refine (mulf_apply _ _ _).trans ?_
  rw [shapeCast_self]

/-- Output 7's store: the larger of the previous column and the initial block's row maxima. -/
theorem pay3_apply :
    k0_pay3 (k0_pay11 x) acc (ix2 r (0 : Fin 1)) = max (acc (ix2 r (0 : Fin 1))) (⨆ l : Fin 16384, x (ix2 r l)) := by
  unfold k0_pay3 k0_pay11
  dsimp only
  refine (maximumf_apply _ _ _).trans ?_
  refine congrArg₂ max (congrFun (shapeCast_self acc _) _) ?_
  refine (castCol_apply _ _ r).trans ?_
  refine (rowMax_apply _ _ _ _ r).trans ?_
  exact iSup_congr fun l => congrFun (shapeCast_self x _) _

/-- The reset columns of the four sums are zero. -/
theorem pay4_apply : (k0_pay4 : FVec Ideal S32x1 .f32) (ix2 r (0 : Fin 1)) = 0 := KL.zero_eq
theorem pay5_apply : (k0_pay5 : FVec Ideal S32x1 .f32) (ix2 r (0 : Fin 1)) = 0 := KL.zero_eq
theorem pay7_apply : (k0_pay7 : FVec Ideal S32x1 .f32) (ix2 r (0 : Fin 1)) = 0 := KL.zero_eq
theorem pay8_apply : (k0_pay8 : FVec Ideal S32x1 .f32) (ix2 r (0 : Fin 1)) = 0 := KL.zero_eq
/-- The reset columns of the two maxima are −∞. -/
theorem pay6_apply : (k0_pay6 : FVec Ideal S32x1 .f32) (ix2 r (0 : Fin 1)) = ⊥ := KL.negInf_eq
theorem pay9_apply : (k0_pay9 : FVec Ideal S32x1 .f32) (ix2 r (0 : Fin 1)) = ⊥ := KL.negInf_eq

end Cert.KernelIdeal.KReg0

end
-- ==== Proof.KReg0Fold.lean ====
/-
  Running sums and running suprema along a walk that restarts every 64 steps.

  A quantity f(n) that is reset to M(n) at every n divisible by 64 and is otherwise the previous value combined with
  M(n) — added to it, or the larger of the two — is, at step n, the sum (the supremum) of M over the steps since the
  last restart, n − n mod 64 … n. At the last step of a run, n ≡ 63 (mod 64), that is the sum (supremum) over the
  whole run of 64.
-/
import proofs.«111140_j6493990552354_2_alg».proof.Proof.Spec

noncomputable section

open scoped BigOperators

namespace Cert.KernelIdeal.KReg0

/-- A running sum restarted at the multiples of 64. -/
theorem sum_fold {N : ℕ} (f : (n : ℕ) → n < N → EReal) (M : ℕ → EReal)
    (h0 : ∀ (n : ℕ) (h : n < N), n % 64 = 0 → f n h = M n)
    (hs : ∀ (n : ℕ) (h : n + 1 < N), ¬(n + 1) % 64 = 0 → f (n + 1) h = f n (Nat.lt_of_succ_lt h) + M (n + 1)) :
    ∀ (n : ℕ) (h : n < N), f n h = ∑ s ∈ Finset.range (n % 64 + 1), M (n - n % 64 + s)
  | 0, h => by
    rw [h0 0 h rfl]
    simp
  | n + 1, h => by
    by_cases hm : (n + 1) % 64 = 0
    · rw [h0 _ h hm, hm]
      simp
    · have e1 : (n + 1) % 64 = n % 64 + 1 := by omega
      have e2 : n + 1 - (n + 1) % 64 = n - n % 64 := by omega
      have e3 : n - n % 64 + (n % 64 + 1) = n + 1 := by omega
      rw [hs n h hm, sum_fold f M h0 hs n (Nat.lt_of_succ_lt h), e2, e1, Finset.sum_range_succ _ (n % 64 + 1), e3]

/-- A running maximum restarted at the multiples of 64. -/
theorem sup_fold {N : ℕ} (f : (n : ℕ) → n < N → EReal) (M : ℕ → EReal)
    (h0 : ∀ (n : ℕ) (h : n < N), n % 64 = 0 → f n h = M n)
    (hs : ∀ (n : ℕ) (h : n + 1 < N), ¬(n + 1) % 64 = 0 → f (n + 1) h = max (f n (Nat.lt_of_succ_lt h)) (M (n + 1))) :
    ∀ (n : ℕ) (h : n < N), f n h = (Finset.range (n % 64 + 1)).sup fun s => M (n - n % 64 + s)
  | 0, h => by
    rw [h0 0 h rfl]
    simp
  | n + 1, h => by
    by_cases hm : (n + 1) % 64 = 0
    · rw [h0 _ h hm, hm]
      simp
    · have e1 : (n + 1) % 64 = n % 64 + 1 := by omega
      have e2 : n + 1 - (n + 1) % 64 = n - n % 64 := by omega
      have e3 : n - n % 64 + (n % 64 + 1) = n + 1 := by omega
      rw [hs n h hm, sup_fold f M h0 hs n (Nat.lt_of_succ_lt h), e2, e1, Finset.range_add_one (n := n % 64 + 1),
        Finset.sup_insert, e3]
      exact max_comm _ _

/-- At the last step of a run, n ≡ 63 (mod 64), the running sum is the sum over the run's 64 steps. -/
theorem sum_range_last (M : ℕ → EReal) (n : ℕ) (h : n % 64 = 63) :
    ∑ s ∈ Finset.range (n % 64 + 1), M (n - n % 64 + s) = ∑ j : Fin 64, M (64 * (n / 64) + j.val) := by
  have e1 : n % 64 + 1 = 64 := by omega
  have e2 : n - n % 64 = 64 * (n / 64) := by omega
  rw [e1, e2, Finset.sum_range]

/-- At the last step of a run the running maximum is the supremum over the run's 64 steps. -/
theorem sup_range_last (M : ℕ → EReal) (n : ℕ) (h : n % 64 = 63) :
    ((Finset.range (n % 64 + 1)).sup fun s => M (n - n % 64 + s)) = ⨆ j : Fin 64, M (64 * (n / 64) + j.val) := by
  have e1 : n % 64 + 1 = 64 := by omega
  have e2 : n - n % 64 = 64 * (n / 64) := by omega
  rw [e1, e2]
  apply le_antisymm
  · exact Finset.sup_le fun s hs => le_iSup_of_le (⟨s, Finset.mem_range.mp hs⟩ : Fin 64) le_rfl
  · exact iSup_le fun j => Finset.le_sup (f := fun s => M (64 * (n / 64) + s)) (Finset.mem_range.mpr j.isLt)

end Cert.KernelIdeal.KReg0

end
-- ==== Proof.KReg0Blocks.lean ====
/-
  Statistics region, where its blocks sit in their arrays.

  At grid point t = 64·c + j (core c, tile j) each input window holds columns 16384·t … 16384·t + 16383 of all 32 rows
  of its [32, 2097152] matrix, and each accumulator window holds rows 32·c … 32·c + 31 of its [64, 1] array.
  `tile A r n l` is the matrix entry (r, 16384·n + l) — what lane l of row r of the block at point n reads — as a
  function of every natural n (zero past the grid, where it is never used), and `rowSumAt`, `rowSqAt`, `rowMaxAt`
  are the block's three row reductions.
-/
import proofs.«111140_j6493990552354_2_alg».proof.Proof.Gen.KernelIdeal.Frame
import proofs.«111140_j6493990552354_2_alg».proof.Proof.Acc
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

/-- The matrix entry that lane l of row r of the input block at point n reads. -/
def tile (A : KL.Mat) (r : Fin 32) (n : ℕ) (l : Fin 16384) : EReal :=
  if h : n < 128 then A (ix2 r (⟨n * 16384 + l.val, by have := l.isLt; omega⟩ : Fin 2097152)) else 0

/-- Row r's sum over the block at point n. -/
def rowSumAt (A : KL.Mat) (r : Fin 32) (n : ℕ) : EReal := ∑ l : Fin 16384, tile A r n l
/-- Row r's sum of squares over the block at point n. -/
def rowSqAt (A : KL.Mat) (r : Fin 32) (n : ℕ) : EReal := ∑ l : Fin 16384, tile A r n l * tile A r n l
/-- Row r's supremum over the block at point n. -/
def rowMaxAt (A : KL.Mat) (r : Fin 32) (n : ℕ) : EReal := ⨆ l : Fin 16384, tile A r n l

/-- Tile j of core c is point 64·c + j: its lanes are the columns `KL.col c j`. -/
theorem tile_col (A : KL.Mat) (r : Fin 32) (c : Fin 2) (j : Fin 64) (l : Fin 16384) :
    tile A r (64 * c.val + j.val) l = A (ix2 r (KL.col c j l)) := by
  have hc := c.isLt
  have hj := j.isLt
  unfold tile
  rw [dif_pos (by omega)]
  refine congrArg A (congrArg (ix2 r) (Fin.ext ?_))
  show (64 * c.val + j.val) * 16384 + l.val = (c.val * 64 + j.val) * 16384 + l.val
  omega

/-- The same entry, named from accumulator row 32·c + r: what tile j, lane l contributes to that row. -/
theorem tile_entry (A : KL.Mat) (r : Fin 32) (c : Fin 2) (j : Fin 64) (l : Fin 16384) :
    tile A r (64 * c.val + j.val) l = KL.tileEntry A (KL.arow c r) j l := by
  show _ = A (ix2 (KL.accR (KL.arow c r)) (KL.col (KL.accC (KL.arow c r)) j l))
  rw [KL.accR_arow, KL.accC_arow]
  exact tile_col A r c j l

/-- The grid has 128 points. -/
theorem hN : cfg0.N = 128 := N_0

/-- The input windows' block index at point t is (0, t); the accumulators' is (t / 64, 0). -/
theorem idx_in0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx_in1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx_out2 : ∀ t : Fin cfg0.N, win0_2.index t (0 : Fin 2) = t.val / 64 ∧ win0_2.index t (1 : Fin 2) = 0 :=
  (by decide +kernel : ∀ t : Fin grid0.N, win0_2.index t (0 : Fin 2) = t.val / 64 ∧ win0_2.index t (1 : Fin 2) = 0)
theorem idx_out3 : ∀ t : Fin cfg0.N, win0_3.index t (0 : Fin 2) = t.val / 64 ∧ win0_3.index t (1 : Fin 2) = 0 :=
  (by decide +kernel : ∀ t : Fin grid0.N, win0_3.index t (0 : Fin 2) = t.val / 64 ∧ win0_3.index t (1 : Fin 2) = 0)
theorem idx_out4 : ∀ t : Fin cfg0.N, win0_4.index t (0 : Fin 2) = t.val / 64 ∧ win0_4.index t (1 : Fin 2) = 0 :=
  (by decide +kernel : ∀ t : Fin grid0.N, win0_4.index t (0 : Fin 2) = t.val / 64 ∧ win0_4.index t (1 : Fin 2) = 0)
theorem idx_out5 : ∀ t : Fin cfg0.N, win0_5.index t (0 : Fin 2) = t.val / 64 ∧ win0_5.index t (1 : Fin 2) = 0 :=
  (by decide +kernel : ∀ t : Fin grid0.N, win0_5.index t (0 : Fin 2) = t.val / 64 ∧ win0_5.index t (1 : Fin 2) = 0)
theorem idx_out6 : ∀ t : Fin cfg0.N, win0_6.index t (0 : Fin 2) = t.val / 64 ∧ win0_6.index t (1 : Fin 2) = 0 :=
  (by decide +kernel : ∀ t : Fin grid0.N, win0_6.index t (0 : Fin 2) = t.val / 64 ∧ win0_6.index t (1 : Fin 2) = 0)
theorem idx_out7 : ∀ t : Fin cfg0.N, win0_7.index t (0 : Fin 2) = t.val / 64 ∧ win0_7.index t (1 : Fin 2) = 0 :=
  (by decide +kernel : ∀ t : Fin grid0.N, win0_7.index t (0 : Fin 2) = t.val / 64 ∧ win0_7.index t (1 : Fin 2) = 0)

variable (V : (c : Dev nD) → (b : Ref sig .tc) → Buf (Elt Ideal) ((c : Thread nD τ).loc b))

/-- The current matrix's block at point t, read at (r, l). -/
theorem iblk_tile0 (d : Dev nD) (t : Fin cfg0.N) (r : Fin 32) (l : Fin 16384) :
    (iblk0 V d 0 t : Vec Ideal S32x16384 .f32) (ix2 r l) = tile (V d main_v0) r t.val l := by
  have ht : t.val < 128 := lt_of_lt_of_eq t.isLt hN
  have hi := idx_in0 t
  unfold tile
  rw [dif_pos ht]
  unfold iblk0
  rw [View.read_apply]
  show V d main_v0 _ = V d main_v0 _
  refine congrArg (V d main_v0) (funext fun a => Fin.ext ?_)
  match a with
  | ⟨0, _⟩ => show win0_0.index t (0 : Fin 2) * 32 + 1 * r.val = r.val; rw [hi.1]; omega
  | ⟨1, _⟩ => show win0_0.index t (1 : Fin 2) * 16384 + 1 * l.val = t.val * 16384 + l.val; rw [hi.2]; omega

/-- The initial matrix's block at point t, read at (r, l). -/
theorem iblk_tile1 (d : Dev nD) (t : Fin cfg0.N) (r : Fin 32) (l : Fin 16384) :
    (iblk0 V d 1 t : Vec Ideal S32x16384 .f32) (ix2 r l) = tile (V d main_v1) r t.val l := by
  have ht : t.val < 128 := lt_of_lt_of_eq t.isLt hN
  have hi := idx_in1 t
  unfold tile
  rw [dif_pos ht]
  unfold iblk0
  rw [View.read_apply]
  show V d main_v1 _ = V d main_v1 _
  refine congrArg (V d main_v1) (funext fun a => Fin.ext ?_)
  match a with
  | ⟨0, _⟩ => show win0_1.index t (0 : Fin 2) * 32 + 1 * r.val = r.val; rw [hi.1]; omega
  | ⟨1, _⟩ => show win0_1.index t (1 : Fin 2) * 16384 + 1 * l.val = t.val * 16384 + l.val; rw [hi.2]; omega

/-- Every index of a [32, 1] column is (r, 0). -/
theorem col_idx (y : S32x1.Idx) : ∃ r : Fin 32, y = ix2 r (0 : Fin 1) := by
  have h : (y 1).val < 1 := (y 1).isLt
  refine ⟨y 0, funext fun a => Fin.ext ?_⟩
  match a with
  | ⟨0, _⟩ => rfl
  | ⟨1, _⟩ => show (y 1).val = 0; omega

/-- Every index of a [64, 1] accumulator array is (q, 0). -/
theorem acc_idx (i : S64x1.Idx) : i = ix2 (i 0 : Fin 64) (0 : Fin 1) := by
  have h : (i 1).val < 1 := (i 1).isLt
  refine funext fun a => Fin.ext ?_
  match a with
  | ⟨0, _⟩ => rfl
  | ⟨1, _⟩ => show (i 1).val = 0; omega

end Cert.KernelIdeal.KReg0

end
-- ==== Proof.KReg0Out2.lean ====
/-
  Statistics region, output 2: the per-core row sum of the current matrix.

  After grid point n the accumulator column holds, at row r, the sum of row r over the blocks of the points since
  the core's first tile, n − n mod 64 … n: the first tile resets the column and combines it with its own block, every
  later tile combines what the tile before left with its own. Only a core's last tile, n ≡ 63 (mod 64), writes the
  column back, to rows 32·c … 32·c + 31 of the [64, 1] array; the two cores' last tiles cover the array. So row
  q = 32·c + r of the array ends at the sum over core c's 64 tiles of 16384 lanes of matrix row r.
-/
import proofs.«111140_j6493990552354_2_alg».proof.Proof.KReg0Pieces
import proofs.«111140_j6493990552354_2_alg».proof.Proof.KReg0Pay
import proofs.«111140_j6493990552354_2_alg».proof.Proof.KReg0Fold
import proofs.«111140_j6493990552354_2_alg».proof.Proof.KReg0Blocks

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable (V : (c : Dev nD) → (b : Ref sig .tc) → Buf (Elt Ideal) ((c : Thread nD τ).loc b))

/-- A resetting point leaves, at row r, its own block's row sum. -/
theorem stepA2 (d : Dev nD) (t : Fin cfg0.N) (hc : cond0_0 (grid0.coords t)) (r : Fin 32) :
    out0_A_2 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) (ix2 r (0 : Fin 1))
      = rowSumAt (V d main_v0) r t.val :=
  (congrFun (out_A_2 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t)) (ix2 r (0 : Fin 1))).trans
    ((pay12_apply (iblk0 V d 0 t) (k0_pay4 (F := Ideal)) r).trans (by
      rw [pay4_apply, zero_add]
      exact Finset.sum_congr rfl fun l _ => iblk_tile0 V d t r l))

/-- A carrying point leaves, at row r, what the point before left combined with its own block's row sum. -/
theorem stepB2 (d : Dev nD) (t : Fin cfg0.N) (hc : ¬cond0_0 (grid0.coords t))
    (P : Vec Ideal S32x1 .f32 × Vec Ideal S32x1 .f32 × Vec Ideal S32x1 .f32 × Vec Ideal S32x1 .f32 × Vec Ideal S32x1 .f32 × Vec Ideal S32x1 .f32) (r : Fin 32) :
    out0_B_2 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2 (ix2 r (0 : Fin 1))
      = P.1 (ix2 r (0 : Fin 1)) + rowSumAt (V d main_v0) r t.val :=
  (congrFun (out_B_2 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2) (ix2 r (0 : Fin 1))).trans
    ((pay12_apply (iblk0 V d 0 t) P.1 r).trans (congrArg (P.1 (ix2 r (0 : Fin 1)) + ·) (Finset.sum_congr rfl fun l _ => iblk_tile0 V d t r l)))

/-- The accumulator after point n, at row r: the sum over the points since the core's first tile. -/
theorem inv2 (d : Dev nD) (r : Fin 32) (n : ℕ) (hn : n < cfg0.N) :
    (outsAt0 V d n hn).1 (ix2 r (0 : Fin 1)) = ∑ s ∈ Finset.range (n % 64 + 1), rowSumAt (V d main_v0) r (n - n % 64 + s) := by
  refine sum_fold (N := cfg0.N) (fun n hn => (outsAt0 V d n hn).1 (ix2 r (0 : Fin 1))) (rowSumAt (V d main_v0) r) ?_ ?_ n hn
  · intro n h hm
    show (outsAt0 V d n h).1 (ix2 r (0 : Fin 1)) = _
    rw [outsAt0_A V d ⟨n, h⟩ hm]
    exact stepA2 V d ⟨n, h⟩ ((hcond0_0 ⟨n, h⟩).mpr hm) r
  · intro n h hm
    show (outsAt0 V d (n + 1) h).1 (ix2 r (0 : Fin 1)) = _
    rw [outsAt0_B V d ⟨n + 1, h⟩ hm]
    exact stepB2 V d ⟨n + 1, h⟩ (fun hh => hm ((hcond0_0 ⟨n + 1, h⟩).mp hh)) (outsAt0 V d n (Nat.lt_of_succ_lt h)) r

/-- What a core's last tile writes back is its rows of the array's final contents. -/
theorem flushed2_eq (d : Dev nD) (t : Fin cfg0.N) (hf : (cfg0.win 2).flush t = true) :
    (dat0 V d).flushed 2 t = ((cfg0.win 2).blk t).view.read (Elt Ideal) (KL.accSum (V d main_v0)) := by
  have h63 : t.val % 64 = 63 := (flush0_2 t).mp hf
  have ht : t.val < 128 := lt_of_lt_of_eq t.isLt hN
  have hi := idx_out2 t
  show (cfg0.win 2).cut (grid0.coords t) ((dat0 V d).after 2 t) = _
  rw [after0_2]
  funext y
  obtain ⟨r, rfl⟩ := col_idx y
  show (outsAt0 V d t.val t.isLt).1 (ix2 r (0 : Fin 1)) = KL.accSum (V d main_v0) (((cfg0.win 2).blk t).view.emb (ix2 r (0 : Fin 1)))
  let c : Fin 2 := ⟨t.val / 64, by omega⟩
  have he : ((cfg0.win 2).blk t).view.emb (ix2 r (0 : Fin 1)) = ix2 (KL.arow c r) (0 : Fin 1) := by
    funext a
    apply Fin.ext
    match a with
    | ⟨0, _⟩ => show win0_2.index t (0 : Fin 2) * 32 + 1 * r.val = 32 * (t.val / 64) + r.val; rw [hi.1]; omega
    | ⟨1, _⟩ => show win0_2.index t (1 : Fin 2) * 1 + 1 * 0 = 0; rw [hi.2]
  rw [he, inv2 V d r t.val t.isLt, sum_range_last _ t.val h63]
  show _ = ∑ j : Fin 64, ∑ l : Fin 16384, KL.tileEntry (V d main_v0) (KL.arow c r) j l
  unfold rowSumAt
  refine Finset.sum_congr rfl fun j _ => Finset.sum_congr rfl fun l _ => ?_
  exact tile_entry (V d main_v0) r c j l

/-- Row q of the array lies in the block that core q / 32's last tile writes back. -/
theorem cover2 (i : S64x1.Idx) :
    ∃ t : Fin cfg0.N, (cfg0.win 2).flush t = true ∧ i ∈ ((cfg0.win 2).blk t).view.set := by
  have hq : (i 0).val < 64 := (i 0).isLt
  have h1 : (i 1).val < 1 := (i 1).isLt
  let t : Fin cfg0.N := ⟨64 * ((i 0).val / 32) + 63, lt_of_lt_of_eq (by omega : 64 * ((i 0).val / 32) + 63 < 128) hN.symm⟩
  have htv : t.val = 64 * ((i 0).val / 32) + 63 := rfl
  have hi := idx_out2 t
  refine ⟨t, (flush0_2 t).mpr (by rw [htv]; omega), ?_⟩
  show i ∈ ((View.whole main_v2_0).slice (win0_2.rect t)).set
  rw [View.set_slice_whole, Rect.mem_set_unit]
  intro a
  match a with
  | ⟨0, _⟩ =>
    show win0_2.index t (0 : Fin 2) * 32 ≤ (i 0).val ∧ (i 0).val < win0_2.index t (0 : Fin 2) * 32 + 32
    rw [hi.1, htv]; omega
  | ⟨1, _⟩ =>
    show win0_2.index t (1 : Fin 2) * 1 ≤ (i 1).val ∧ (i 1).val < win0_2.index t (1 : Fin 2) * 1 + 1
    rw [hi.2]; omega

/-- Output 2 after the region: the per-core row sums of the current matrix. -/
theorem final2 (d : Dev nD) : (dat0 V d).arrAt 2 cfg0.N = KL.accSum (V d main_v0) :=
  (dat0 V d).arrAt_eq_of_cover 2 (KL.accSum (V d main_v0)) (flushed2_eq V d) (cover2)

end Cert.KernelIdeal.KReg0

end
-- ==== Proof.KReg0Out3.lean ====
/-
  Statistics region, output 3: the per-core row sum of squares of the current matrix.

  After grid point n the accumulator column holds, at row r, the sum of squares of row r over the blocks of the points since
  the core's first tile, n − n mod 64 … n: the first tile resets the column and combines it with its own block, every
  later tile combines what the tile before left with its own. Only a core's last tile, n ≡ 63 (mod 64), writes the
  column back, to rows 32·c … 32·c + 31 of the [64, 1] array; the two cores' last tiles cover the array. So row
  q = 32·c + r of the array ends at the sum of squares over core c's 64 tiles of 16384 lanes of matrix row r.
-/
import proofs.«111140_j6493990552354_2_alg».proof.Proof.KReg0Pieces
import proofs.«111140_j6493990552354_2_alg».proof.Proof.KReg0Pay
import proofs.«111140_j6493990552354_2_alg».proof.Proof.KReg0Fold
import proofs.«111140_j6493990552354_2_alg».proof.Proof.KReg0Blocks

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable (V : (c : Dev nD) → (b : Ref sig .tc) → Buf (Elt Ideal) ((c : Thread nD τ).loc b))

/-- A resetting point leaves, at row r, its own block's row sum of squares. -/
theorem stepA3 (d : Dev nD) (t : Fin cfg0.N) (hc : cond0_0 (grid0.coords t)) (r : Fin 32) :
    out0_A_3 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) (ix2 r (0 : Fin 1))
      = rowSqAt (V d main_v0) r t.val :=
  (congrFun (out_A_3 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t)) (ix2 r (0 : Fin 1))).trans
    ((pay13_apply (iblk0 V d 0 t) (k0_pay5 (F := Ideal)) r).trans (by
      rw [pay5_apply, zero_add]
      exact Finset.sum_congr rfl fun l _ => by rw [iblk_tile0 V d t r l]))

/-- A carrying point leaves, at row r, what the point before left combined with its own block's row sum of squares. -/
theorem stepB3 (d : Dev nD) (t : Fin cfg0.N) (hc : ¬cond0_0 (grid0.coords t))
    (P : Vec Ideal S32x1 .f32 × Vec Ideal S32x1 .f32 × Vec Ideal S32x1 .f32 × Vec Ideal S32x1 .f32 × Vec Ideal S32x1 .f32 × Vec Ideal S32x1 .f32) (r : Fin 32) :
    out0_B_3 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2 (ix2 r (0 : Fin 1))
      = P.2.1 (ix2 r (0 : Fin 1)) + rowSqAt (V d main_v0) r t.val :=
  (congrFun (out_B_3 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2) (ix2 r (0 : Fin 1))).trans
    ((pay13_apply (iblk0 V d 0 t) P.2.1 r).trans (congrArg (P.2.1 (ix2 r (0 : Fin 1)) + ·) (Finset.sum_congr rfl fun l _ => by rw [iblk_tile0 V d t r l])))

/-- The accumulator after point n, at row r: the sum of squares over the points since the core's first tile. -/
theorem inv3 (d : Dev nD) (r : Fin 32) (n : ℕ) (hn : n < cfg0.N) :
    (outsAt0 V d n hn).2.1 (ix2 r (0 : Fin 1)) = ∑ s ∈ Finset.range (n % 64 + 1), rowSqAt (V d main_v0) r (n - n % 64 + s) := by
  refine sum_fold (N := cfg0.N) (fun n hn => (outsAt0 V d n hn).2.1 (ix2 r (0 : Fin 1))) (rowSqAt (V d main_v0) r) ?_ ?_ n hn
  · intro n h hm
    show (outsAt0 V d n h).2.1 (ix2 r (0 : Fin 1)) = _
    rw [outsAt0_A V d ⟨n, h⟩ hm]
    exact stepA3 V d ⟨n, h⟩ ((hcond0_0 ⟨n, h⟩).mpr hm) r
  · intro n h hm
    show (outsAt0 V d (n + 1) h).2.1 (ix2 r (0 : Fin 1)) = _
    rw [outsAt0_B V d ⟨n + 1, h⟩ hm]
    exact stepB3 V d ⟨n + 1, h⟩ (fun hh => hm ((hcond0_0 ⟨n + 1, h⟩).mp hh)) (outsAt0 V d n (Nat.lt_of_succ_lt h)) r

/-- What a core's last tile writes back is its rows of the array's final contents. -/
theorem flushed3_eq (d : Dev nD) (t : Fin cfg0.N) (hf : (cfg0.win 3).flush t = true) :
    (dat0 V d).flushed 3 t = ((cfg0.win 3).blk t).view.read (Elt Ideal) (KL.accSumSq (V d main_v0)) := by
  have h63 : t.val % 64 = 63 := (flush0_3 t).mp hf
  have ht : t.val < 128 := lt_of_lt_of_eq t.isLt hN
  have hi := idx_out3 t
  show (cfg0.win 3).cut (grid0.coords t) ((dat0 V d).after 3 t) = _
  rw [after0_3]
  funext y
  obtain ⟨r, rfl⟩ := col_idx y
  show (outsAt0 V d t.val t.isLt).2.1 (ix2 r (0 : Fin 1)) = KL.accSumSq (V d main_v0) (((cfg0.win 3).blk t).view.emb (ix2 r (0 : Fin 1)))
  let c : Fin 2 := ⟨t.val / 64, by omega⟩
  have he : ((cfg0.win 3).blk t).view.emb (ix2 r (0 : Fin 1)) = ix2 (KL.arow c r) (0 : Fin 1) := by
    funext a
    apply Fin.ext
    match a with
    | ⟨0, _⟩ => show win0_3.index t (0 : Fin 2) * 32 + 1 * r.val = 32 * (t.val / 64) + r.val; rw [hi.1]; omega
    | ⟨1, _⟩ => show win0_3.index t (1 : Fin 2) * 1 + 1 * 0 = 0; rw [hi.2]
  rw [he, inv3 V d r t.val t.isLt, sum_range_last _ t.val h63]
  show _ = ∑ j : Fin 64, ∑ l : Fin 16384, KL.tileEntry (V d main_v0) (KL.arow c r) j l * KL.tileEntry (V d main_v0) (KL.arow c r) j l
  unfold rowSqAt
  refine Finset.sum_congr rfl fun j _ => Finset.sum_congr rfl fun l _ => ?_
  rw [tile_entry (V d main_v0) r c j l]

/-- Row q of the array lies in the block that core q / 32's last tile writes back. -/
theorem cover3 (i : S64x1.Idx) :
    ∃ t : Fin cfg0.N, (cfg0.win 3).flush t = true ∧ i ∈ ((cfg0.win 3).blk t).view.set := by
  have hq : (i 0).val < 64 := (i 0).isLt
  have h1 : (i 1).val < 1 := (i 1).isLt
  let t : Fin cfg0.N := ⟨64 * ((i 0).val / 32) + 63, lt_of_lt_of_eq (by omega : 64 * ((i 0).val / 32) + 63 < 128) hN.symm⟩
  have htv : t.val = 64 * ((i 0).val / 32) + 63 := rfl
  have hi := idx_out3 t
  refine ⟨t, (flush0_3 t).mpr (by rw [htv]; omega), ?_⟩
  show i ∈ ((View.whole main_v2_1).slice (win0_3.rect t)).set
  rw [View.set_slice_whole, Rect.mem_set_unit]
  intro a
  match a with
  | ⟨0, _⟩ =>
    show win0_3.index t (0 : Fin 2) * 32 ≤ (i 0).val ∧ (i 0).val < win0_3.index t (0 : Fin 2) * 32 + 32
    rw [hi.1, htv]; omega
  | ⟨1, _⟩ =>
    show win0_3.index t (1 : Fin 2) * 1 ≤ (i 1).val ∧ (i 1).val < win0_3.index t (1 : Fin 2) * 1 + 1
    rw [hi.2]; omega

/-- Output 3 after the region: the per-core row sum of squaress of the current matrix. -/
theorem final3 (d : Dev nD) : (dat0 V d).arrAt 3 cfg0.N = KL.accSumSq (V d main_v0) :=
  (dat0 V d).arrAt_eq_of_cover 3 (KL.accSumSq (V d main_v0)) (flushed3_eq V d) (cover3)

end Cert.KernelIdeal.KReg0

end
-- ==== Proof.KReg0Out4.lean ====
/-
  Statistics region, output 4: the per-core row maximum of the current matrix.

  After grid point n the accumulator column holds, at row r, the maximum of row r over the blocks of the points since
  the core's first tile, n − n mod 64 … n: the first tile resets the column and combines it with its own block, every
  later tile combines what the tile before left with its own. Only a core's last tile, n ≡ 63 (mod 64), writes the
  column back, to rows 32·c … 32·c + 31 of the [64, 1] array; the two cores' last tiles cover the array. So row
  q = 32·c + r of the array ends at the maximum over core c's 64 tiles of 16384 lanes of matrix row r.
-/
import proofs.«111140_j6493990552354_2_alg».proof.Proof.KReg0Pieces
import proofs.«111140_j6493990552354_2_alg».proof.Proof.KReg0Pay
import proofs.«111140_j6493990552354_2_alg».proof.Proof.KReg0Fold
import proofs.«111140_j6493990552354_2_alg».proof.Proof.KReg0Blocks

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable (V : (c : Dev nD) → (b : Ref sig .tc) → Buf (Elt Ideal) ((c : Thread nD τ).loc b))

/-- A resetting point leaves, at row r, its own block's row maximum. -/
theorem stepA4 (d : Dev nD) (t : Fin cfg0.N) (hc : cond0_0 (grid0.coords t)) (r : Fin 32) :
    out0_A_4 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) (ix2 r (0 : Fin 1))
      = rowMaxAt (V d main_v0) r t.val :=
  (congrFun (out_A_4 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t)) (ix2 r (0 : Fin 1))).trans
    ((pay14_apply (iblk0 V d 0 t) (k0_pay6 (F := Ideal)) r).trans (by
      rw [pay6_apply, bot_sup_eq]
      exact iSup_congr fun l => iblk_tile0 V d t r l))

/-- A carrying point leaves, at row r, what the point before left combined with its own block's row maximum. -/
theorem stepB4 (d : Dev nD) (t : Fin cfg0.N) (hc : ¬cond0_0 (grid0.coords t))
    (P : Vec Ideal S32x1 .f32 × Vec Ideal S32x1 .f32 × Vec Ideal S32x1 .f32 × Vec Ideal S32x1 .f32 × Vec Ideal S32x1 .f32 × Vec Ideal S32x1 .f32) (r : Fin 32) :
    out0_B_4 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2 (ix2 r (0 : Fin 1))
      = max (P.2.2.1 (ix2 r (0 : Fin 1))) (rowMaxAt (V d main_v0) r t.val) :=
  (congrFun (out_B_4 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2) (ix2 r (0 : Fin 1))).trans
    ((pay14_apply (iblk0 V d 0 t) P.2.2.1 r).trans (congrArg (max (P.2.2.1 (ix2 r (0 : Fin 1)))) (iSup_congr fun l => iblk_tile0 V d t r l)))

/-- The accumulator after point n, at row r: the maximum over the points since the core's first tile. -/
theorem inv4 (d : Dev nD) (r : Fin 32) (n : ℕ) (hn : n < cfg0.N) :
    (outsAt0 V d n hn).2.2.1 (ix2 r (0 : Fin 1)) = (Finset.range (n % 64 + 1)).sup fun s => rowMaxAt (V d main_v0) r (n - n % 64 + s) := by
  refine sup_fold (N := cfg0.N) (fun n hn => (outsAt0 V d n hn).2.2.1 (ix2 r (0 : Fin 1))) (rowMaxAt (V d main_v0) r) ?_ ?_ n hn
  · intro n h hm
    show (outsAt0 V d n h).2.2.1 (ix2 r (0 : Fin 1)) = _
    rw [outsAt0_A V d ⟨n, h⟩ hm]
    exact stepA4 V d ⟨n, h⟩ ((hcond0_0 ⟨n, h⟩).mpr hm) r
  · intro n h hm
    show (outsAt0 V d (n + 1) h).2.2.1 (ix2 r (0 : Fin 1)) = _
    rw [outsAt0_B V d ⟨n + 1, h⟩ hm]
    exact stepB4 V d ⟨n + 1, h⟩ (fun hh => hm ((hcond0_0 ⟨n + 1, h⟩).mp hh)) (outsAt0 V d n (Nat.lt_of_succ_lt h)) r

/-- What a core's last tile writes back is its rows of the array's final contents. -/
theorem flushed4_eq (d : Dev nD) (t : Fin cfg0.N) (hf : (cfg0.win 4).flush t = true) :
    (dat0 V d).flushed 4 t = ((cfg0.win 4).blk t).view.read (Elt Ideal) (KL.accMax (V d main_v0)) := by
  have h63 : t.val % 64 = 63 := (flush0_4 t).mp hf
  have ht : t.val < 128 := lt_of_lt_of_eq t.isLt hN
  have hi := idx_out4 t
  show (cfg0.win 4).cut (grid0.coords t) ((dat0 V d).after 4 t) = _
  rw [after0_4]
  funext y
  obtain ⟨r, rfl⟩ := col_idx y
  show (outsAt0 V d t.val t.isLt).2.2.1 (ix2 r (0 : Fin 1)) = KL.accMax (V d main_v0) (((cfg0.win 4).blk t).view.emb (ix2 r (0 : Fin 1)))
  let c : Fin 2 := ⟨t.val / 64, by omega⟩
  have he : ((cfg0.win 4).blk t).view.emb (ix2 r (0 : Fin 1)) = ix2 (KL.arow c r) (0 : Fin 1) := by
    funext a
    apply Fin.ext
    match a with
    | ⟨0, _⟩ => show win0_4.index t (0 : Fin 2) * 32 + 1 * r.val = 32 * (t.val / 64) + r.val; rw [hi.1]; omega
    | ⟨1, _⟩ => show win0_4.index t (1 : Fin 2) * 1 + 1 * 0 = 0; rw [hi.2]
  rw [he, inv4 V d r t.val t.isLt, sup_range_last _ t.val h63]
  show _ = ⨆ j : Fin 64, ⨆ l : Fin 16384, KL.tileEntry (V d main_v0) (KL.arow c r) j l
  unfold rowMaxAt
  refine iSup_congr fun j => iSup_congr fun l => ?_
  exact tile_entry (V d main_v0) r c j l

/-- Row q of the array lies in the block that core q / 32's last tile writes back. -/
theorem cover4 (i : S64x1.Idx) :
    ∃ t : Fin cfg0.N, (cfg0.win 4).flush t = true ∧ i ∈ ((cfg0.win 4).blk t).view.set := by
  have hq : (i 0).val < 64 := (i 0).isLt
  have h1 : (i 1).val < 1 := (i 1).isLt
  let t : Fin cfg0.N := ⟨64 * ((i 0).val / 32) + 63, lt_of_lt_of_eq (by omega : 64 * ((i 0).val / 32) + 63 < 128) hN.symm⟩
  have htv : t.val = 64 * ((i 0).val / 32) + 63 := rfl
  have hi := idx_out4 t
  refine ⟨t, (flush0_4 t).mpr (by rw [htv]; omega), ?_⟩
  show i ∈ ((View.whole main_v2_2).slice (win0_4.rect t)).set
  rw [View.set_slice_whole, Rect.mem_set_unit]
  intro a
  match a with
  | ⟨0, _⟩ =>
    show win0_4.index t (0 : Fin 2) * 32 ≤ (i 0).val ∧ (i 0).val < win0_4.index t (0 : Fin 2) * 32 + 32
    rw [hi.1, htv]; omega
  | ⟨1, _⟩ =>
    show win0_4.index t (1 : Fin 2) * 1 ≤ (i 1).val ∧ (i 1).val < win0_4.index t (1 : Fin 2) * 1 + 1
    rw [hi.2]; omega

/-- Output 4 after the region: the per-core row maximums of the current matrix. -/
theorem final4 (d : Dev nD) : (dat0 V d).arrAt 4 cfg0.N = KL.accMax (V d main_v0) :=
  (dat0 V d).arrAt_eq_of_cover 4 (KL.accMax (V d main_v0)) (flushed4_eq V d) (cover4)

end Cert.KernelIdeal.KReg0

end
-- ==== Proof.KReg0Out5.lean ====
/-
  Statistics region, output 5: the per-core row sum of the initial matrix.

  After grid point n the accumulator column holds, at row r, the sum of row r over the blocks of the points since
  the core's first tile, n − n mod 64 … n: the first tile resets the column and combines it with its own block, every
  later tile combines what the tile before left with its own. Only a core's last tile, n ≡ 63 (mod 64), writes the
  column back, to rows 32·c … 32·c + 31 of the [64, 1] array; the two cores' last tiles cover the array. So row
  q = 32·c + r of the array ends at the sum over core c's 64 tiles of 16384 lanes of matrix row r.
-/
import proofs.«111140_j6493990552354_2_alg».proof.Proof.KReg0Pieces
import proofs.«111140_j6493990552354_2_alg».proof.Proof.KReg0Pay
import proofs.«111140_j6493990552354_2_alg».proof.Proof.KReg0Fold
import proofs.«111140_j6493990552354_2_alg».proof.Proof.KReg0Blocks

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable (V : (c : Dev nD) → (b : Ref sig .tc) → Buf (Elt Ideal) ((c : Thread nD τ).loc b))

/-- A resetting point leaves, at row r, its own block's row sum. -/
theorem stepA5 (d : Dev nD) (t : Fin cfg0.N) (hc : cond0_0 (grid0.coords t)) (r : Fin 32) :
    out0_A_5 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) (ix2 r (0 : Fin 1))
      = rowSumAt (V d main_v1) r t.val :=
  (congrFun (out_A_5 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t)) (ix2 r (0 : Fin 1))).trans
    ((pay1_apply (iblk0 V d 1 t) (k0_pay7 (F := Ideal)) r).trans (by
      rw [pay7_apply, zero_add]
      exact Finset.sum_congr rfl fun l _ => iblk_tile1 V d t r l))

/-- A carrying point leaves, at row r, what the point before left combined with its own block's row sum. -/
theorem stepB5 (d : Dev nD) (t : Fin cfg0.N) (hc : ¬cond0_0 (grid0.coords t))
    (P : Vec Ideal S32x1 .f32 × Vec Ideal S32x1 .f32 × Vec Ideal S32x1 .f32 × Vec Ideal S32x1 .f32 × Vec Ideal S32x1 .f32 × Vec Ideal S32x1 .f32) (r : Fin 32) :
    out0_B_5 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2 (ix2 r (0 : Fin 1))
      = P.2.2.2.1 (ix2 r (0 : Fin 1)) + rowSumAt (V d main_v1) r t.val :=
  (congrFun (out_B_5 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2) (ix2 r (0 : Fin 1))).trans
    ((pay1_apply (iblk0 V d 1 t) P.2.2.2.1 r).trans (congrArg (P.2.2.2.1 (ix2 r (0 : Fin 1)) + ·) (Finset.sum_congr rfl fun l _ => iblk_tile1 V d t r l)))

/-- The accumulator after point n, at row r: the sum over the points since the core's first tile. -/
theorem inv5 (d : Dev nD) (r : Fin 32) (n : ℕ) (hn : n < cfg0.N) :
    (outsAt0 V d n hn).2.2.2.1 (ix2 r (0 : Fin 1)) = ∑ s ∈ Finset.range (n % 64 + 1), rowSumAt (V d main_v1) r (n - n % 64 + s) := by
  refine sum_fold (N := cfg0.N) (fun n hn => (outsAt0 V d n hn).2.2.2.1 (ix2 r (0 : Fin 1))) (rowSumAt (V d main_v1) r) ?_ ?_ n hn
  · intro n h hm
    show (outsAt0 V d n h).2.2.2.1 (ix2 r (0 : Fin 1)) = _
    rw [outsAt0_A V d ⟨n, h⟩ hm]
    exact stepA5 V d ⟨n, h⟩ ((hcond0_0 ⟨n, h⟩).mpr hm) r
  · intro n h hm
    show (outsAt0 V d (n + 1) h).2.2.2.1 (ix2 r (0 : Fin 1)) = _
    rw [outsAt0_B V d ⟨n + 1, h⟩ hm]
    exact stepB5 V d ⟨n + 1, h⟩ (fun hh => hm ((hcond0_0 ⟨n + 1, h⟩).mp hh)) (outsAt0 V d n (Nat.lt_of_succ_lt h)) r

/-- What a core's last tile writes back is its rows of the array's final contents. -/
theorem flushed5_eq (d : Dev nD) (t : Fin cfg0.N) (hf : (cfg0.win 5).flush t = true) :
    (dat0 V d).flushed 5 t = ((cfg0.win 5).blk t).view.read (Elt Ideal) (KL.accSum (V d main_v1)) := by
  have h63 : t.val % 64 = 63 := (flush0_5 t).mp hf
  have ht : t.val < 128 := lt_of_lt_of_eq t.isLt hN
  have hi := idx_out5 t
  show (cfg0.win 5).cut (grid0.coords t) ((dat0 V d).after 5 t) = _
  rw [after0_5]
  funext y
  obtain ⟨r, rfl⟩ := col_idx y
  show (outsAt0 V d t.val t.isLt).2.2.2.1 (ix2 r (0 : Fin 1)) = KL.accSum (V d main_v1) (((cfg0.win 5).blk t).view.emb (ix2 r (0 : Fin 1)))
  let c : Fin 2 := ⟨t.val / 64, by omega⟩
  have he : ((cfg0.win 5).blk t).view.emb (ix2 r (0 : Fin 1)) = ix2 (KL.arow c r) (0 : Fin 1) := by
    funext a
    apply Fin.ext
    match a with
    | ⟨0, _⟩ => show win0_5.index t (0 : Fin 2) * 32 + 1 * r.val = 32 * (t.val / 64) + r.val; rw [hi.1]; omega
    | ⟨1, _⟩ => show win0_5.index t (1 : Fin 2) * 1 + 1 * 0 = 0; rw [hi.2]
  rw [he, inv5 V d r t.val t.isLt, sum_range_last _ t.val h63]
  show _ = ∑ j : Fin 64, ∑ l : Fin 16384, KL.tileEntry (V d main_v1) (KL.arow c r) j l
  unfold rowSumAt
  refine Finset.sum_congr rfl fun j _ => Finset.sum_congr rfl fun l _ => ?_
  exact tile_entry (V d main_v1) r c j l

/-- Row q of the array lies in the block that core q / 32's last tile writes back. -/
theorem cover5 (i : S64x1.Idx) :
    ∃ t : Fin cfg0.N, (cfg0.win 5).flush t = true ∧ i ∈ ((cfg0.win 5).blk t).view.set := by
  have hq : (i 0).val < 64 := (i 0).isLt
  have h1 : (i 1).val < 1 := (i 1).isLt
  let t : Fin cfg0.N := ⟨64 * ((i 0).val / 32) + 63, lt_of_lt_of_eq (by omega : 64 * ((i 0).val / 32) + 63 < 128) hN.symm⟩
  have htv : t.val = 64 * ((i 0).val / 32) + 63 := rfl
  have hi := idx_out5 t
  refine ⟨t, (flush0_5 t).mpr (by rw [htv]; omega), ?_⟩
  show i ∈ ((View.whole main_v2_3).slice (win0_5.rect t)).set
  rw [View.set_slice_whole, Rect.mem_set_unit]
  intro a
  match a with
  | ⟨0, _⟩ =>
    show win0_5.index t (0 : Fin 2) * 32 ≤ (i 0).val ∧ (i 0).val < win0_5.index t (0 : Fin 2) * 32 + 32
    rw [hi.1, htv]; omega
  | ⟨1, _⟩ =>
    show win0_5.index t (1 : Fin 2) * 1 ≤ (i 1).val ∧ (i 1).val < win0_5.index t (1 : Fin 2) * 1 + 1
    rw [hi.2]; omega

/-- Output 5 after the region: the per-core row sums of the initial matrix. -/
theorem final5 (d : Dev nD) : (dat0 V d).arrAt 5 cfg0.N = KL.accSum (V d main_v1) :=
  (dat0 V d).arrAt_eq_of_cover 5 (KL.accSum (V d main_v1)) (flushed5_eq V d) (cover5)

end Cert.KernelIdeal.KReg0

end
-- ==== Proof.KReg0Out6.lean ====
/-
  Statistics region, output 6: the per-core row sum of squares of the initial matrix.

  After grid point n the accumulator column holds, at row r, the sum of squares of row r over the blocks of the points since
  the core's first tile, n − n mod 64 … n: the first tile resets the column and combines it with its own block, every
  later tile combines what the tile before left with its own. Only a core's last tile, n ≡ 63 (mod 64), writes the
  column back, to rows 32·c … 32·c + 31 of the [64, 1] array; the two cores' last tiles cover the array. So row
  q = 32·c + r of the array ends at the sum of squares over core c's 64 tiles of 16384 lanes of matrix row r.
-/
import proofs.«111140_j6493990552354_2_alg».proof.Proof.KReg0Pieces
import proofs.«111140_j6493990552354_2_alg».proof.Proof.KReg0Pay
import proofs.«111140_j6493990552354_2_alg».proof.Proof.KReg0Fold
import proofs.«111140_j6493990552354_2_alg».proof.Proof.KReg0Blocks

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable (V : (c : Dev nD) → (b : Ref sig .tc) → Buf (Elt Ideal) ((c : Thread nD τ).loc b))

/-- A resetting point leaves, at row r, its own block's row sum of squares. -/
theorem stepA6 (d : Dev nD) (t : Fin cfg0.N) (hc : cond0_0 (grid0.coords t)) (r : Fin 32) :
    out0_A_6 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) (ix2 r (0 : Fin 1))
      = rowSqAt (V d main_v1) r t.val :=
  (congrFun (out_A_6 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t)) (ix2 r (0 : Fin 1))).trans
    ((pay2_apply (iblk0 V d 1 t) (k0_pay8 (F := Ideal)) r).trans (by
      rw [pay8_apply, zero_add]
      exact Finset.sum_congr rfl fun l _ => by rw [iblk_tile1 V d t r l]))

/-- A carrying point leaves, at row r, what the point before left combined with its own block's row sum of squares. -/
theorem stepB6 (d : Dev nD) (t : Fin cfg0.N) (hc : ¬cond0_0 (grid0.coords t))
    (P : Vec Ideal S32x1 .f32 × Vec Ideal S32x1 .f32 × Vec Ideal S32x1 .f32 × Vec Ideal S32x1 .f32 × Vec Ideal S32x1 .f32 × Vec Ideal S32x1 .f32) (r : Fin 32) :
    out0_B_6 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2 (ix2 r (0 : Fin 1))
      = P.2.2.2.2.1 (ix2 r (0 : Fin 1)) + rowSqAt (V d main_v1) r t.val :=
  (congrFun (out_B_6 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2) (ix2 r (0 : Fin 1))).trans
    ((pay2_apply (iblk0 V d 1 t) P.2.2.2.2.1 r).trans (congrArg (P.2.2.2.2.1 (ix2 r (0 : Fin 1)) + ·) (Finset.sum_congr rfl fun l _ => by rw [iblk_tile1 V d t r l])))

/-- The accumulator after point n, at row r: the sum of squares over the points since the core's first tile. -/
theorem inv6 (d : Dev nD) (r : Fin 32) (n : ℕ) (hn : n < cfg0.N) :
    (outsAt0 V d n hn).2.2.2.2.1 (ix2 r (0 : Fin 1)) = ∑ s ∈ Finset.range (n % 64 + 1), rowSqAt (V d main_v1) r (n - n % 64 + s) := by
  refine sum_fold (N := cfg0.N) (fun n hn => (outsAt0 V d n hn).2.2.2.2.1 (ix2 r (0 : Fin 1))) (rowSqAt (V d main_v1) r) ?_ ?_ n hn
  · intro n h hm
    show (outsAt0 V d n h).2.2.2.2.1 (ix2 r (0 : Fin 1)) = _
    rw [outsAt0_A V d ⟨n, h⟩ hm]
    exact stepA6 V d ⟨n, h⟩ ((hcond0_0 ⟨n, h⟩).mpr hm) r
  · intro n h hm
    show (outsAt0 V d (n + 1) h).2.2.2.2.1 (ix2 r (0 : Fin 1)) = _
    rw [outsAt0_B V d ⟨n + 1, h⟩ hm]
    exact stepB6 V d ⟨n + 1, h⟩ (fun hh => hm ((hcond0_0 ⟨n + 1, h⟩).mp hh)) (outsAt0 V d n (Nat.lt_of_succ_lt h)) r

/-- What a core's last tile writes back is its rows of the array's final contents. -/
theorem flushed6_eq (d : Dev nD) (t : Fin cfg0.N) (hf : (cfg0.win 6).flush t = true) :
    (dat0 V d).flushed 6 t = ((cfg0.win 6).blk t).view.read (Elt Ideal) (KL.accSumSq (V d main_v1)) := by
  have h63 : t.val % 64 = 63 := (flush0_6 t).mp hf
  have ht : t.val < 128 := lt_of_lt_of_eq t.isLt hN
  have hi := idx_out6 t
  show (cfg0.win 6).cut (grid0.coords t) ((dat0 V d).after 6 t) = _
  rw [after0_6]
  funext y
  obtain ⟨r, rfl⟩ := col_idx y
  show (outsAt0 V d t.val t.isLt).2.2.2.2.1 (ix2 r (0 : Fin 1)) = KL.accSumSq (V d main_v1) (((cfg0.win 6).blk t).view.emb (ix2 r (0 : Fin 1)))
  let c : Fin 2 := ⟨t.val / 64, by omega⟩
  have he : ((cfg0.win 6).blk t).view.emb (ix2 r (0 : Fin 1)) = ix2 (KL.arow c r) (0 : Fin 1) := by
    funext a
    apply Fin.ext
    match a with
    | ⟨0, _⟩ => show win0_6.index t (0 : Fin 2) * 32 + 1 * r.val = 32 * (t.val / 64) + r.val; rw [hi.1]; omega
    | ⟨1, _⟩ => show win0_6.index t (1 : Fin 2) * 1 + 1 * 0 = 0; rw [hi.2]
  rw [he, inv6 V d r t.val t.isLt, sum_range_last _ t.val h63]
  show _ = ∑ j : Fin 64, ∑ l : Fin 16384, KL.tileEntry (V d main_v1) (KL.arow c r) j l * KL.tileEntry (V d main_v1) (KL.arow c r) j l
  unfold rowSqAt
  refine Finset.sum_congr rfl fun j _ => Finset.sum_congr rfl fun l _ => ?_
  rw [tile_entry (V d main_v1) r c j l]

/-- Row q of the array lies in the block that core q / 32's last tile writes back. -/
theorem cover6 (i : S64x1.Idx) :
    ∃ t : Fin cfg0.N, (cfg0.win 6).flush t = true ∧ i ∈ ((cfg0.win 6).blk t).view.set := by
  have hq : (i 0).val < 64 := (i 0).isLt
  have h1 : (i 1).val < 1 := (i 1).isLt
  let t : Fin cfg0.N := ⟨64 * ((i 0).val / 32) + 63, lt_of_lt_of_eq (by omega : 64 * ((i 0).val / 32) + 63 < 128) hN.symm⟩
  have htv : t.val = 64 * ((i 0).val / 32) + 63 := rfl
  have hi := idx_out6 t
  refine ⟨t, (flush0_6 t).mpr (by rw [htv]; omega), ?_⟩
  show i ∈ ((View.whole main_v2_4).slice (win0_6.rect t)).set
  rw [View.set_slice_whole, Rect.mem_set_unit]
  intro a
  match a with
  | ⟨0, _⟩ =>
    show win0_6.index t (0 : Fin 2) * 32 ≤ (i 0).val ∧ (i 0).val < win0_6.index t (0 : Fin 2) * 32 + 32
    rw [hi.1, htv]; omega
  | ⟨1, _⟩ =>
    show win0_6.index t (1 : Fin 2) * 1 ≤ (i 1).val ∧ (i 1).val < win0_6.index t (1 : Fin 2) * 1 + 1
    rw [hi.2]; omega

/-- Output 6 after the region: the per-core row sum of squaress of the initial matrix. -/
theorem final6 (d : Dev nD) : (dat0 V d).arrAt 6 cfg0.N = KL.accSumSq (V d main_v1) :=
  (dat0 V d).arrAt_eq_of_cover 6 (KL.accSumSq (V d main_v1)) (flushed6_eq V d) (cover6)

end Cert.KernelIdeal.KReg0

end
-- ==== Proof.KReg0Out7.lean ====
/-
  Statistics region, output 7: the per-core row maximum of the initial matrix.

  After grid point n the accumulator column holds, at row r, the maximum of row r over the blocks of the points since
  the core's first tile, n − n mod 64 … n: the first tile resets the column and combines it with its own block, every
  later tile combines what the tile before left with its own. Only a core's last tile, n ≡ 63 (mod 64), writes the
  column back, to rows 32·c … 32·c + 31 of the [64, 1] array; the two cores' last tiles cover the array. So row
  q = 32·c + r of the array ends at the maximum over core c's 64 tiles of 16384 lanes of matrix row r.
-/
import proofs.«111140_j6493990552354_2_alg».proof.Proof.KReg0Pieces
import proofs.«111140_j6493990552354_2_alg».proof.Proof.KReg0Pay
import proofs.«111140_j6493990552354_2_alg».proof.Proof.KReg0Fold
import proofs.«111140_j6493990552354_2_alg».proof.Proof.KReg0Blocks

noncomputable section

open Idealize.ShloMosaic Idealize.ShloMosaic.TcCoe Idealize.SL.Sem
open Idealize.ShloMosaic.Pipeline (Dat)
open Idealize.ShloMosaic.ValueIdx
open scoped BigOperators

namespace Cert.KernelIdeal.KReg0

open Cert.KernelIdeal Cert.KernelIdeal.Gen

variable (V : (c : Dev nD) → (b : Ref sig .tc) → Buf (Elt Ideal) ((c : Thread nD τ).loc b))

/-- A resetting point leaves, at row r, its own block's row maximum. -/
theorem stepA7 (d : Dev nD) (t : Fin cfg0.N) (hc : cond0_0 (grid0.coords t)) (r : Fin 32) :
    out0_A_7 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) (ix2 r (0 : Fin 1))
      = rowMaxAt (V d main_v1) r t.val :=
  (congrFun (out_A_7 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t)) (ix2 r (0 : Fin 1))).trans
    ((pay3_apply (iblk0 V d 1 t) (k0_pay9 (F := Ideal)) r).trans (by
      rw [pay9_apply, bot_sup_eq]
      exact iSup_congr fun l => iblk_tile1 V d t r l))

/-- A carrying point leaves, at row r, what the point before left combined with its own block's row maximum. -/
theorem stepB7 (d : Dev nD) (t : Fin cfg0.N) (hc : ¬cond0_0 (grid0.coords t))
    (P : Vec Ideal S32x1 .f32 × Vec Ideal S32x1 .f32 × Vec Ideal S32x1 .f32 × Vec Ideal S32x1 .f32 × Vec Ideal S32x1 .f32 × Vec Ideal S32x1 .f32) (r : Fin 32) :
    out0_B_7 d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2 (ix2 r (0 : Fin 1))
      = max (P.2.2.2.2.2 (ix2 r (0 : Fin 1))) (rowMaxAt (V d main_v1) r t.val) :=
  (congrFun (out_B_7 (F := Ideal) d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) hc (iblk0 V d 0 t) (iblk0 V d 1 t) P.1 P.2.1 P.2.2.1 P.2.2.2.1 P.2.2.2.2.1 P.2.2.2.2.2) (ix2 r (0 : Fin 1))).trans
    ((pay3_apply (iblk0 V d 1 t) P.2.2.2.2.2 r).trans (congrArg (max (P.2.2.2.2.2 (ix2 r (0 : Fin 1)))) (iSup_congr fun l => iblk_tile1 V d t r l)))

/-- The accumulator after point n, at row r: the maximum over the points since the core's first tile. -/
theorem inv7 (d : Dev nD) (r : Fin 32) (n : ℕ) (hn : n < cfg0.N) :
    (outsAt0 V d n hn).2.2.2.2.2 (ix2 r (0 : Fin 1)) = (Finset.range (n % 64 + 1)).sup fun s => rowMaxAt (V d main_v1) r (n - n % 64 + s) := by
  refine sup_fold (N := cfg0.N) (fun n hn => (outsAt0 V d n hn).2.2.2.2.2 (ix2 r (0 : Fin 1))) (rowMaxAt (V d main_v1) r) ?_ ?_ n hn
  · intro n h hm
    show (outsAt0 V d n h).2.2.2.2.2 (ix2 r (0 : Fin 1)) = _
    rw [outsAt0_A V d ⟨n, h⟩ hm]
    exact stepA7 V d ⟨n, h⟩ ((hcond0_0 ⟨n, h⟩).mpr hm) r
  · intro n h hm
    show (outsAt0 V d (n + 1) h).2.2.2.2.2 (ix2 r (0 : Fin 1)) = _
    rw [outsAt0_B V d ⟨n + 1, h⟩ hm]
    exact stepB7 V d ⟨n + 1, h⟩ (fun hh => hm ((hcond0_0 ⟨n + 1, h⟩).mp hh)) (outsAt0 V d n (Nat.lt_of_succ_lt h)) r

/-- What a core's last tile writes back is its rows of the array's final contents. -/
theorem flushed7_eq (d : Dev nD) (t : Fin cfg0.N) (hf : (cfg0.win 7).flush t = true) :
    (dat0 V d).flushed 7 t = ((cfg0.win 7).blk t).view.read (Elt Ideal) (KL.accMax (V d main_v1)) := by
  have h63 : t.val % 64 = 63 := (flush0_7 t).mp hf
  have ht : t.val < 128 := lt_of_lt_of_eq t.isLt hN
  have hi := idx_out7 t
  show (cfg0.win 7).cut (grid0.coords t) ((dat0 V d).after 7 t) = _
  rw [after0_7]
  funext y
  obtain ⟨r, rfl⟩ := col_idx y
  show (outsAt0 V d t.val t.isLt).2.2.2.2.2 (ix2 r (0 : Fin 1)) = KL.accMax (V d main_v1) (((cfg0.win 7).blk t).view.emb (ix2 r (0 : Fin 1)))
  let c : Fin 2 := ⟨t.val / 64, by omega⟩
  have he : ((cfg0.win 7).blk t).view.emb (ix2 r (0 : Fin 1)) = ix2 (KL.arow c r) (0 : Fin 1) := by
    funext a
    apply Fin.ext
    match a with
    | ⟨0, _⟩ => show win0_7.index t (0 : Fin 2) * 32 + 1 * r.val = 32 * (t.val / 64) + r.val; rw [hi.1]; omega
    | ⟨1, _⟩ => show win0_7.index t (1 : Fin 2) * 1 + 1 * 0 = 0; rw [hi.2]
  rw [he, inv7 V d r t.val t.isLt, sup_range_last _ t.val h63]
  show _ = ⨆ j : Fin 64, ⨆ l : Fin 16384, KL.tileEntry (V d main_v1) (KL.arow c r) j l
  unfold rowMaxAt
  refine iSup_congr fun j => iSup_congr fun l => ?_
  exact tile_entry (V d main_v1) r c j l

/-- Row q of the array lies in the block that core q / 32's last tile writes back. -/
theorem cover7 (i : S64x1.Idx) :
    ∃ t : Fin cfg0.N, (cfg0.win 7).flush t = true ∧ i ∈ ((cfg0.win 7).blk t).view.set := by
  have hq : (i 0).val < 64 := (i 0).isLt
  have h1 : (i 1).val < 1 := (i 1).isLt
  let t : Fin cfg0.N := ⟨64 * ((i 0).val / 32) + 63, lt_of_lt_of_eq (by omega : 64 * ((i 0).val / 32) + 63 < 128) hN.symm⟩
  have htv : t.val = 64 * ((i 0).val / 32) + 63 := rfl
  have hi := idx_out7 t
  refine ⟨t, (flush0_7 t).mpr (by rw [htv]; omega), ?_⟩
  show i ∈ ((View.whole main_v2_5).slice (win0_7.rect t)).set
  rw [View.set_slice_whole, Rect.mem_set_unit]
  intro a
  match a with
  | ⟨0, _⟩ =>
    show win0_7.index t (0 : Fin 2) * 32 ≤ (i 0).val ∧ (i 0).val < win0_7.index t (0 : Fin 2) * 32 + 32
    rw [hi.1, htv]; omega
  | ⟨1, _⟩ =>
    show win0_7.index t (1 : Fin 2) * 1 ≤ (i 1).val ∧ (i 1).val < win0_7.index t (1 : Fin 2) * 1 + 1
    rw [hi.2]; omega

/-- Output 7 after the region: the per-core row maximums of the initial matrix. -/
theorem final7 (d : Dev nD) : (dat0 V d).arrAt 7 cfg0.N = KL.accMax (V d main_v1) :=
  (dat0 V d).arrAt_eq_of_cover 7 (KL.accMax (V d main_v1)) (flushed7_eq V d) (cover7)

end Cert.KernelIdeal.KReg0

end
-- ==== Proof.KReg0.lean ====
/-
  Statistics region: its six [64, 1] output arrays as functions of the two matrices the region is entered with —
  the per-core row sums, row sums of squares and row maxima of the current matrix (outputs 2, 3, 4) and of the
  initial matrix (outputs 5, 6, 7).
-/
import proofs.«111140_j6493990552354_2_alg».proof.Proof.KReg0Out2
import proofs.«111140_j6493990552354_2_alg».proof.Proof.KReg0Out3
import proofs.«111140_j6493990552354_2_alg».proof.Proof.KReg0Out4
import proofs.«111140_j6493990552354_2_alg».proof.Proof.KReg0Out5
import proofs.«111140_j6493990552354_2_alg».proof.Proof.KReg0Out6
import proofs.«111140_j6493990552354_2_alg».proof.Proof.KReg0Out7
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.KReg1Pay.lean ====
/-
  The arithmetic of one grid point of the second region, read at a row.  Each of the body's two accumulating stores
  holds, at row r, its accumulator's previous entry plus the sum over the tile's 16384 lanes of  exp(y·q − c),  where y
  is the entry of row r of the tile (of the current matrix for the first accumulator, of the initial matrix for the
  second) and q, c are the entries of row r of that matrix's two parameter columns (each column is repeated along the
  lanes).  The resets store the zero column.
-/
import proofs.«111140_j6493990552354_2_alg».proof.Proof.Gen.KernelIdeal.Skeleton
import proofs.«111140_j6493990552354_2_alg».proof.Proof.Spec
import proofs.«111140_j6493990552354_2_alg».proof.Proof.Consts
import proofs.«111140_j6493990552354_2_alg».proof.Proof.LibReduceRead
import proofs.«111140_j6493990552354_2_alg».proof.Proof.LibLayout
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.KReg1

open Cert.KernelIdeal Cert.KernelIdeal.Gen

/-- The per-entry term of the second region: exp(y·q − c). -/
def term (y q c : EReal) : EReal := Ideal.exp (y * q - c)

/-- A matrix tile read through the identity cast. -/
theorem cast_tile (x : Vec Ideal S32x16384 .f32) (r : Fin 32) (l : Fin 16384) :
    shapeCast S32x16384 x shapeCasts_S32x16384_S32x16384 (ix2 r l) = x (ix2 r l) :=
  congrFun (shapeCast_self x _) _

/-- A parameter column repeated along the lanes reads, at (r, l), the column's entry of row r. -/
theorem bcast_col (u : Vec Ideal S32x1 .f32) (r : Fin 32) (l : Fin 16384) :
    broadcastTo S32x16384 (shapeCast S32x1 u shapeCasts_S32x1_S32x1) broadcasts_S32x1_S32x16384 (ix2 r l)
      = u (ix2 r (0 : Fin 1)) :=
  (Cert.LibLayout.broadcastTo_a1_ab_apply _ _ r l).trans (congrFun (shapeCast_self u _) _)

/-- The first accumulator's store at row r. -/
theorem pay4_apply (x0 : Vec Ideal S32x16384 .f32) (x2 x3 acc : Vec Ideal S32x1 .f32) (r : Fin 32) :
    k1_pay4 (F := Ideal) x0 x2 x3 acc (ix2 r (0 : Fin 1))
      = acc (ix2 r (0 : Fin 1)) + ∑ l : Fin 16384,
          term (x0 (ix2 r l)) (x2 (ix2 r (0 : Fin 1))) (x3 (ix2 r (0 : Fin 1))) := by
  unfold k1_pay4
  refine (addf_apply _ _ _).trans ?_
  refine congrArg₂ (· + ·) (congrFun (shapeCast_self acc _) _) ?_
  refine (Cert.LibLayout.shapeCast_a_a1_apply _ _ r (0 : Fin 1)).trans ?_
  refine (Cert.LibReduceRead.rowSum_apply _ _ _ _ r).trans ?_
  refine Finset.sum_congr rfl fun l _ => ?_
  show Ideal.exp (shapeCast S32x16384 x0 shapeCasts_S32x16384_S32x16384 (ix2 r l)
          * broadcastTo S32x16384 (shapeCast S32x1 x2 shapeCasts_S32x1_S32x1) broadcasts_S32x1_S32x16384 (ix2 r l)
          - broadcastTo S32x16384 (shapeCast S32x1 x3 shapeCasts_S32x1_S32x1) broadcasts_S32x1_S32x16384 (ix2 r l)) = _
  rw [cast_tile, bcast_col, bcast_col]
  rfl

/-- The second accumulator's store at row r: the accumulator's previous contents and the tile's lane sums are handed
    to it as two values. -/
theorem pay1_apply (x1 : Vec Ideal S32x16384 .f32) (x4 x5 acc : Vec Ideal S32x1 .f32) (r : Fin 32) :
    k1_pay1 (F := Ideal) (k1_pay5 acc) (k1_pay6 x1 x4 x5) (ix2 r (0 : Fin 1))
      = acc (ix2 r (0 : Fin 1)) + ∑ l : Fin 16384,
          term (x1 (ix2 r l)) (x4 (ix2 r (0 : Fin 1))) (x5 (ix2 r (0 : Fin 1))) := by
  unfold k1_pay1 k1_pay5 k1_pay6
  refine (addf_apply _ _ _).trans ?_
  refine congrArg₂ (· + ·) (congrFun (shapeCast_self acc _) _) ?_
  refine (Cert.LibLayout.shapeCast_a_a1_apply _ _ r (0 : Fin 1)).trans ?_
  refine (Cert.LibReduceRead.rowSum_apply _ _ _ _ r).trans ?_
  refine Finset.sum_congr rfl fun l _ => ?_
  show Ideal.exp (shapeCast S32x16384 x1 shapeCasts_S32x16384_S32x16384 (ix2 r l)
          * broadcastTo S32x16384 (shapeCast S32x1 x4 shapeCasts_S32x1_S32x1) broadcasts_S32x1_S32x16384 (ix2 r l)
          - broadcastTo S32x16384 (shapeCast S32x1 x5 shapeCasts_S32x1_S32x1) broadcasts_S32x1_S32x16384 (ix2 r l)) = _
  rw [cast_tile, bcast_col, bcast_col]
  rfl

/-- The resets' payloads: the zero column. -/
theorem pay2_apply (y : S32x1.Idx) : k1_pay2 (F := Ideal) y = 0 := by
  unfold k1_pay2
  exact KL.zero_eq
theorem pay3_apply (y : S32x1.Idx) : k1_pay3 (F := Ideal) y = 0 := by
  unfold k1_pay3
  exact KL.zero_eq

end Cert.KernelIdeal.KReg1

end
-- ==== Proof.KReg1.lean ====
/-
  What the second region leaves in its two [64, 1] accumulator arrays.

  The region walks 128 grid points t = 64·c + j (core c, tile j).  At each point it reads tile t of the current and of
  the initial matrix (columns 16384·t … 16384·t + 16383) and the four parameter columns, and adds to row r of each of
  its two accumulator blocks the sum over the tile's lanes of exp(y·q − c) — the first block from the current matrix
  and its two columns, the second from the initial matrix and its two; at the first tile of a core (j = 0) both
  blocks are first reset to zero, and after the last (j = 63) they are written to rows 32·c … 32·c + 31 of their
  arrays.  So after point t a block's row r holds the sum of the tile sums of tiles 64·c … t, by induction on the
  point, and row q = 32·c + r of each array ends as the sum over that core's 64 tiles and their 16384 lanes.
-/
import proofs.«111140_j6493990552354_2_alg».proof.Proof.Gen.KernelIdeal.Frame
import proofs.«111140_j6493990552354_2_alg».proof.Proof.KReg1Pay
import proofs.«111140_j6493990552354_2_alg».proof.Proof.Acc
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KReg1

open Cert.KernelIdeal Cert.KernelIdeal.Gen

theorem hz : (![0, 0] : Fin 2 → Nat) = fun _ => 0 := funext fun a => by fin_cases a <;> rfl

/-! ## What one grid point leaves in the two accumulator blocks, for any float instance -/

section AnyInstance
variable {F : FTy → Type} [FloatOps F]

/-- A point that is not a core's first, first accumulator: its one store holds the payload of the loaded blocks and
    of the block's previous contents. -/
theorem out_B6 (c : Dev nD) (i : grid1.Coords)
    (a2 : Memref sig .tc .vmem S32x16384 .f32) (h2 : a2.IsWhole) (a3 : Memref sig .tc .vmem S32x16384 .f32) (h3 : a3.IsWhole)
    (a4 : Memref sig .tc .vmem S32x1 .f32) (h4 : a4.IsWhole) (a5 : Memref sig .tc .vmem S32x1 .f32) (h5 : a5.IsWhole)
    (a6 : Memref sig .tc .vmem S32x1 .f32) (h6 : a6.IsWhole) (a7 : Memref sig .tc .vmem S32x1 .f32) (h7 : a7.IsWhole)
    (a8 : Memref sig .tc .vmem S32x1 .f32) (h8 : a8.IsWhole) (a9 : Memref sig .tc .vmem S32x1 .f32) (h9 : a9.IsWhole) (hc : ¬cond1_0 i)
    (x0 x1 : Vec F S32x16384 .f32) (x2 x3 x4 x5 xo6 xo7 : Vec F S32x1 .f32) :
    out1_B_6 c i a2 h2 a3 h3 a4 h4 a5 h5 a6 h6 a7 h7 a8 h8 a9 h9 hc x0 x1 x2 x3 x4 x5 xo6 xo7 = k1_pay4 x0 x2 x3 xo6 := by
  unfold out1_B_6
  rw [View.read_writes_eq_canon _ _ _ (cover1_B_6 c i a2 h2 a3 h3 a4 h4 a5 h5 a6 h6 a7 h7 a8 h8 a9 h9 hc x0 x1 x2 x3 x4 x5 xo6 xo7)]
  unfold kernelRun1_B
  dsimp only
  try sl_unfold_words
  rw [View.canon_unit_zero hz]
  simp only [View.readAt_eq_ld, h2.read_unread, h3.read_unread, h4.read_unread, h5.read_unread, h6.read_unread,
    h7.read_unread, h8.read_unread, h9.read_unread, View.ld_unit_zero (S := S32x16384) hz, View.ld_unit_zero (S := S32x1) hz]

/-- The same point, second accumulator. -/
theorem out_B7 (c : Dev nD) (i : grid1.Coords)
    (a2 : Memref sig .tc .vmem S32x16384 .f32) (h2 : a2.IsWhole) (a3 : Memref sig .tc .vmem S32x16384 .f32) (h3 : a3.IsWhole)
    (a4 : Memref sig .tc .vmem S32x1 .f32) (h4 : a4.IsWhole) (a5 : Memref sig .tc .vmem S32x1 .f32) (h5 : a5.IsWhole)
    (a6 : Memref sig .tc .vmem S32x1 .f32) (h6 : a6.IsWhole) (a7 : Memref sig .tc .vmem S32x1 .f32) (h7 : a7.IsWhole)
    (a8 : Memref sig .tc .vmem S32x1 .f32) (h8 : a8.IsWhole) (a9 : Memref sig .tc .vmem S32x1 .f32) (h9 : a9.IsWhole) (hc : ¬cond1_0 i)
    (x0 x1 : Vec F S32x16384 .f32) (x2 x3 x4 x5 xo6 xo7 : Vec F S32x1 .f32) :
    out1_B_7 c i a2 h2 a3 h3 a4 h4 a5 h5 a6 h6 a7 h7 a8 h8 a9 h9 hc x0 x1 x2 x3 x4 x5 xo6 xo7 = k1_pay1 (k1_pay5 xo7) (k1_pay6 x1 x4 x5) := by
  unfold out1_B_7
  rw [View.read_writes_eq_canon _ _ _ (cover1_B_7 c i a2 h2 a3 h3 a4 h4 a5 h5 a6 h6 a7 h7 a8 h8 a9 h9 hc x0 x1 x2 x3 x4 x5 xo6 xo7)]
  unfold kernelRun1_B
  dsimp only
  try sl_unfold_words
  rw [View.canon_unit_zero hz]
  simp only [View.readAt_eq_ld, h2.read_unread, h3.read_unread, h4.read_unread, h5.read_unread, h6.read_unread,
    h7.read_unread, h8.read_unread, h9.read_unread, View.ld_unit_zero (S := S32x16384) hz, View.ld_unit_zero (S := S32x1) hz]

/-- A core's first point, first accumulator: the block is reset to the zero column, read back, and the payload
    stored over it. -/
theorem out_A6 (c : Dev nD) (i : grid1.Coords)
    (a2 : Memref sig .tc .vmem S32x16384 .f32) (h2 : a2.IsWhole) (a3 : Memref sig .tc .vmem S32x16384 .f32) (h3 : a3.IsWhole)
    (a4 : Memref sig .tc .vmem S32x1 .f32) (h4 : a4.IsWhole) (a5 : Memref sig .tc .vmem S32x1 .f32) (h5 : a5.IsWhole)
    (a6 : Memref sig .tc .vmem S32x1 .f32) (h6 : a6.IsWhole) (a7 : Memref sig .tc .vmem S32x1 .f32) (h7 : a7.IsWhole)
    (a8 : Memref sig .tc .vmem S32x1 .f32) (h8 : a8.IsWhole) (a9 : Memref sig .tc .vmem S32x1 .f32) (h9 : a9.IsWhole) (hc : cond1_0 i)
    (x0 x1 : Vec F S32x16384 .f32) (x2 x3 x4 x5 : Vec F S32x1 .f32) :
    out1_A_6 c i a2 h2 a3 h3 a4 h4 a5 h5 a6 h6 a7 h7 a8 h8 a9 h9 hc x0 x1 x2 x3 x4 x5 = k1_pay4 x0 x2 x3 k1_pay2 := by
  unfold out1_A_6
  rw [View.read_writes_eq_canon _ _ _ (cover1_A_6 c i a2 h2 a3 h3 a4 h4 a5 h5 a6 h6 a7 h7 a8 h8 a9 h9 hc x0 x1 x2 x3 x4 x5)]
  unfold kernelRun1_A
  dsimp only
  try sl_unfold_words
  rw [View.canon_cons_unit_zero (S := S32x1) hz, View.readCov_unit_zero (S := S32x1) _ hz]
  simp only [View.readAt_eq_ld, h2.read_unread, h3.read_unread, h4.read_unread, h5.read_unread, h6.read_unread,
    h7.read_unread, View.ld_unit_zero (S := S32x16384) hz, View.ld_unit_zero (S := S32x1) hz]

/-- The same point, second accumulator. -/
theorem out_A7 (c : Dev nD) (i : grid1.Coords)
    (a2 : Memref sig .tc .vmem S32x16384 .f32) (h2 : a2.IsWhole) (a3 : Memref sig .tc .vmem S32x16384 .f32) (h3 : a3.IsWhole)
    (a4 : Memref sig .tc .vmem S32x1 .f32) (h4 : a4.IsWhole) (a5 : Memref sig .tc .vmem S32x1 .f32) (h5 : a5.IsWhole)
    (a6 : Memref sig .tc .vmem S32x1 .f32) (h6 : a6.IsWhole) (a7 : Memref sig .tc .vmem S32x1 .f32) (h7 : a7.IsWhole)
    (a8 : Memref sig .tc .vmem S32x1 .f32) (h8 : a8.IsWhole) (a9 : Memref sig .tc .vmem S32x1 .f32) (h9 : a9.IsWhole) (hc : cond1_0 i)
    (x0 x1 : Vec F S32x16384 .f32) (x2 x3 x4 x5 : Vec F S32x1 .f32) :
    out1_A_7 c i a2 h2 a3 h3 a4 h4 a5 h5 a6 h6 a7 h7 a8 h8 a9 h9 hc x0 x1 x2 x3 x4 x5 = k1_pay1 (k1_pay5 k1_pay3) (k1_pay6 x1 x4 x5) := by
  unfold out1_A_7
  rw [View.read_writes_eq_canon _ _ _ (cover1_A_7 c i a2 h2 a3 h3 a4 h4 a5 h5 a6 h6 a7 h7 a8 h8 a9 h9 hc x0 x1 x2 x3 x4 x5)]
  unfold kernelRun1_A
  dsimp only
  try sl_unfold_words
  rw [View.canon_cons_unit_zero (S := S32x1) hz, View.readCov_unit_zero (S := S32x1) _ hz]
  simp only [View.readAt_eq_ld, h2.read_unread, h3.read_unread, h4.read_unread, h5.read_unread, h6.read_unread,
    h7.read_unread, View.ld_unit_zero (S := S32x16384) hz, View.ld_unit_zero (S := S32x1) hz]

end AnyInstance

/-! ## The blocks a point reads, as entries of the arrays the region is entered with -/

variable (V : (c : Dev nD) → (b : Ref sig .tc) → Buf (Elt Ideal) ((c : Thread nD τ).loc b))

/-- Column of lane l of tile k of the [32, 2097152] matrices (k is taken modulo the 128 tiles). -/
def colN (k : ℕ) (l : Fin 16384) : Fin 2097152 :=
  ⟨(k % 128) * 16384 + l.val, by have := Nat.mod_lt k (show 0 < 128 by norm_num); have := l.isLt; omega⟩

theorem colN_eq (c : Fin 2) (j : Fin 64) (l : Fin 16384) : colN (c.val * 64 + j.val) l = KL.col c j l := by
  apply Fin.ext
  show (c.val * 64 + j.val) % 128 * 16384 + l.val = (c.val * 64 + j.val) * 16384 + l.val
  have := c.isLt; have := j.isLt
  rw [Nat.mod_eq_of_lt (by omega)]

/-- The index maps, decided over the grid: the matrices' block at point t is (0, t), the parameter columns' block
    is (0, 0), the accumulators' block is (t / 64, 0). -/
theorem idx_mat : ∀ t : Fin cfg1.N, win1_0.index t 0 = 0 ∧ win1_0.index t 1 = t.val
    ∧ win1_1.index t 0 = 0 ∧ win1_1.index t 1 = t.val :=
  (by decide +kernel : ∀ t : Fin grid1.N, _)
theorem idx_col : ∀ t : Fin cfg1.N, win1_2.index t 0 = 0 ∧ win1_2.index t 1 = 0 ∧ win1_3.index t 0 = 0 ∧ win1_3.index t 1 = 0
    ∧ win1_4.index t 0 = 0 ∧ win1_4.index t 1 = 0 ∧ win1_5.index t 0 = 0 ∧ win1_5.index t 1 = 0 :=
  (by decide +kernel : ∀ t : Fin grid1.N, _)
theorem idx_acc : ∀ t : Fin cfg1.N, win1_6.index t 0 = t.val / 64 ∧ win1_6.index t 1 = 0
    ∧ win1_7.index t 0 = t.val / 64 ∧ win1_7.index t 1 = 0 :=
  (by decide +kernel : ∀ t : Fin grid1.N, _)

theorem blk0_apply (d : Dev nD) (t : Fin cfg1.N) (r : Fin 32) (l : Fin 16384) :
    (iblk1 V d 0 t : Vec Ideal S32x16384 .f32) (ix2 r l) = V d main_v0 (ix2 r (colN t.val l)) := by
  obtain ⟨e0, e1, -, -⟩ := idx_mat t
  have hN : t.val < 128 := lt_of_lt_of_eq t.isLt (show cfg1.N = 128 from N_1)
  unfold iblk1
  rw [View.read_apply]
  show V d main_v0 _ = V d main_v0 _
  refine congrArg (V d main_v0) (funext fun a => Fin.ext ?_)
  match a with
  | ⟨0, _⟩ => show win1_0.index t 0 * 32 + 1 * r.val = r.val; rw [e0]; omega
  | ⟨1, _⟩ => show win1_0.index t 1 * 16384 + 1 * l.val = t.val % 128 * 16384 + l.val; rw [e1, Nat.mod_eq_of_lt hN]; omega

theorem blk1_apply (d : Dev nD) (t : Fin cfg1.N) (r : Fin 32) (l : Fin 16384) :
    (iblk1 V d 1 t : Vec Ideal S32x16384 .f32) (ix2 r l) = V d main_v1 (ix2 r (colN t.val l)) := by
  obtain ⟨-, -, e0, e1⟩ := idx_mat t
  have hN : t.val < 128 := lt_of_lt_of_eq t.isLt (show cfg1.N = 128 from N_1)
  unfold iblk1
  rw [View.read_apply]
  show V d main_v1 _ = V d main_v1 _
  refine congrArg (V d main_v1) (funext fun a => Fin.ext ?_)
  match a with
  | ⟨0, _⟩ => show win1_1.index t 0 * 32 + 1 * r.val = r.val; rw [e0]; omega
  | ⟨1, _⟩ => show win1_1.index t 1 * 16384 + 1 * l.val = t.val % 128 * 16384 + l.val; rw [e1, Nat.mod_eq_of_lt hN]; omega

theorem blk2_apply (d : Dev nD) (t : Fin cfg1.N) (r : Fin 32) :
    (iblk1 V d 2 t : Vec Ideal S32x1 .f32) (ix2 r (0 : Fin 1)) = V d main_v66 (ix2 r (0 : Fin 1)) := by
  obtain ⟨e0, e1, -⟩ := idx_col t
  unfold iblk1
  rw [View.read_apply]
  show V d main_v66 _ = V d main_v66 _
  refine congrArg (V d main_v66) (funext fun a => Fin.ext ?_)
  match a with
  | ⟨0, _⟩ => show win1_2.index t 0 * 32 + 1 * r.val = r.val; rw [e0]; omega
  | ⟨1, _⟩ => show win1_2.index t 1 * 1 + 1 * 0 = 0; rw [e1]

theorem blk3_apply (d : Dev nD) (t : Fin cfg1.N) (r : Fin 32) :
    (iblk1 V d 3 t : Vec Ideal S32x1 .f32) (ix2 r (0 : Fin 1)) = V d main_v68 (ix2 r (0 : Fin 1)) := by
  obtain ⟨-, -, e0, e1, -⟩ := idx_col t
  unfold iblk1
  rw [View.read_apply]
  show V d main_v68 _ = V d main_v68 _
  refine congrArg (V d main_v68) (funext fun a => Fin.ext ?_)
  match a with
  | ⟨0, _⟩ => show win1_3.index t 0 * 32 + 1 * r.val = r.val; rw [e0]; omega
  | ⟨1, _⟩ => show win1_3.index t 1 * 1 + 1 * 0 = 0; rw [e1]

theorem blk4_apply (d : Dev nD) (t : Fin cfg1.N) (r : Fin 32) :
    (iblk1 V d 4 t : Vec Ideal S32x1 .f32) (ix2 r (0 : Fin 1)) = V d main_v70 (ix2 r (0 : Fin 1)) := by
  obtain ⟨-, -, -, -, e0, e1, -⟩ := idx_col t
  unfold iblk1
  rw [View.read_apply]
  show V d main_v70 _ = V d main_v70 _
  refine congrArg (V d main_v70) (funext fun a => Fin.ext ?_)
  match a with
  | ⟨0, _⟩ => show win1_4.index t 0 * 32 + 1 * r.val = r.val; rw [e0]; omega
  | ⟨1, _⟩ => show win1_4.index t 1 * 1 + 1 * 0 = 0; rw [e1]

theorem blk5_apply (d : Dev nD) (t : Fin cfg1.N) (r : Fin 32) :
    (iblk1 V d 5 t : Vec Ideal S32x1 .f32) (ix2 r (0 : Fin 1)) = V d main_v72 (ix2 r (0 : Fin 1)) := by
  obtain ⟨-, -, -, -, -, -, e0, e1⟩ := idx_col t
  unfold iblk1
  rw [View.read_apply]
  show V d main_v72 _ = V d main_v72 _
  refine congrArg (V d main_v72) (funext fun a => Fin.ext ?_)
  match a with
  | ⟨0, _⟩ => show win1_5.index t 0 * 32 + 1 * r.val = r.val; rw [e0]; omega
  | ⟨1, _⟩ => show win1_5.index t 1 * 1 + 1 * 0 = 0; rw [e1]

/-! ## Accumulator 6: the running sum -/

/-- The sum of exp(y·q − c) over the lanes of tile k, in matrix row r. -/
def tileSum6 (d : Dev nD) (r : Fin 32) (k : ℕ) : EReal :=
  ∑ l : Fin 16384, term (V d main_v0 (ix2 r (colN k l))) (V d main_v66 (ix2 r (0 : Fin 1))) (V d main_v68 (ix2 r (0 : Fin 1)))

/-- The payload at point t over block contents acc: acc plus tile t's sum. -/
theorem pay_at6 (d : Dev nD) (t : Fin cfg1.N) (acc : Vec Ideal S32x1 .f32) (r : Fin 32) :
    k1_pay4 (F := Ideal) (iblk1 V d 0 t) (iblk1 V d 2 t) (iblk1 V d 3 t) acc (ix2 r (0 : Fin 1))
      = acc (ix2 r (0 : Fin 1)) + tileSum6 V d r t.val := by
  refine (pay4_apply (iblk1 V d 0 t) (iblk1 V d 2 t) (iblk1 V d 3 t) acc r).trans ?_
  unfold tileSum6
  refine congrArg (acc (ix2 r (0 : Fin 1)) + ·) (Finset.sum_congr rfl fun l _ => ?_)
  rw [blk0_apply V d t r l, blk2_apply V d t r, blk3_apply V d t r]

/-- At a core's first point the block holds that tile's sum. -/
theorem step_A6 (d : Dev nD) (t : Fin cfg1.N) (h0 : t.val % 64 = 0) (r : Fin 32) :
    (outsAt1 V d t.val t.isLt).1 (ix2 r (0 : Fin 1)) = tileSum6 V d r t.val := by
  refine (congrFun (congrArg Prod.fst (outsAt1_A V d t h0)) (ix2 r (0 : Fin 1))).trans ?_
  refine (congrFun (out_A6 (F := Ideal) d (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0)
    (iblk1 V d 0 t) (iblk1 V d 1 t) (iblk1 V d 2 t) (iblk1 V d 3 t) (iblk1 V d 4 t) (iblk1 V d 5 t)) (ix2 r (0 : Fin 1))).trans ?_
  refine (pay_at6 V d t (k1_pay2 (F := Ideal)) r).trans ?_
  rw [pay2_apply, zero_add]

/-- At any other point it holds what the point before left plus the tile's sum. -/
theorem step_B6 (d : Dev nD) (n : ℕ) (hn : n + 1 < cfg1.N) (h0 : ¬(n + 1) % 64 = 0) (r : Fin 32) :
    (outsAt1 V d (n + 1) hn).1 (ix2 r (0 : Fin 1))
      = (outsAt1 V d n (Nat.lt_of_succ_lt hn)).1 (ix2 r (0 : Fin 1)) + tileSum6 V d r (n + 1) := by
  refine (congrFun (congrArg Prod.fst (outsAt1_B V d ⟨n + 1, hn⟩ h0)) (ix2 r (0 : Fin 1))).trans ?_
  refine (congrFun (out_B6 (F := Ideal) d (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h))
    (iblk1 V d 0 ⟨n + 1, hn⟩) (iblk1 V d 1 ⟨n + 1, hn⟩) (iblk1 V d 2 ⟨n + 1, hn⟩) (iblk1 V d 3 ⟨n + 1, hn⟩) (iblk1 V d 4 ⟨n + 1, hn⟩) (iblk1 V d 5 ⟨n + 1, hn⟩) (outsAt1 V d n (Nat.lt_of_succ_lt hn)).1 (outsAt1 V d n (Nat.lt_of_succ_lt hn)).2) (ix2 r (0 : Fin 1))).trans ?_
  exact pay_at6 V d ⟨n + 1, hn⟩ (outsAt1 V d n (Nat.lt_of_succ_lt hn)).1 r

/-- After point n the block's row r holds the sum of the tile sums of its core's tiles up to n. -/
theorem outsAt_eq6 (d : Dev nD) (r : Fin 32) : ∀ (n : ℕ) (hn : n < cfg1.N),
    (outsAt1 V d n hn).1 (ix2 r (0 : Fin 1)) = ∑ s ∈ Finset.range (n % 64 + 1), tileSum6 V d r (n / 64 * 64 + s)
  | 0, hn => by
    refine (step_A6 V d ⟨0, hn⟩ rfl r).trans ?_
    simp
  | n + 1, hn => by
    by_cases h0 : (n + 1) % 64 = 0
    · refine (step_A6 V d ⟨n + 1, hn⟩ h0 r).trans ?_
      rw [h0, Finset.sum_range_one]
      refine congrArg (tileSum6 V d r) ?_
      show n + 1 = (n + 1) / 64 * 64 + 0
      omega
    · rw [step_B6 V d n hn h0 r, outsAt_eq6 d r n (Nat.lt_of_succ_lt hn)]
      have e1 : (n + 1) % 64 = n % 64 + 1 := by omega
      have e2 : (n + 1) / 64 = n / 64 := by omega
      rw [e1, e2, Finset.sum_range_succ _ (n % 64 + 1)]
      refine congrArg (_ + tileSum6 V d r ·) ?_
      omega

/-- The accumulator array after the region. -/
abbrev result6 (d : Dev nD) : KL.Acc := KL.accSumExp (V d main_v0) (V d main_v66) (V d main_v68)

/-- Row q of the result, spelt out. -/
theorem result6_apply (d : Dev nD) (q : Fin 64) :
    result6 V d (ix2 q (0 : Fin 1)) = ∑ j : Fin 64, ∑ l : Fin 16384,
      term (V d main_v0 (ix2 (KL.accR q) (KL.col (KL.accC q) j l)))
        (V d main_v66 (ix2 (KL.accR q) (0 : Fin 1))) (V d main_v68 (ix2 (KL.accR q) (0 : Fin 1))) := rfl

/-- After a core's last point the block's row r holds row 32·c + r of the result. -/
theorem last_eq6 (d : Dev nD) (t : Fin cfg1.N) (h63 : t.val % 64 = 63) (c : Fin 2) (hc : c.val = t.val / 64) (r : Fin 32) :
    (outsAt1 V d t.val t.isLt).1 (ix2 r (0 : Fin 1)) = result6 V d (ix2 (KL.arow c r) (0 : Fin 1)) := by
  rw [outsAt_eq6 V d r t.val t.isLt, h63, result6_apply V d (KL.arow c r), KL.accR_arow, KL.accC_arow]
  show ∑ s ∈ Finset.range 64, _ = _
  rw [Finset.sum_range]
  refine Finset.sum_congr rfl fun j _ => ?_
  unfold tileSum6
  refine Finset.sum_congr rfl fun l _ => ?_
  rw [← colN_eq c j l, hc]

/-- What a core's last point writes back is its block of the result. -/
theorem flushed_eq6 (d : Dev nD) (t : Fin cfg1.N) (hf : (cfg1.win 6).flush t = true) :
    (dat1 V d).flushed 6 t = ((cfg1.win 6).blk t).view.read (Elt Ideal) (result6 V d) := by
  have hN : t.val < 128 := lt_of_lt_of_eq t.isLt (show cfg1.N = 128 from N_1)
  have h63 : t.val % 64 = 63 := (flush1_6 t).mp hf
  obtain ⟨e0, e1, -, -⟩ := idx_acc t
  show (cfg1.win 6).cut (grid1.coords t) ((dat1 V d).after 6 t) = _
  rw [after1_6]
  refine funext fun (y : S32x1.Idx) => ?_
  rw [View.read_apply]
  show (outsAt1 V d t.val t.isLt).1 y = result6 V d (((cfg1.win 6).blk t).view.emb y)
  obtain ⟨r, u, rfl⟩ : ∃ (r : Fin 32) (u : Fin 1), y = ix2 r u := ⟨y 0, y 1, eq_ix2 y⟩
  obtain rfl : u = 0 := Subsingleton.elim _ _
  have hemb : ((cfg1.win 6).blk t).view.emb (ix2 r (0 : Fin 1))
      = ix2 (KL.arow ⟨t.val / 64, by omega⟩ r) (0 : Fin 1) := by
    refine funext fun a => Fin.ext ?_
    match a with
    | ⟨0, _⟩ => show win1_6.index t 0 * 32 + 1 * r.val = 32 * (t.val / 64) + r.val; rw [e0]; omega
    | ⟨1, _⟩ => show win1_6.index t 1 * 1 + 1 * 0 = 0; rw [e1]
  rw [hemb]
  exact last_eq6 V d t h63 ⟨t.val / 64, by omega⟩ rfl r

/-- An index of the array lies in point t's block iff each coordinate lies in the block's range. -/
theorem mem_blk6 (t : Fin cfg1.N) (i : S64x1.Idx) :
    i ∈ ((cfg1.win 6).blk t).view.set ↔ ∀ a : Fin 2, win1_6.index t a * S32x1.size a ≤ (i a).val
      ∧ (i a).val < win1_6.index t a * S32x1.size a + S32x1.size a := by
  show i ∈ ((View.whole main_v73_0).slice (win1_6.rect t)).set ↔ _
  rw [View.set_slice_whole, Rect.mem_set_unit]
  exact Iff.rfl

/-- Every row of the array is written back by its core's last point. -/
theorem cover6 (i : S64x1.Idx) :
    ∃ t : Fin cfg1.N, (cfg1.win 6).flush t = true ∧ i ∈ ((cfg1.win 6).blk t).view.set := by
  have hi0 : (i 0).val < 64 := (i 0).isLt
  have hi1 : (i 1).val < 1 := (i 1).isLt
  have hN : cfg1.N = 128 := N_1
  have ht : 64 * ((i 0).val / 32) + 63 < cfg1.N := by rw [hN]; omega
  obtain ⟨e0, e1, -, -⟩ := idx_acc ⟨64 * ((i 0).val / 32) + 63, ht⟩
  have e0' : win1_6.index ⟨64 * ((i 0).val / 32) + 63, ht⟩ 0 = (64 * ((i 0).val / 32) + 63) / 64 := e0
  refine ⟨⟨64 * ((i 0).val / 32) + 63, ht⟩, (flush1_6 _).mpr ?_, ?_⟩
  · show (64 * ((i 0).val / 32) + 63) % 64 = 63
    omega
  · rw [mem_blk6]
    intro a
    match a with
    | ⟨0, _⟩ =>
      show win1_6.index ⟨64 * ((i 0).val / 32) + 63, ht⟩ 0 * 32 ≤ (i 0).val
        ∧ (i 0).val < win1_6.index ⟨64 * ((i 0).val / 32) + 63, ht⟩ 0 * 32 + 32
      rw [e0']; omega
    | ⟨1, _⟩ =>
      show win1_6.index ⟨64 * ((i 0).val / 32) + 63, ht⟩ 1 * 1 ≤ (i 1).val
        ∧ (i 1).val < win1_6.index ⟨64 * ((i 0).val / 32) + 63, ht⟩ 1 * 1 + 1
      rw [e1]; omega

/-- The accumulator array ends as the per-core row sums of exp(y·q − c). -/
theorem final6 (d : Dev nD) : (dat1 V d).arrAt 6 cfg1.N
    = KL.accSumExp (V d main_v0) (V d main_v66) (V d main_v68) :=
  (dat1 V d).arrAt_eq_of_cover 6 (result6 V d) (flushed_eq6 V d) cover6

/-! ## Accumulator 7: the running sum -/

/-- The sum of exp(y·q − c) over the lanes of tile k, in matrix row r. -/
def tileSum7 (d : Dev nD) (r : Fin 32) (k : ℕ) : EReal :=
  ∑ l : Fin 16384, term (V d main_v1 (ix2 r (colN k l))) (V d main_v70 (ix2 r (0 : Fin 1))) (V d main_v72 (ix2 r (0 : Fin 1)))

/-- The payload at point t over block contents acc: acc plus tile t's sum. -/
theorem pay_at7 (d : Dev nD) (t : Fin cfg1.N) (acc : Vec Ideal S32x1 .f32) (r : Fin 32) :
    k1_pay1 (F := Ideal) (k1_pay5 acc) (k1_pay6 (iblk1 V d 1 t) (iblk1 V d 4 t) (iblk1 V d 5 t)) (ix2 r (0 : Fin 1))
      = acc (ix2 r (0 : Fin 1)) + tileSum7 V d r t.val := by
  refine (pay1_apply (iblk1 V d 1 t) (iblk1 V d 4 t) (iblk1 V d 5 t) acc r).trans ?_
  unfold tileSum7
  refine congrArg (acc (ix2 r (0 : Fin 1)) + ·) (Finset.sum_congr rfl fun l _ => ?_)
  rw [blk1_apply V d t r l, blk4_apply V d t r, blk5_apply V d t r]

/-- At a core's first point the block holds that tile's sum. -/
theorem step_A7 (d : Dev nD) (t : Fin cfg1.N) (h0 : t.val % 64 = 0) (r : Fin 32) :
    (outsAt1 V d t.val t.isLt).2 (ix2 r (0 : Fin 1)) = tileSum7 V d r t.val := by
  refine (congrFun (congrArg Prod.snd (outsAt1_A V d t h0)) (ix2 r (0 : Fin 1))).trans ?_
  refine (congrFun (out_A7 (F := Ideal) d (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0)
    (iblk1 V d 0 t) (iblk1 V d 1 t) (iblk1 V d 2 t) (iblk1 V d 3 t) (iblk1 V d 4 t) (iblk1 V d 5 t)) (ix2 r (0 : Fin 1))).trans ?_
  refine (pay_at7 V d t (k1_pay3 (F := Ideal)) r).trans ?_
  rw [pay3_apply, zero_add]

/-- At any other point it holds what the point before left plus the tile's sum. -/
theorem step_B7 (d : Dev nD) (n : ℕ) (hn : n + 1 < cfg1.N) (h0 : ¬(n + 1) % 64 = 0) (r : Fin 32) :
    (outsAt1 V d (n + 1) hn).2 (ix2 r (0 : Fin 1))
      = (outsAt1 V d n (Nat.lt_of_succ_lt hn)).2 (ix2 r (0 : Fin 1)) + tileSum7 V d r (n + 1) := by
  refine (congrFun (congrArg Prod.snd (outsAt1_B V d ⟨n + 1, hn⟩ h0)) (ix2 r (0 : Fin 1))).trans ?_
  refine (congrFun (out_B7 (F := Ideal) d (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h))
    (iblk1 V d 0 ⟨n + 1, hn⟩) (iblk1 V d 1 ⟨n + 1, hn⟩) (iblk1 V d 2 ⟨n + 1, hn⟩) (iblk1 V d 3 ⟨n + 1, hn⟩) (iblk1 V d 4 ⟨n + 1, hn⟩) (iblk1 V d 5 ⟨n + 1, hn⟩) (outsAt1 V d n (Nat.lt_of_succ_lt hn)).1 (outsAt1 V d n (Nat.lt_of_succ_lt hn)).2) (ix2 r (0 : Fin 1))).trans ?_
  exact pay_at7 V d ⟨n + 1, hn⟩ (outsAt1 V d n (Nat.lt_of_succ_lt hn)).2 r

/-- After point n the block's row r holds the sum of the tile sums of its core's tiles up to n. -/
theorem outsAt_eq7 (d : Dev nD) (r : Fin 32) : ∀ (n : ℕ) (hn : n < cfg1.N),
    (outsAt1 V d n hn).2 (ix2 r (0 : Fin 1)) = ∑ s ∈ Finset.range (n % 64 + 1), tileSum7 V d r (n / 64 * 64 + s)
  | 0, hn => by
    refine (step_A7 V d ⟨0, hn⟩ rfl r).trans ?_
    simp
  | n + 1, hn => by
    by_cases h0 : (n + 1) % 64 = 0
    · refine (step_A7 V d ⟨n + 1, hn⟩ h0 r).trans ?_
      rw [h0, Finset.sum_range_one]
      refine congrArg (tileSum7 V d r) ?_
      show n + 1 = (n + 1) / 64 * 64 + 0
      omega
    · rw [step_B7 V d n hn h0 r, outsAt_eq7 d r n (Nat.lt_of_succ_lt hn)]
      have e1 : (n + 1) % 64 = n % 64 + 1 := by omega
      have e2 : (n + 1) / 64 = n / 64 := by omega
      rw [e1, e2, Finset.sum_range_succ _ (n % 64 + 1)]
      refine congrArg (_ + tileSum7 V d r ·) ?_
      omega

/-- The accumulator array after the region. -/
abbrev result7 (d : Dev nD) : KL.Acc := KL.accSumExp (V d main_v1) (V d main_v70) (V d main_v72)

/-- Row q of the result, spelt out. -/
theorem result7_apply (d : Dev nD) (q : Fin 64) :
    result7 V d (ix2 q (0 : Fin 1)) = ∑ j : Fin 64, ∑ l : Fin 16384,
      term (V d main_v1 (ix2 (KL.accR q) (KL.col (KL.accC q) j l)))
        (V d main_v70 (ix2 (KL.accR q) (0 : Fin 1))) (V d main_v72 (ix2 (KL.accR q) (0 : Fin 1))) := rfl

/-- After a core's last point the block's row r holds row 32·c + r of the result. -/
theorem last_eq7 (d : Dev nD) (t : Fin cfg1.N) (h63 : t.val % 64 = 63) (c : Fin 2) (hc : c.val = t.val / 64) (r : Fin 32) :
    (outsAt1 V d t.val t.isLt).2 (ix2 r (0 : Fin 1)) = result7 V d (ix2 (KL.arow c r) (0 : Fin 1)) := by
  rw [outsAt_eq7 V d r t.val t.isLt, h63, result7_apply V d (KL.arow c r), KL.accR_arow, KL.accC_arow]
  show ∑ s ∈ Finset.range 64, _ = _
  rw [Finset.sum_range]
  refine Finset.sum_congr rfl fun j _ => ?_
  unfold tileSum7
  refine Finset.sum_congr rfl fun l _ => ?_
  rw [← colN_eq c j l, hc]

/-- What a core's last point writes back is its block of the result. -/
theorem flushed_eq7 (d : Dev nD) (t : Fin cfg1.N) (hf : (cfg1.win 7).flush t = true) :
    (dat1 V d).flushed 7 t = ((cfg1.win 7).blk t).view.read (Elt Ideal) (result7 V d) := by
  have hN : t.val < 128 := lt_of_lt_of_eq t.isLt (show cfg1.N = 128 from N_1)
  have h63 : t.val % 64 = 63 := (flush1_7 t).mp hf
  obtain ⟨-, -, e0, e1⟩ := idx_acc t
  show (cfg1.win 7).cut (grid1.coords t) ((dat1 V d).after 7 t) = _
  rw [after1_7]
  refine funext fun (y : S32x1.Idx) => ?_
  rw [View.read_apply]
  show (outsAt1 V d t.val t.isLt).2 y = result7 V d (((cfg1.win 7).blk t).view.emb y)
  obtain ⟨r, u, rfl⟩ : ∃ (r : Fin 32) (u : Fin 1), y = ix2 r u := ⟨y 0, y 1, eq_ix2 y⟩
  obtain rfl : u = 0 := Subsingleton.elim _ _
  have hemb : ((cfg1.win 7).blk t).view.emb (ix2 r (0 : Fin 1))
      = ix2 (KL.arow ⟨t.val / 64, by omega⟩ r) (0 : Fin 1) := by
    refine funext fun a => Fin.ext ?_
    match a with
    | ⟨0, _⟩ => show win1_7.index t 0 * 32 + 1 * r.val = 32 * (t.val / 64) + r.val; rw [e0]; omega
    | ⟨1, _⟩ => show win1_7.index t 1 * 1 + 1 * 0 = 0; rw [e1]
  rw [hemb]
  exact last_eq7 V d t h63 ⟨t.val / 64, by omega⟩ rfl r

/-- An index of the array lies in point t's block iff each coordinate lies in the block's range. -/
theorem mem_blk7 (t : Fin cfg1.N) (i : S64x1.Idx) :
    i ∈ ((cfg1.win 7).blk t).view.set ↔ ∀ a : Fin 2, win1_7.index t a * S32x1.size a ≤ (i a).val
      ∧ (i a).val < win1_7.index t a * S32x1.size a + S32x1.size a := by
  show i ∈ ((View.whole main_v73_1).slice (win1_7.rect t)).set ↔ _
  rw [View.set_slice_whole, Rect.mem_set_unit]
  exact Iff.rfl

/-- Every row of the array is written back by its core's last point. -/
theorem cover7 (i : S64x1.Idx) :
    ∃ t : Fin cfg1.N, (cfg1.win 7).flush t = true ∧ i ∈ ((cfg1.win 7).blk t).view.set := by
  have hi0 : (i 0).val < 64 := (i 0).isLt
  have hi1 : (i 1).val < 1 := (i 1).isLt
  have hN : cfg1.N = 128 := N_1
  have ht : 64 * ((i 0).val / 32) + 63 < cfg1.N := by rw [hN]; omega
  obtain ⟨-, -, e0, e1⟩ := idx_acc ⟨64 * ((i 0).val / 32) + 63, ht⟩
  have e0' : win1_7.index ⟨64 * ((i 0).val / 32) + 63, ht⟩ 0 = (64 * ((i 0).val / 32) + 63) / 64 := e0
  refine ⟨⟨64 * ((i 0).val / 32) + 63, ht⟩, (flush1_7 _).mpr ?_, ?_⟩
  · show (64 * ((i 0).val / 32) + 63) % 64 = 63
    omega
  · rw [mem_blk7]
    intro a
    match a with
    | ⟨0, _⟩ =>
      show win1_7.index ⟨64 * ((i 0).val / 32) + 63, ht⟩ 0 * 32 ≤ (i 0).val
        ∧ (i 0).val < win1_7.index ⟨64 * ((i 0).val / 32) + 63, ht⟩ 0 * 32 + 32
      rw [e0']; omega
    | ⟨1, _⟩ =>
      show win1_7.index ⟨64 * ((i 0).val / 32) + 63, ht⟩ 1 * 1 ≤ (i 1).val
        ∧ (i 1).val < win1_7.index ⟨64 * ((i 0).val / 32) + 63, ht⟩ 1 * 1 + 1
      rw [e1]; omega

/-- The accumulator array ends as the per-core row sums of exp(y·q − c). -/
theorem final7 (d : Dev nD) : (dat1 V d).arrAt 7 cfg1.N
    = KL.accSumExp (V d main_v1) (V d main_v70) (V d main_v72) :=
  (dat1 V d).arrAt_eq_of_cover 7 (result7 V d) (flushed_eq7 V d) cover7

end Cert.KernelIdeal.KReg1

end
-- ==== Proof.KReg2Pay.lean ====
/-
  The arithmetic of one grid point of the third region, read at a row.  The body's one accumulating store holds, at
  row r, the accumulator's previous entry plus the sum over the tile's 16384 lanes of
      exp(lpᵢ) · (lpᵢ − log(exp(lp_c) + ε)),    lpᵢ = yᵢ·aᵢ − cᵢ,   lp_c = y_c·a_c − c_c,
  where y_c, yᵢ are the entries of row r of the current and the initial tile and a_c, c_c, aᵢ, cᵢ the entries of
  row r of the four parameter columns (each column is repeated along the lanes).  The reset stores the zero column.
-/
import proofs.«111140_j6493990552354_2_alg».proof.Proof.Gen.KernelIdeal.Skeleton
import proofs.«111140_j6493990552354_2_alg».proof.Proof.Spec
import proofs.«111140_j6493990552354_2_alg».proof.Proof.Consts
import proofs.«111140_j6493990552354_2_alg».proof.Proof.LibReduceRead
import proofs.«111140_j6493990552354_2_alg».proof.Proof.LibLayout
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.KReg2

open Cert.KernelIdeal Cert.KernelIdeal.Gen

/-- The per-entry term of the third region: exp(lpᵢ)·(lpᵢ − log(exp(lp_c) + ε)). -/
def term (yc yi ac cc ai ci : EReal) : EReal :=
  Ideal.exp (yi * ai - ci) * ((yi * ai - ci) - Ideal.log (Ideal.exp (yc * ac - cc) + KL.cEps))

/-- A matrix tile read through the identity cast. -/
theorem cast_tile (x : Vec Ideal S32x16384 .f32) (r : Fin 32) (l : Fin 16384) :
    shapeCast S32x16384 x shapeCasts_S32x16384_S32x16384 (ix2 r l) = x (ix2 r l) :=
  congrFun (shapeCast_self x _) _

/-- A parameter column repeated along the lanes reads, at (r, l), the column's entry of row r. -/
theorem bcast_col (u : Vec Ideal S32x1 .f32) (r : Fin 32) (l : Fin 16384) :
    broadcastTo S32x16384 (shapeCast S32x1 u shapeCasts_S32x1_S32x1) broadcasts_S32x1_S32x16384 (ix2 r l)
      = u (ix2 r (0 : Fin 1)) :=
  (Cert.LibLayout.broadcastTo_a1_ab_apply _ _ r l).trans (congrFun (shapeCast_self u _) _)

/-- The accumulating store's payload at row r. -/
theorem pay2_apply (x0 x1 : Vec Ideal S32x16384 .f32) (x2 x3 x4 x5 acc : Vec Ideal S32x1 .f32) (r : Fin 32) :
    k2_pay2 (F := Ideal) x0 x1 x2 x3 x4 x5 acc (ix2 r (0 : Fin 1))
      = acc (ix2 r (0 : Fin 1)) + ∑ l : Fin 16384,
          term (x0 (ix2 r l)) (x1 (ix2 r l)) (x2 (ix2 r (0 : Fin 1))) (x3 (ix2 r (0 : Fin 1)))
            (x4 (ix2 r (0 : Fin 1))) (x5 (ix2 r (0 : Fin 1))) := by
  unfold k2_pay2
  refine (addf_apply _ _ _).trans ?_
  refine congrArg₂ (· + ·) (congrFun (shapeCast_self acc _) _) ?_
  refine (Cert.LibLayout.shapeCast_a_a1_apply _ _ r (0 : Fin 1)).trans ?_
  refine (Cert.LibReduceRead.rowSum_apply _ _ _ _ r).trans ?_
  refine Finset.sum_congr rfl fun l _ => ?_
  show Ideal.exp (shapeCast S32x16384 x1 shapeCasts_S32x16384_S32x16384 (ix2 r l)
          * broadcastTo S32x16384 (shapeCast S32x1 x4 shapeCasts_S32x1_S32x1) broadcasts_S32x1_S32x16384 (ix2 r l)
          - broadcastTo S32x16384 (shapeCast S32x1 x5 shapeCasts_S32x1_S32x1) broadcasts_S32x1_S32x16384 (ix2 r l))
        * ((shapeCast S32x16384 x1 shapeCasts_S32x16384_S32x16384 (ix2 r l)
          * broadcastTo S32x16384 (shapeCast S32x1 x4 shapeCasts_S32x1_S32x1) broadcasts_S32x1_S32x16384 (ix2 r l)
          - broadcastTo S32x16384 (shapeCast S32x1 x5 shapeCasts_S32x1_S32x1) broadcasts_S32x1_S32x16384 (ix2 r l))
          - Ideal.log (Ideal.exp (shapeCast S32x16384 x0 shapeCasts_S32x16384_S32x16384 (ix2 r l)
          * broadcastTo S32x16384 (shapeCast S32x1 x2 shapeCasts_S32x1_S32x1) broadcasts_S32x1_S32x16384 (ix2 r l)
          - broadcastTo S32x16384 (shapeCast S32x1 x3 shapeCasts_S32x1_S32x1) broadcasts_S32x1_S32x16384 (ix2 r l))
            + Ideal.ofBits .f32 0x322BCC77#32)) = _
  rw [cast_tile, cast_tile, bcast_col, bcast_col, bcast_col, bcast_col]
  rfl

/-- The reset's payload: the zero column. -/
theorem pay1_apply (y : S32x1.Idx) : k2_pay1 (F := Ideal) y = 0 := by
  unfold k2_pay1
  exact KL.zero_eq

end Cert.KernelIdeal.KReg2

end
-- ==== Proof.KReg2.lean ====
/-
  What the third region leaves in its [64, 1] accumulator array.

  The region walks 128 grid points t = 64·c + j (core c, tile j).  At each point it reads tile t of the current and of
  the initial matrix (columns 16384·t … 16384·t + 16383) and the four parameter columns, and adds to row r of its
  accumulator block the sum over the tile's lanes of the per-entry term; at the first tile of a core (j = 0) the block
  is first reset to zero, and after the last (j = 63) it is written to rows 32·c … 32·c + 31 of the array.  So after
  point t the block's row r holds the sum of the tile sums of tiles 64·c … t, by induction on the point, and row
  q = 32·c + r of the array ends as the sum over that core's 64 tiles and their 16384 lanes.
-/
import proofs.«111140_j6493990552354_2_alg».proof.Proof.Gen.KernelIdeal.Frame
import proofs.«111140_j6493990552354_2_alg».proof.Proof.KReg2Pay
import proofs.«111140_j6493990552354_2_alg».proof.Proof.Acc
import Idealize.ShloMosaic.Lib.Pipeline.Value
import Idealize.ShloMosaic.Lib.ValueIdx
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KReg2

open Cert.KernelIdeal Cert.KernelIdeal.Gen

theorem hz : (![0, 0] : Fin 2 → Nat) = fun _ => 0 := funext fun a => by fin_cases a <;> rfl

/-! ## What one grid point leaves in the accumulator block, for any float instance -/

section AnyInstance
variable {F : FTy → Type} [FloatOps F]

/-- A point that is not a core's first: the block's one store holds the payload of the loaded blocks and of the
    block's previous contents. -/
theorem out_B (c : Dev nD) (i : grid2.Coords)
    (a2 : Memref sig .tc .vmem S32x16384 .f32) (h2 : a2.IsWhole) (a3 : Memref sig .tc .vmem S32x16384 .f32) (h3 : a3.IsWhole)
    (a4 : Memref sig .tc .vmem S32x1 .f32) (h4 : a4.IsWhole) (a5 : Memref sig .tc .vmem S32x1 .f32) (h5 : a5.IsWhole)
    (a6 : Memref sig .tc .vmem S32x1 .f32) (h6 : a6.IsWhole) (a7 : Memref sig .tc .vmem S32x1 .f32) (h7 : a7.IsWhole)
    (a8 : Memref sig .tc .vmem S32x1 .f32) (h8 : a8.IsWhole) (hc : ¬cond2_0 i)
    (x0 x1 : Vec F S32x16384 .f32) (x2 x3 x4 x5 xo : Vec F S32x1 .f32) :
    out2_B_6 c i a2 h2 a3 h3 a4 h4 a5 h5 a6 h6 a7 h7 a8 h8 hc x0 x1 x2 x3 x4 x5 xo = k2_pay2 x0 x1 x2 x3 x4 x5 xo := by
  unfold out2_B_6
  rw [View.read_writes_eq_canon _ _ _ (cover2_B_6 c i a2 h2 a3 h3 a4 h4 a5 h5 a6 h6 a7 h7 a8 h8 hc x0 x1 x2 x3 x4 x5 xo)]
  unfold kernelRun2_B
  dsimp only
  rw [View.canon_unit_zero hz]
  simp only [View.readAt_eq_ld, h2.read_unread, h3.read_unread, h4.read_unread, h5.read_unread, h6.read_unread,
    h7.read_unread, h8.read_unread, View.ld_unit_zero (S := S32x16384) hz, View.ld_unit_zero (S := S32x1) hz]

/-- A core's first point: the block is reset to the zero column, read back, and the payload stored over it. -/
theorem out_A (c : Dev nD) (i : grid2.Coords)
    (a2 : Memref sig .tc .vmem S32x16384 .f32) (h2 : a2.IsWhole) (a3 : Memref sig .tc .vmem S32x16384 .f32) (h3 : a3.IsWhole)
    (a4 : Memref sig .tc .vmem S32x1 .f32) (h4 : a4.IsWhole) (a5 : Memref sig .tc .vmem S32x1 .f32) (h5 : a5.IsWhole)
    (a6 : Memref sig .tc .vmem S32x1 .f32) (h6 : a6.IsWhole) (a7 : Memref sig .tc .vmem S32x1 .f32) (h7 : a7.IsWhole)
    (a8 : Memref sig .tc .vmem S32x1 .f32) (h8 : a8.IsWhole) (hc : cond2_0 i)
    (x0 x1 : Vec F S32x16384 .f32) (x2 x3 x4 x5 : Vec F S32x1 .f32) :
    out2_A_6 c i a2 h2 a3 h3 a4 h4 a5 h5 a6 h6 a7 h7 a8 h8 hc x0 x1 x2 x3 x4 x5 = k2_pay2 x0 x1 x2 x3 x4 x5 k2_pay1 := by
  unfold out2_A_6
  rw [View.read_writes_eq_canon _ _ _ (cover2_A_6 c i a2 h2 a3 h3 a4 h4 a5 h5 a6 h6 a7 h7 a8 h8 hc x0 x1 x2 x3 x4 x5)]
  unfold kernelRun2_A
  dsimp only
  sl_unfold_words
  rw [View.canon_cons_unit_zero (S := S32x1) hz, View.readCov_unit_zero (S := S32x1) _ hz]
  simp only [View.readAt_eq_ld, h2.read_unread, h3.read_unread, h4.read_unread, h5.read_unread, h6.read_unread,
    h7.read_unread, View.ld_unit_zero (S := S32x16384) hz, View.ld_unit_zero (S := S32x1) hz]

end AnyInstance

/-! ## The blocks a point reads, as entries of the arrays the region is entered with -/

variable (V : (c : Dev nD) → (b : Ref sig .tc) → Buf (Elt Ideal) ((c : Thread nD τ).loc b))

/-- Column of lane l of tile k of the [32, 2097152] matrices (k is taken modulo the 128 tiles). -/
def colN (k : ℕ) (l : Fin 16384) : Fin 2097152 :=
  ⟨(k % 128) * 16384 + l.val, by have := Nat.mod_lt k (show 0 < 128 by norm_num); have := l.isLt; omega⟩

theorem colN_eq (c : Fin 2) (j : Fin 64) (l : Fin 16384) : colN (c.val * 64 + j.val) l = KL.col c j l := by
  apply Fin.ext
  show (c.val * 64 + j.val) % 128 * 16384 + l.val = (c.val * 64 + j.val) * 16384 + l.val
  have := c.isLt; have := j.isLt
  rw [Nat.mod_eq_of_lt (by omega)]

/-- The index maps, decided over the grid: the matrices' block at point t is (0, t), the parameter columns' block
    is (0, 0), the accumulator's block is (t / 64, 0). -/
theorem idx_mat : ∀ t : Fin cfg2.N, win2_0.index t 0 = 0 ∧ win2_0.index t 1 = t.val
    ∧ win2_1.index t 0 = 0 ∧ win2_1.index t 1 = t.val :=
  (by decide +kernel : ∀ t : Fin grid2.N, _)
theorem idx_col : ∀ t : Fin cfg2.N, win2_2.index t 0 = 0 ∧ win2_2.index t 1 = 0 ∧ win2_3.index t 0 = 0 ∧ win2_3.index t 1 = 0
    ∧ win2_4.index t 0 = 0 ∧ win2_4.index t 1 = 0 ∧ win2_5.index t 0 = 0 ∧ win2_5.index t 1 = 0 :=
  (by decide +kernel : ∀ t : Fin grid2.N, _)
theorem idx_acc : ∀ t : Fin cfg2.N, win2_6.index t 0 = t.val / 64 ∧ win2_6.index t 1 = 0 :=
  (by decide +kernel : ∀ t : Fin grid2.N, _)

theorem blk0_apply (d : Dev nD) (t : Fin cfg2.N) (r : Fin 32) (l : Fin 16384) :
    (iblk2 V d 0 t : Vec Ideal S32x16384 .f32) (ix2 r l) = V d main_v0 (ix2 r (colN t.val l)) := by
  obtain ⟨e0, e1, -, -⟩ := idx_mat t
  have hN : t.val < 128 := lt_of_lt_of_eq t.isLt (show cfg2.N = 128 from N_2)
  unfold iblk2
  rw [View.read_apply]
  show V d main_v0 _ = V d main_v0 _
  refine congrArg (V d main_v0) (funext fun a => Fin.ext ?_)
  match a with
  | ⟨0, _⟩ => show win2_0.index t 0 * 32 + 1 * r.val = r.val; rw [e0]; omega
  | ⟨1, _⟩ => show win2_0.index t 1 * 16384 + 1 * l.val = t.val % 128 * 16384 + l.val; rw [e1, Nat.mod_eq_of_lt hN]; omega

theorem blk1_apply (d : Dev nD) (t : Fin cfg2.N) (r : Fin 32) (l : Fin 16384) :
    (iblk2 V d 1 t : Vec Ideal S32x16384 .f32) (ix2 r l) = V d main_v1 (ix2 r (colN t.val l)) := by
  obtain ⟨-, -, e0, e1⟩ := idx_mat t
  have hN : t.val < 128 := lt_of_lt_of_eq t.isLt (show cfg2.N = 128 from N_2)
  unfold iblk2
  rw [View.read_apply]
  show V d main_v1 _ = V d main_v1 _
  refine congrArg (V d main_v1) (funext fun a => Fin.ext ?_)
  match a with
  | ⟨0, _⟩ => show win2_1.index t 0 * 32 + 1 * r.val = r.val; rw [e0]; omega
  | ⟨1, _⟩ => show win2_1.index t 1 * 16384 + 1 * l.val = t.val % 128 * 16384 + l.val; rw [e1, Nat.mod_eq_of_lt hN]; omega

theorem blk2_apply (d : Dev nD) (t : Fin cfg2.N) (r : Fin 32) :
    (iblk2 V d 2 t : Vec Ideal S32x1 .f32) (ix2 r (0 : Fin 1)) = V d main_v66 (ix2 r (0 : Fin 1)) := by
  obtain ⟨e0, e1, -⟩ := idx_col t
  unfold iblk2
  rw [View.read_apply]
  show V d main_v66 _ = V d main_v66 _
  refine congrArg (V d main_v66) (funext fun a => Fin.ext ?_)
  match a with
  | ⟨0, _⟩ => show win2_2.index t 0 * 32 + 1 * r.val = r.val; rw [e0]; omega
  | ⟨1, _⟩ => show win2_2.index t 1 * 1 + 1 * 0 = 0; rw [e1]

theorem blk3_apply (d : Dev nD) (t : Fin cfg2.N) (r : Fin 32) :
    (iblk2 V d 3 t : Vec Ideal S32x1 .f32) (ix2 r (0 : Fin 1)) = V d main_v87 (ix2 r (0 : Fin 1)) := by
  obtain ⟨-, -, e0, e1, -⟩ := idx_col t
  unfold iblk2
  rw [View.read_apply]
  show V d main_v87 _ = V d main_v87 _
  refine congrArg (V d main_v87) (funext fun a => Fin.ext ?_)
  match a with
  | ⟨0, _⟩ => show win2_3.index t 0 * 32 + 1 * r.val = r.val; rw [e0]; omega
  | ⟨1, _⟩ => show win2_3.index t 1 * 1 + 1 * 0 = 0; rw [e1]

theorem blk4_apply (d : Dev nD) (t : Fin cfg2.N) (r : Fin 32) :
    (iblk2 V d 4 t : Vec Ideal S32x1 .f32) (ix2 r (0 : Fin 1)) = V d main_v70 (ix2 r (0 : Fin 1)) := by
  obtain ⟨-, -, -, -, e0, e1, -⟩ := idx_col t
  unfold iblk2
  rw [View.read_apply]
  show V d main_v70 _ = V d main_v70 _
  refine congrArg (V d main_v70) (funext fun a => Fin.ext ?_)
  match a with
  | ⟨0, _⟩ => show win2_4.index t 0 * 32 + 1 * r.val = r.val; rw [e0]; omega
  | ⟨1, _⟩ => show win2_4.index t 1 * 1 + 1 * 0 = 0; rw [e1]

theorem blk5_apply (d : Dev nD) (t : Fin cfg2.N) (r : Fin 32) :
    (iblk2 V d 5 t : Vec Ideal S32x1 .f32) (ix2 r (0 : Fin 1)) = V d main_v89 (ix2 r (0 : Fin 1)) := by
  obtain ⟨-, -, -, -, -, -, e0, e1⟩ := idx_col t
  unfold iblk2
  rw [View.read_apply]
  show V d main_v89 _ = V d main_v89 _
  refine congrArg (V d main_v89) (funext fun a => Fin.ext ?_)
  match a with
  | ⟨0, _⟩ => show win2_5.index t 0 * 32 + 1 * r.val = r.val; rw [e0]; omega
  | ⟨1, _⟩ => show win2_5.index t 1 * 1 + 1 * 0 = 0; rw [e1]

/-! ## The running sum -/

/-- The sum of the per-entry terms over the lanes of tile k, in matrix row r. -/
def tileSum (d : Dev nD) (r : Fin 32) (k : ℕ) : EReal :=
  ∑ l : Fin 16384, term (V d main_v0 (ix2 r (colN k l))) (V d main_v1 (ix2 r (colN k l)))
    (V d main_v66 (ix2 r (0 : Fin 1))) (V d main_v87 (ix2 r (0 : Fin 1)))
    (V d main_v70 (ix2 r (0 : Fin 1))) (V d main_v89 (ix2 r (0 : Fin 1)))

/-- The payload at point t over block contents acc: acc plus tile t's sum. -/
theorem pay_at (d : Dev nD) (t : Fin cfg2.N) (acc : Vec Ideal S32x1 .f32) (r : Fin 32) :
    k2_pay2 (F := Ideal) (iblk2 V d 0 t) (iblk2 V d 1 t) (iblk2 V d 2 t) (iblk2 V d 3 t) (iblk2 V d 4 t) (iblk2 V d 5 t) acc (ix2 r (0 : Fin 1))
      = acc (ix2 r (0 : Fin 1)) + tileSum V d r t.val := by
  refine (pay2_apply (iblk2 V d 0 t) (iblk2 V d 1 t) (iblk2 V d 2 t) (iblk2 V d 3 t) (iblk2 V d 4 t) (iblk2 V d 5 t) acc r).trans ?_
  unfold tileSum
  refine congrArg (acc (ix2 r (0 : Fin 1)) + ·) (Finset.sum_congr rfl fun l _ => ?_)
  rw [blk0_apply V d t r l, blk1_apply V d t r l, blk2_apply V d t r, blk3_apply V d t r, blk4_apply V d t r,
    blk5_apply V d t r]

/-- At a core's first point the block holds that tile's sum. -/
theorem step_A (d : Dev nD) (t : Fin cfg2.N) (h0 : t.val % 64 = 0) (r : Fin 32) :
    outsAt2 V d t.val t.isLt (ix2 r (0 : Fin 1)) = tileSum V d r t.val := by
  refine (congrFun (outsAt2_A V d t h0) (ix2 r (0 : Fin 1))).trans ?_
  refine (congrFun (out_A (F := Ideal) d (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0)
    (iblk2 V d 0 t) (iblk2 V d 1 t) (iblk2 V d 2 t) (iblk2 V d 3 t) (iblk2 V d 4 t) (iblk2 V d 5 t)) (ix2 r (0 : Fin 1))).trans ?_
  refine (pay_at V d t (k2_pay1 (F := Ideal)) r).trans ?_
  rw [pay1_apply, zero_add]

/-- At any other point it holds what the point before left plus the tile's sum. -/
theorem step_B (d : Dev nD) (n : ℕ) (hn : n + 1 < cfg2.N) (h0 : ¬(n + 1) % 64 = 0) (r : Fin 32) :
    outsAt2 V d (n + 1) hn (ix2 r (0 : Fin 1))
      = outsAt2 V d n (Nat.lt_of_succ_lt hn) (ix2 r (0 : Fin 1)) + tileSum V d r (n + 1) := by
  refine (congrFun (outsAt2_B V d ⟨n + 1, hn⟩ h0) (ix2 r (0 : Fin 1))).trans ?_
  refine (congrFun (out_B (F := Ideal) d (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h))
    (iblk2 V d 0 ⟨n + 1, hn⟩) (iblk2 V d 1 ⟨n + 1, hn⟩) (iblk2 V d 2 ⟨n + 1, hn⟩) (iblk2 V d 3 ⟨n + 1, hn⟩) (iblk2 V d 4 ⟨n + 1, hn⟩) (iblk2 V d 5 ⟨n + 1, hn⟩) (outsAt2 V d n (Nat.lt_of_succ_lt hn))) (ix2 r (0 : Fin 1))).trans ?_
  exact pay_at V d ⟨n + 1, hn⟩ (outsAt2 V d n (Nat.lt_of_succ_lt hn)) r

/-- After point n the block's row r holds the sum of the tile sums of its core's tiles up to n. -/
theorem outsAt_eq (d : Dev nD) (r : Fin 32) : ∀ (n : ℕ) (hn : n < cfg2.N),
    outsAt2 V d n hn (ix2 r (0 : Fin 1)) = ∑ s ∈ Finset.range (n % 64 + 1), tileSum V d r (n / 64 * 64 + s)
  | 0, hn => by
    refine (step_A V d ⟨0, hn⟩ rfl r).trans ?_
    simp
  | n + 1, hn => by
    by_cases h0 : (n + 1) % 64 = 0
    · refine (step_A V d ⟨n + 1, hn⟩ h0 r).trans ?_
      rw [h0, Finset.sum_range_one]
      refine congrArg (tileSum V d r) ?_
      show n + 1 = (n + 1) / 64 * 64 + 0
      omega
    · rw [step_B V d n hn h0 r, outsAt_eq d r n (Nat.lt_of_succ_lt hn)]
      have e1 : (n + 1) % 64 = n % 64 + 1 := by omega
      have e2 : (n + 1) / 64 = n / 64 := by omega
      rw [e1, e2, Finset.sum_range_succ _ (n % 64 + 1)]
      refine congrArg (_ + tileSum V d r ·) ?_
      omega

/-! ## The array the region leaves -/

/-- The accumulator array after the region. -/
abbrev result (d : Dev nD) : KL.Acc :=
  KL.accKl (V d main_v0) (V d main_v1) (V d main_v66) (V d main_v87) (V d main_v70) (V d main_v89)

/-- Row q of the result, spelt out. -/
theorem result_apply (d : Dev nD) (q : Fin 64) :
    result V d (ix2 q (0 : Fin 1)) = ∑ j : Fin 64, ∑ l : Fin 16384,
      term (V d main_v0 (ix2 (KL.accR q) (KL.col (KL.accC q) j l))) (V d main_v1 (ix2 (KL.accR q) (KL.col (KL.accC q) j l)))
        (V d main_v66 (ix2 (KL.accR q) (0 : Fin 1))) (V d main_v87 (ix2 (KL.accR q) (0 : Fin 1)))
        (V d main_v70 (ix2 (KL.accR q) (0 : Fin 1))) (V d main_v89 (ix2 (KL.accR q) (0 : Fin 1))) := rfl

/-- After a core's last point the block's row r holds row 32·c + r of the result. -/
theorem last_eq (d : Dev nD) (t : Fin cfg2.N) (h63 : t.val % 64 = 63) (c : Fin 2) (hc : c.val = t.val / 64) (r : Fin 32) :
    outsAt2 V d t.val t.isLt (ix2 r (0 : Fin 1)) = result V d (ix2 (KL.arow c r) (0 : Fin 1)) := by
  rw [outsAt_eq V d r t.val t.isLt, h63, result_apply V d (KL.arow c r), KL.accR_arow, KL.accC_arow]
  show ∑ s ∈ Finset.range 64, _ = _
  rw [Finset.sum_range]
  refine Finset.sum_congr rfl fun j _ => ?_
  unfold tileSum
  refine Finset.sum_congr rfl fun l _ => ?_
  rw [← colN_eq c j l, hc]

/-- What a core's last point writes back is its block of the result. -/
theorem flushed_eq (d : Dev nD) (t : Fin cfg2.N) (hf : (cfg2.win 6).flush t = true) :
    (dat2 V d).flushed 6 t = ((cfg2.win 6).blk t).view.read (Elt Ideal) (result V d) := by
  have hN : t.val < 128 := lt_of_lt_of_eq t.isLt (show cfg2.N = 128 from N_2)
  have h63 : t.val % 64 = 63 := (flush2_6 t).mp hf
  obtain ⟨e0, e1⟩ := idx_acc t
  show (cfg2.win 6).cut (grid2.coords t) ((dat2 V d).after 6 t) = _
  rw [after2_6]
  refine funext fun (y : S32x1.Idx) => ?_
  rw [View.read_apply]
  show outsAt2 V d t.val t.isLt y = result V d (((cfg2.win 6).blk t).view.emb y)
  obtain ⟨r, u, rfl⟩ : ∃ (r : Fin 32) (u : Fin 1), y = ix2 r u := ⟨y 0, y 1, eq_ix2 y⟩
  obtain rfl : u = 0 := Subsingleton.elim _ _
  have hemb : ((cfg2.win 6).blk t).view.emb (ix2 r (0 : Fin 1))
      = ix2 (KL.arow ⟨t.val / 64, by omega⟩ r) (0 : Fin 1) := by
    refine funext fun a => Fin.ext ?_
    match a with
    | ⟨0, _⟩ => show win2_6.index t 0 * 32 + 1 * r.val = 32 * (t.val / 64) + r.val; rw [e0]; omega
    | ⟨1, _⟩ => show win2_6.index t 1 * 1 + 1 * 0 = 0; rw [e1]
  rw [hemb]
  exact last_eq V d t h63 ⟨t.val / 64, by omega⟩ rfl r

/-- An index of the array lies in point t's block iff each coordinate lies in the block's range. -/
theorem mem_blk (t : Fin cfg2.N) (i : S64x1.Idx) :
    i ∈ ((cfg2.win 6).blk t).view.set ↔ ∀ a : Fin 2, win2_6.index t a * S32x1.size a ≤ (i a).val
      ∧ (i a).val < win2_6.index t a * S32x1.size a + S32x1.size a := by
  show i ∈ ((View.whole main_v90).slice (win2_6.rect t)).set ↔ _
  rw [View.set_slice_whole, Rect.mem_set_unit]
  exact Iff.rfl

/-- Every row of the array is written back by its core's last point. -/
theorem cover (i : S64x1.Idx) :
    ∃ t : Fin cfg2.N, (cfg2.win 6).flush t = true ∧ i ∈ ((cfg2.win 6).blk t).view.set := by
  have hi0 : (i 0).val < 64 := (i 0).isLt
  have hi1 : (i 1).val < 1 := (i 1).isLt
  have hN : cfg2.N = 128 := N_2
  have ht : 64 * ((i 0).val / 32) + 63 < cfg2.N := by rw [hN]; omega
  obtain ⟨e0, e1⟩ := idx_acc ⟨64 * ((i 0).val / 32) + 63, ht⟩
  have e0' : win2_6.index ⟨64 * ((i 0).val / 32) + 63, ht⟩ 0 = (64 * ((i 0).val / 32) + 63) / 64 := e0
  refine ⟨⟨64 * ((i 0).val / 32) + 63, ht⟩, (flush2_6 _).mpr ?_, ?_⟩
  · show (64 * ((i 0).val / 32) + 63) % 64 = 63
    omega
  · rw [mem_blk]
    intro a
    match a with
    | ⟨0, _⟩ =>
      show win2_6.index ⟨64 * ((i 0).val / 32) + 63, ht⟩ 0 * 32 ≤ (i 0).val
        ∧ (i 0).val < win2_6.index ⟨64 * ((i 0).val / 32) + 63, ht⟩ 0 * 32 + 32
      rw [e0']; omega
    | ⟨1, _⟩ =>
      show win2_6.index ⟨64 * ((i 0).val / 32) + 63, ht⟩ 1 * 1 ≤ (i 1).val
        ∧ (i 1).val < win2_6.index ⟨64 * ((i 0).val / 32) + 63, ht⟩ 1 * 1 + 1
      rw [e1]; omega

/-- The region's accumulator array ends as the per-core row sums of the per-entry term. -/
theorem final6 (d : Dev nD) : (dat2 V d).arrAt 6 cfg2.N
    = KL.accKl (V d main_v0) (V d main_v1) (V d main_v66) (V d main_v87) (V d main_v70) (V d main_v89) :=
  (dat2 V d).arrAt_eq_of_cover 6 (result V d) (flushed_eq V d) cover

end Cert.KernelIdeal.KReg2

end
-- ==== Proof.KRegions.lean ====
/-
  The nine region facts together: what each of the three regions leaves in its accumulator arrays, for any contents
  the region is entered with.
-/
import proofs.«111140_j6493990552354_2_alg».proof.Proof.KFacts
import proofs.«111140_j6493990552354_2_alg».proof.Proof.KReg0
import proofs.«111140_j6493990552354_2_alg».proof.Proof.KReg1
import proofs.«111140_j6493990552354_2_alg».proof.Proof.KReg2

noncomputable section

namespace Cert.KernelIdeal.KValue

theorem regionFacts : RegionFacts :=
  ⟨Cert.KernelIdeal.KReg0.final2, Cert.KernelIdeal.KReg0.final3, Cert.KernelIdeal.KReg0.final4,
   Cert.KernelIdeal.KReg0.final5, Cert.KernelIdeal.KReg0.final6, Cert.KernelIdeal.KReg0.final7,
   Cert.KernelIdeal.KReg1.final6, Cert.KernelIdeal.KReg1.final7, Cert.KernelIdeal.KReg2.final6⟩

end Cert.KernelIdeal.KValue

end
-- ==== Proof.KHostDefs.lean ====
/-
  The host arithmetic of the kernel program between its three regions, named: the two-step reduction of a [64, 1]
  per-core accumulator to one number per row (over the two cores, then over the eight sub-rows of a row), the per-row
  scalars computed from a row's sum, sum of squares and maximum (mean, clamped variance, σ + ε, the shifted maximum,
  the reciprocal scale q, the offset rc = mean·q + zmax, and c = rc + log ∑exp), the spreading of a per-row number
  over the eight matrix rows of its row, and the closing sum, division by four and negation.
  Read at a row, each scalar stage is the corresponding stage of the kernel's arithmetic on that row's sum, sum of
  squares and supremum.
-/
import proofs.«111140_j6493990552354_2_alg».proof.KernelIdeal
import proofs.«111140_j6493990552354_2_alg».proof.Proof.Spec
import proofs.«111140_j6493990552354_2_alg».proof.Proof.Consts
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KValue

open Cert.KernelIdeal
open Idealize.ShloMosaic Idealize.ShloMosaic.ValueIdx

/-! ## The two-step reductions of an accumulator, and the spreading of a per-row number -/

section Reductions

variable (h1 : S64x1.ShapeCasts S2x32x1) (h2 : S2x32x1.ReducesTo [0] S32x1) (h3 : S32x1.ShapeCasts S4x8x1)
  (h4 : S4x8x1.ReducesTo [1] S4x1) (hu : 0 < S_.numel)

/-- Sum over the cores, then over the eight sub-rows: one number per row. -/
def rowSum (A : FVec Ideal S64x1 .f32) : FVec Ideal S4x1 .f32 :=
  Host.reduceAdd
    (shapeCast S4x8x1 (Host.reduceAdd (shapeCast S2x32x1 A h1) (constant (F := Ideal) S_ .f32 0x00000000#32) h2 hu) h3)
    (constant (F := Ideal) S_ .f32 0x00000000#32) h4 hu

/-- Maximum over the cores, then over the eight sub-rows, each started from −∞. -/
def rowMax (A : FVec Ideal S64x1 .f32) : FVec Ideal S4x1 .f32 :=
  Host.reduce FloatOps.maximumf
    (shapeCast S4x8x1 (Host.reduce FloatOps.maximumf (shapeCast S2x32x1 A h1) (constant (F := Ideal) S_ .f32 0xFF800000#32) h2 hu) h3)
    (constant (F := Ideal) S_ .f32 0xFF800000#32) h4 hu

end Reductions

/-- A per-row number spread over the eight matrix rows of its row. -/
def colOf (hb : S4x1.BroadcastsInDim S4x8x1 (![0, 2] : Fin 2 → Fin S4x8x1.rank)) (hc : S4x8x1.ShapeCasts S32x1)
    (u : FVec Ideal S4x1 .f32) : FVec Ideal S32x1 .f32 :=
  shapeCast S32x1 (broadcastInDim S4x8x1 ![0, 2] hb u) hc

/-- The closing arithmetic: the accumulator summed over both axes, divided by four, negated. -/
def finalOf (h : S64x1.ReducesTo [0, 1] S_) (hu : 0 < S_.numel) (A : FVec Ideal S64x1 .f32) : FVec Ideal S_ .f32 :=
  Host.negf (Host.divf (Host.reduceAdd A (constant (F := Ideal) S_ .f32 0x00000000#32) h hu)
    (constant (F := Ideal) S_ .f32 0x40800000#32))

/-! ## The per-row scalars -/

section Scalars

variable (hb : S_.BroadcastsInDim S4x1 (![] : Fin 0 → Fin S4x1.rank))

/-- A float literal as a [4, 1] column. -/
def cstC (b : BitVec 32) : FVec Ideal S4x1 .f32 := broadcastInDim S4x1 ![] hb (constant (F := Ideal) S_ .f32 b)

/-- mean = sum / N -/
def meanC (S : FVec Ideal S4x1 .f32) : FVec Ideal S4x1 .f32 := Host.divf S (cstC hb 0x4B800000#32)

/-- var = max ((sumsq − N·mean·mean) / (N − 1), 0) -/
def varC (S Q : FVec Ideal S4x1 .f32) : FVec Ideal S4x1 .f32 :=
  maximumf (Host.divf (subf Q (mulf (mulf (cstC hb 0x4B800000#32) (meanC hb S)) (meanC hb S))) (cstC hb 0x4B7FFFFF#32))
    (cstC hb 0x00000000#32)

/-- σ + ε -/
def stdC (S Q : FVec Ideal S4x1 .f32) : FVec Ideal S4x1 .f32 := addf (Host.sqrt (varC hb S Q)) (cstC hb 0x322BCC77#32)

/-- zmax = (max − mean) / (σ + ε) -/
def zmaxC (S Q M : FVec Ideal S4x1 .f32) : FVec Ideal S4x1 .f32 := Host.divf (subf M (meanC hb S)) (stdC hb S Q)

/-- q = 1 / (σ + ε) -/
def qC (S Q : FVec Ideal S4x1 .f32) : FVec Ideal S4x1 .f32 := Host.divf (cstC hb 0x3F800000#32) (stdC hb S Q)

/-- rc = mean·q + zmax -/
def rcC (S Q M : FVec Ideal S4x1 .f32) : FVec Ideal S4x1 .f32 := addf (mulf (meanC hb S) (qC hb S Q)) (zmaxC hb S Q M)

/-- c = rc + log ∑exp -/
def cC (S Q M E : FVec Ideal S4x1 .f32) : FVec Ideal S4x1 .f32 := addf (rcC hb S Q M) (Host.log E)

theorem cstC_apply (b : BitVec 32) (i : S4x1.Idx) : cstC hb b i = Ideal.ofBits .f32 b := by
  unfold cstC; rw [broadcastInDim_scalar_apply]; rfl

variable {S Q M E : FVec Ideal S4x1 .f32} {i : S4x1.Idx} {x : KL.Row}

theorem meanC_apply (hS : S i = ∑ n, x n) : meanC hb S i = KL.kMean x := by
  show Ideal.div (S i) (cstC hb 0x4B800000#32 i) = _
  rw [cstC_apply, hS]; rfl

theorem varC_apply (hS : S i = ∑ n, x n) (hQ : Q i = ∑ n, x n * x n) : varC hb S Q i = KL.kVar x := by
  show max (Ideal.div (Q i - cstC hb 0x4B800000#32 i * meanC hb S i * meanC hb S i) (cstC hb 0x4B7FFFFF#32 i))
    (cstC hb 0x00000000#32 i) = _
  rw [cstC_apply, cstC_apply, cstC_apply, meanC_apply hb hS, hQ, KL.zero_eq]; rfl

theorem stdC_apply (hS : S i = ∑ n, x n) (hQ : Q i = ∑ n, x n * x n) : stdC hb S Q i = KL.kStd x := by
  show Ideal.sqrt (varC hb S Q i) + cstC hb 0x322BCC77#32 i = _
  rw [cstC_apply, varC_apply hb hS hQ]; rfl

theorem zmaxC_apply (hS : S i = ∑ n, x n) (hQ : Q i = ∑ n, x n * x n) (hM : M i = ⨆ n, x n) :
    zmaxC hb S Q M i = KL.kZmax x := by
  show Ideal.div (M i - meanC hb S i) (stdC hb S Q i) = _
  rw [meanC_apply hb hS, stdC_apply hb hS hQ, hM]; rfl

theorem qC_apply (hS : S i = ∑ n, x n) (hQ : Q i = ∑ n, x n * x n) : qC hb S Q i = KL.kQ x := by
  show Ideal.div (cstC hb 0x3F800000#32 i) (stdC hb S Q i) = _
  rw [cstC_apply, stdC_apply hb hS hQ]; rfl

theorem rcC_apply (hS : S i = ∑ n, x n) (hQ : Q i = ∑ n, x n * x n) (hM : M i = ⨆ n, x n) :
    rcC hb S Q M i = KL.kRc x := by
  show meanC hb S i * qC hb S Q i + zmaxC hb S Q M i = _
  rw [meanC_apply hb hS, qC_apply hb hS hQ, zmaxC_apply hb hS hQ hM]; rfl

theorem cC_apply (hS : S i = ∑ n, x n) (hQ : Q i = ∑ n, x n * x n) (hM : M i = ⨆ n, x n) (hE : E i = KL.kSumExp x) :
    cC hb S Q M E i = KL.kC x := by
  show rcC hb S Q M i + Ideal.log (E i) = _
  rw [rcC_apply hb hS hQ hM, hE]; rfl

end Scalars

end Cert.KernelIdeal.KValue

end
-- ==== Proof.KHostOps.lean ====
/-
  What each stretch of host operations of the kernel program leaves in the buffers the regions and the later stretches
  read, from ANY contents at the stretch's start: the regrouped arguments; the four parameter columns of the
  sum-of-exponentials region and the two offsets rc; the two columns c of the Kullback–Leibler region; the result.
  A buffer a stretch does not write keeps its contents.
-/
import proofs.«111140_j6493990552354_2_alg».proof.Proof.KFacts
import proofs.«111140_j6493990552354_2_alg».proof.Proof.KHostDefs
import Idealize.ShloMosaic.Lib.StableHlo.Run
import Idealize.ShloMosaic.Lib.Tactic

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.StableHlo

variable (V : Valuation τ sig (Elt Ideal))

/-! ## The first stretch: the two arguments regrouped -/

set_option maxHeartbeats 4000000 in
theorem ops0_v0 : StableHlo.after (hostOps0 (F := Ideal)) V (Proc.devRef .tc main_v0)
    = shapeCast S32x2097152 (V (Proc.devRef .tc main_arg0)) shapeCasts_S4x16777216_S32x2097152 := by
  after_results; rfl

set_option maxHeartbeats 4000000 in
theorem ops0_v1 : StableHlo.after (hostOps0 (F := Ideal)) V (Proc.devRef .tc main_v1)
    = shapeCast S32x2097152 (V (Proc.devRef .tc main_arg1)) shapeCasts_S4x16777216_S32x2097152 := by
  after_results; rfl

/-! ## The last stretch: the result -/

set_option maxHeartbeats 4000000 in
theorem ops3_v93 : StableHlo.after (hostOps3 (F := Ideal)) V (Proc.devRef .tc main_v93)
    = finalOf reducesTo_S64x1_S_d0_1 h_S_ (V (Proc.devRef .tc main_v90)) := by
  after_results; rfl

/-! ## The third stretch: the columns c -/

set_option maxHeartbeats 4000000 in
theorem ops2_v87 : StableHlo.after (hostOps2 (F := Ideal)) V (Proc.devRef .tc main_v87)
    = colOf bcast_S4x1_S4x8x1_0_2 shapeCasts_S4x8x1_S32x1
        (addf (V (Proc.devRef .tc main_v45))
          (Host.log (rowSum shapeCasts_S64x1_S2x32x1 reducesTo_S2x32x1_S32x1_d0 shapeCasts_S32x1_S4x8x1 reducesTo_S4x8x1_S4x1_d1 h_S_
            (V (Proc.devRef .tc main_v73_0))))) := by
  after_results; rfl

set_option maxHeartbeats 4000000 in
theorem ops2_v89 : StableHlo.after (hostOps2 (F := Ideal)) V (Proc.devRef .tc main_v89)
    = colOf bcast_S4x1_S4x8x1_0_2 shapeCasts_S4x8x1_S32x1
        (addf (V (Proc.devRef .tc main_v64))
          (Host.log (rowSum shapeCasts_S64x1_S2x32x1 reducesTo_S2x32x1_S32x1_d0 shapeCasts_S32x1_S4x8x1 reducesTo_S4x8x1_S4x1_d1 h_S_
            (V (Proc.devRef .tc main_v73_1))))) := by
  after_results; rfl

set_option maxHeartbeats 4000000 in
theorem ops2_v0 : StableHlo.after (hostOps2 (F := Ideal)) V (Proc.devRef .tc main_v0) = V (Proc.devRef .tc main_v0) := by
  after_results
set_option maxHeartbeats 4000000 in
theorem ops2_v1 : StableHlo.after (hostOps2 (F := Ideal)) V (Proc.devRef .tc main_v1) = V (Proc.devRef .tc main_v1) := by
  after_results
set_option maxHeartbeats 4000000 in
theorem ops2_v66 : StableHlo.after (hostOps2 (F := Ideal)) V (Proc.devRef .tc main_v66) = V (Proc.devRef .tc main_v66) := by
  after_results
set_option maxHeartbeats 4000000 in
theorem ops2_v70 : StableHlo.after (hostOps2 (F := Ideal)) V (Proc.devRef .tc main_v70) = V (Proc.devRef .tc main_v70) := by
  after_results

end Cert.KernelIdeal.KValue

end
-- ==== Proof.KHostOps1.lean ====
/-
  What the long second stretch of host operations leaves, from ANY contents at its start: the four parameter columns
  of the sum-of-exponentials region (q and rc of the current rows, q and rc of the initial rows, each per-row number
  spread over its row's eight matrix rows) and the two offsets rc as [4, 1] columns, all computed from the six
  accumulators of the statistics region; the two regrouped arguments are not written.
-/
import proofs.«111140_j6493990552354_2_alg».proof.Proof.KFacts
import proofs.«111140_j6493990552354_2_alg».proof.Proof.KHostDefs
import Idealize.ShloMosaic.Lib.StableHlo.Run
import Idealize.ShloMosaic.Lib.Tactic

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.StableHlo

variable (V : Valuation τ sig (Elt Ideal))

/-- A row's sum from a per-core accumulator. -/
abbrev rSum (A : FVec Ideal S64x1 .f32) : FVec Ideal S4x1 .f32 :=
  rowSum shapeCasts_S64x1_S2x32x1 reducesTo_S2x32x1_S32x1_d0 shapeCasts_S32x1_S4x8x1 reducesTo_S4x8x1_S4x1_d1 h_S_ A
/-- A row's maximum from a per-core accumulator. -/
abbrev rMax (A : FVec Ideal S64x1 .f32) : FVec Ideal S4x1 .f32 :=
  rowMax shapeCasts_S64x1_S2x32x1 reducesTo_S2x32x1_S32x1_d0 shapeCasts_S32x1_S4x8x1 reducesTo_S4x8x1_S4x1_d1 h_S_ A
/-- A per-row number as a [32, 1] parameter column. -/
abbrev pcol (u : FVec Ideal S4x1 .f32) : FVec Ideal S32x1 .f32 := colOf bcast_S4x1_S4x8x1_0_2 shapeCasts_S4x8x1_S32x1 u

/-! ## The parameter columns: q and rc of the current rows, q and rc of the initial rows -/

set_option maxHeartbeats 4000000 in
theorem ops1_v66 : StableHlo.after (hostOps1 (F := Ideal)) V (Proc.devRef .tc main_v66)
    = pcol (qC bcast_S_S4x1 (rSum (V (Proc.devRef .tc main_v2_0))) (rSum (V (Proc.devRef .tc main_v2_1)))) := by
  after_results_simp; rfl

set_option maxHeartbeats 4000000 in
theorem ops1_v68 : StableHlo.after (hostOps1 (F := Ideal)) V (Proc.devRef .tc main_v68)
    = pcol (rcC bcast_S_S4x1 (rSum (V (Proc.devRef .tc main_v2_0))) (rSum (V (Proc.devRef .tc main_v2_1))) (rMax (V (Proc.devRef .tc main_v2_2)))) := by
  after_results_simp; rfl

set_option maxHeartbeats 4000000 in
theorem ops1_v70 : StableHlo.after (hostOps1 (F := Ideal)) V (Proc.devRef .tc main_v70)
    = pcol (qC bcast_S_S4x1 (rSum (V (Proc.devRef .tc main_v2_3))) (rSum (V (Proc.devRef .tc main_v2_4)))) := by
  after_results_simp; rfl

set_option maxHeartbeats 4000000 in
theorem ops1_v72 : StableHlo.after (hostOps1 (F := Ideal)) V (Proc.devRef .tc main_v72)
    = pcol (rcC bcast_S_S4x1 (rSum (V (Proc.devRef .tc main_v2_3))) (rSum (V (Proc.devRef .tc main_v2_4))) (rMax (V (Proc.devRef .tc main_v2_5)))) := by
  after_results_simp; rfl

/-! ## The offsets rc as [4, 1] columns (the next stretch adds log ∑exp to them) -/

set_option maxHeartbeats 4000000 in
theorem ops1_v45 : StableHlo.after (hostOps1 (F := Ideal)) V (Proc.devRef .tc main_v45)
    = rcC bcast_S_S4x1 (rSum (V (Proc.devRef .tc main_v2_0))) (rSum (V (Proc.devRef .tc main_v2_1))) (rMax (V (Proc.devRef .tc main_v2_2))) := by
  after_results_simp; rfl

set_option maxHeartbeats 4000000 in
theorem ops1_v64 : StableHlo.after (hostOps1 (F := Ideal)) V (Proc.devRef .tc main_v64)
    = rcC bcast_S_S4x1 (rSum (V (Proc.devRef .tc main_v2_3))) (rSum (V (Proc.devRef .tc main_v2_4))) (rMax (V (Proc.devRef .tc main_v2_5))) := by
  after_results_simp; rfl

/-! ## The regrouped arguments are not written -/

set_option maxHeartbeats 4000000 in
theorem ops1_v0 : StableHlo.after (hostOps1 (F := Ideal)) V (Proc.devRef .tc main_v0) = V (Proc.devRef .tc main_v0) := by
  after_results_simp

set_option maxHeartbeats 4000000 in
theorem ops1_v1 : StableHlo.after (hostOps1 (F := Ideal)) V (Proc.devRef .tc main_v1) = V (Proc.devRef .tc main_v1) := by
  after_results_simp

end Cert.KernelIdeal.KValue

end
-- ==== Proof.Tiles.lean ====
/-
  The kernel's tiling of a row of N = 8 · 2 · 64 · 16384 entries: position
  s · 2097152 + (c · 64 + j) · 16384 + l  (sub-row s, core c, tile j, lane l) runs through every position of
  the row exactly once.  Hence a sum, or a supremum, over the row is the iterated sum, or supremum, over sub-rows,
  cores, tiles and lanes; and the sum over the four rows at once, walked by matrix rows r = 8p + s, is the double
  sum over rows and positions.  Only commutativity and associativity of + and ⊔ are used, so nothing here needs
  the entries to be finite.
-/
import Mathlib
import proofs.«111140_j6493990552354_2_alg».proof.Proof.Spec

open scoped BigOperators

namespace KL

/-- Splitting a position of a row into sub-row, core, tile and lane is a bijection. -/
def tileEquiv : Fin 8 × Fin 2 × Fin 64 × Fin 16384 ≃ Fin N where
  toFun x := sub x.1 (col x.2.1 x.2.2.1 x.2.2.2)
  invFun n :=
    (⟨n.val / 2097152, by have : n.val < 16777216 := n.isLt; omega⟩,
     ⟨n.val % 2097152 / 1048576, by omega⟩,
     ⟨n.val % 1048576 / 16384, by omega⟩,
     ⟨n.val % 16384, by omega⟩)
  left_inv := by
    rintro ⟨s, c, j, l⟩
    have := s.isLt; have := c.isLt; have := j.isLt; have := l.isLt
    refine Prod.ext (Fin.ext ?_) (Prod.ext (Fin.ext ?_) (Prod.ext (Fin.ext ?_) (Fin.ext ?_))) <;>
      simp only [sub, col] <;> omega
  right_inv := by
    intro n
    have : n.val < 16777216 := n.isLt
    apply Fin.ext
    simp only [sub, col]
    omega

theorem tileEquiv_apply (s : Fin 8) (c : Fin 2) (j : Fin 64) (l : Fin 16384) :
    tileEquiv (s, c, j, l) = sub s (col c j l) := rfl

/-- A sum over a row is the sum over sub-rows, cores, tiles and lanes, in that nesting order. -/
theorem sum_tiles (f : Fin N → EReal) :
    ∑ s : Fin 8, ∑ c : Fin 2, ∑ j : Fin 64, ∑ l : Fin 16384, f (sub s (col c j l)) = ∑ n, f n := by
  rw [← Equiv.sum_comp tileEquiv f]
  simp only [Fintype.sum_prod_type, tileEquiv_apply]

/-- A supremum over a row is the supremum over sub-rows, cores, tiles and lanes, in that nesting order. -/
theorem iSup_tiles (f : Fin N → EReal) :
    ⨆ s : Fin 8, ⨆ c : Fin 2, ⨆ j : Fin 64, ⨆ l : Fin 16384, f (sub s (col c j l)) = ⨆ n, f n := by
  rw [← Equiv.iSup_comp (g := f) tileEquiv]
  simp only [iSup_prod, tileEquiv_apply]

/-- Matrix row r = 8p + s split into the array row p and the sub-row s. -/
def mrowEquiv : Fin 32 ≃ Fin 4 × Fin 8 where
  toFun r := (⟨r.val / 8, by have := r.isLt; omega⟩, ⟨r.val % 8, Nat.mod_lt _ (by norm_num)⟩)
  invFun x := ⟨8 * x.1.val + x.2.val, by have := x.1.isLt; have := x.2.isLt; omega⟩
  left_inv := by
    intro r; apply Fin.ext; simp only []; omega
  right_inv := by
    rintro ⟨p, s⟩
    have := p.isLt; have := s.isLt
    refine Prod.ext (Fin.ext ?_) (Fin.ext ?_) <;> simp only [] <;> omega

/-- The sum over all four rows at once, in the order cores, matrix rows 8p + s, tiles, lanes. -/
theorem sum_tiles_all (g : Fin 4 → Fin N → EReal) :
    ∑ c : Fin 2, ∑ r : Fin 32, ∑ j : Fin 64, ∑ l : Fin 16384,
        g ⟨r.val / 8, by have := r.isLt; omega⟩
          (sub ⟨r.val % 8, Nat.mod_lt _ (by norm_num)⟩ (col c j l))
      = ∑ p : Fin 4, ∑ n, g p n := by
  have h1 : ∀ c : Fin 2,
      ∑ r : Fin 32, ∑ j : Fin 64, ∑ l : Fin 16384,
          g ⟨r.val / 8, by have := r.isLt; omega⟩
            (sub ⟨r.val % 8, Nat.mod_lt _ (by norm_num)⟩ (col c j l))
        = ∑ p : Fin 4, ∑ s : Fin 8, ∑ j : Fin 64, ∑ l : Fin 16384, g p (sub s (col c j l)) := by
    intro c
    rw [← Fintype.sum_prod_type'
      (f := fun (p : Fin 4) (s : Fin 8) => ∑ j : Fin 64, ∑ l : Fin 16384, g p (sub s (col c j l)))]
    rw [← Equiv.sum_comp mrowEquiv]
    rfl
  simp only [h1]
  rw [Finset.sum_comm]
  refine Finset.sum_congr rfl (fun p _ => ?_)
  rw [Finset.sum_comm]
  exact sum_tiles (g p)

end KL
-- ==== Proof.KHostRead.lean ====
/-
  Three readings at an index that the host arithmetic of the kernel program needs besides the per-accumulator
  reductions: the row-major regrouping of a [4, N] argument into the [32, N/8] matrix (matrix row 8p + s, column m
  is entry s·N/8 + m of row p); the sum of a [64, 1] accumulator over both axes, written over cores and matrix
  rows; and that sum of a per-core accumulator of tile sums re-indexed over the four rows of N entries.
-/
import proofs.«111140_j6493990552354_2_alg».proof.Proof.Tiles
import proofs.«111140_j6493990552354_2_alg».proof.Proof.Consts
import proofs.«111140_j6493990552354_2_alg».proof.Proof.Acc
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KValue

open Idealize.ShloMosaic Idealize.ShloMosaic.ValueIdx

/-- The [4, N] argument regrouped into the [32, N/8] matrix, read at matrix row 8p + s and column m: entry
    s·N/8 + m of row p. Both sit at row-major position p·N + s·N/8 + m. -/
theorem reshape_arg_apply {α : Type} (x : (⟨2, ![4, 16777216]⟩ : Shape).Idx → α)
    (h : (⟨2, ![4, 16777216]⟩ : Shape).ShapeCasts ⟨2, ![32, 2097152]⟩) (p : Fin 4) (s : Fin 8) (mc : Fin 2097152) :
    shapeCast ⟨2, ![32, 2097152]⟩ x h (ix2 (KL.mrow p s) mc) = x (ix2 p (KL.sub s mc)) :=
  shapeCast_apply x h _ _ (by
    rw [Shape.rowMajor_val_two, Shape.rowMajor_val_two]
    show p.val * 16777216 + (s.val * 2097152 + mc.val) = (8 * p.val + s.val) * 2097152 + mc.val
    omega)

/-- Accumulator row q = 32c + r split into the core c and the matrix row r. -/
def arowEquiv : Fin 2 × Fin 32 ≃ Fin 64 where
  toFun x := KL.arow x.1 x.2
  invFun q := (KL.accC q, KL.accR q)
  left_inv := by
    rintro ⟨c, r⟩
    exact Prod.ext (KL.accC_arow c r) (KL.accR_arow c r)
  right_inv := by
    intro q
    apply Fin.ext
    show 32 * (q.val / 32) + q.val % 32 = q.val
    omega

/-- A sum over the 64 accumulator rows is the sum over cores and matrix rows. -/
theorem sum_arow (g : Fin 64 → EReal) : ∑ q, g q = ∑ c : Fin 2, ∑ r : Fin 32, g (KL.arow c r) := by
  rw [← Equiv.sum_comp arowEquiv g, Fintype.sum_prod_type]
  rfl

/-- The host's sum of a [64, 1] accumulator over both axes, started from zero: the sum over cores and matrix rows. -/
theorem total_sum_apply (A : FVec Ideal ⟨2, ![64, 1]⟩ .f32) (init : (⟨0, ![]⟩ : Shape).Idx → Ideal .f32)
    (h : (⟨2, ![64, 1]⟩ : Shape).ReducesTo [0, 1] ⟨0, ![]⟩) (hu : 0 < (⟨0, ![]⟩ : Shape).numel)
    (hinit : init (Shape.Idx.first hu) = 0) (j : (⟨0, ![]⟩ : Shape).Idx) :
    Host.reduceAdd A init h hu j = ∑ c : Fin 2, ∑ r : Fin 32, A (ix2 (KL.arow c r) (0 : Fin 1)) := by
  rw [hostReduceAdd_apply, Ideal.hostReduceAdd_total h (fun b => b.elim0), hinit, zero_add, sum_idx2]
  rw [sum_arow (fun q => ∑ b : Fin 1, A (ix2 q b))]
  refine Finset.sum_congr rfl fun c _ => Finset.sum_congr rfl fun r _ => ?_
  exact Fin.sum_univ_one _

/-- The sum over cores and matrix rows of a per-core accumulator of tile sums of g (row r / 8, entry (r % 8)·N/8 + column):
    the sum over the four rows and their N entries. -/
theorem sum_acc_all (g : Fin 4 → Fin KL.N → EReal) (T : Fin 2 → Fin 32 → EReal)
    (hT : ∀ (c : Fin 2) (p : Fin 4) (s : Fin 8),
      T c (KL.mrow p s) = ∑ j : Fin 64, ∑ l : Fin 16384, g p (KL.sub s (KL.col c j l))) :
    ∑ c : Fin 2, ∑ r : Fin 32, T c r = ∑ p : Fin 4, ∑ n, g p n := by
  rw [← KL.sum_tiles_all g]
  refine Finset.sum_congr rfl fun c _ => Finset.sum_congr rfl fun r _ => ?_
  have hr : r = KL.mrow ⟨r.val / 8, by have := r.isLt; omega⟩ ⟨r.val % 8, Nat.mod_lt _ (by norm_num)⟩ := by
    apply Fin.ext
    show r.val = 8 * (r.val / 8) + r.val % 8
    omega
  conv_lhs => rw [hr]
  exact hT c _ _

end Cert.KernelIdeal.KValue

end
-- ==== Proof.KSmall.lean ====
/-
  The kernel program's small host steps between its regions, read at an index on the extended reals.

  A [64, 1] per-core accumulator column is viewed as [2, 32, 1] (entry (c, r, 0) is row 32c + r), reduced over the
  two cores, viewed as [4, 8, 1] (entry (p, s, 0) is row 8p + s) and reduced over the eight sub-rows: for a sum
  from the zero word the result at row p is the double sum over sub-rows and cores, for a maximum from −∞ it is
  the double supremum.  In the other direction a [4, 1] column is copied along a new middle axis of 8 and viewed
  as [32, 1]: row 8p + s reads entry p.
-/
import Mathlib
import proofs.«111140_j6493990552354_2_alg».proof.KernelIdeal
import proofs.«111140_j6493990552354_2_alg».proof.Proof.Spec
import proofs.«111140_j6493990552354_2_alg».proof.Proof.Consts
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.KValue

open Cert.KernelIdeal Idealize.ShloMosaic Idealize.ShloMosaic.ValueIdx

/-! ## The views -/

/-- Entry (c, r, 0) of the [2, 32, 1] view is row 32c + r of the column. -/
theorem cast_2x32x1 (A : FVec Ideal S64x1 .f32) (h1 : S64x1.ShapeCasts S2x32x1) (c : Fin 2) (r : Fin 32) :
    shapeCast S2x32x1 A h1 (ix3 c r 0) = A (ix2 (KL.arow c r) 0) := by
  refine shapeCast_apply A h1 _ _ ?_
  rw [Shape.rowMajor_val_two, Shape.rowMajor_val_three]
  show (32 * c.val + r.val) * 1 + 0 = (c.val * 32 + r.val) * 1 + 0
  omega

/-- Entry (p, s, 0) of the [4, 8, 1] view is row 8p + s of the column. -/
theorem cast_4x8x1 (Y : FVec Ideal S32x1 .f32) (h3 : S32x1.ShapeCasts S4x8x1) (p : Fin 4) (s : Fin 8) :
    shapeCast S4x8x1 Y h3 (ix3 p s 0) = Y (ix2 (KL.mrow p s) 0) := by
  refine shapeCast_apply Y h3 _ _ ?_
  rw [Shape.rowMajor_val_two, Shape.rowMajor_val_three]
  show (8 * p.val + s.val) * 1 + 0 = (p.val * 8 + s.val) * 1 + 0
  omega

/-- Row r with core c put back on the leading axis is (c, r, 0). -/
theorem lift_core (h : S2x32x1.Reduces [0] S32x1) (r : Fin 32) (c : Fin 2) :
    h.lift (ix2 r 0) c = ix3 c r 0 := by
  funext a; apply Fin.ext
  fin_cases a <;> rfl

/-- Row p with sub-row s put back on the middle axis is (p, s, 0). -/
theorem lift_subrow (h : S4x8x1.Reduces [1] S4x1) (p : Fin 4) (s : Fin 8) :
    h.lift (ix2 p 0) s = ix3 p s 0 := by
  funext a; apply Fin.ext
  fin_cases a <;> rfl

/-- A maximum folded from −∞ over a finite index is the supremum. -/
theorem fold_maximumf_bot {ι : Type} [Fintype ι] (f : ι → EReal) :
    Finset.univ.fold (FloatOps.maximumf (F := Ideal) (φ := .f32)) ⊥ f = ⨆ k, f k := by
  show Finset.univ.fold max ⊥ f = ⨆ k, f k
  apply le_antisymm
  · exact (Finset.fold_max_le _).mpr ⟨bot_le, fun k _ => le_iSup f k⟩
  · exact iSup_le fun k => (Finset.le_fold_max _).mpr (Or.inr ⟨k, Finset.mem_univ k, le_rfl⟩)

/-! ## One reduction at a time -/

/-- The sum over the two cores from the zero word, at row r. -/
theorem sum_cores (B : FVec Ideal S2x32x1 .f32) (h2 : S2x32x1.ReducesTo [0] S32x1) (hu : 0 < S_.numel) (r : Fin 32) :
    Host.reduceAdd (F := Ideal) B (constant (F := Ideal) S_ .f32 0x00000000#32) h2 hu (ix2 r 0)
      = ∑ c : Fin 2, B (ix3 c r 0) := by
  have h2r : S2x32x1.Reduces [0] S32x1 := by decide
  rw [hostReduceAdd_apply, Ideal.hostReduceAdd_single h2 h2r, constant_apply, KL.zero_eq, zero_add]
  exact Finset.sum_congr rfl fun c _ => congrArg B (lift_core h2r r c)

/-- The sum over the eight sub-rows from the zero word, at row p. -/
theorem sum_subrows (C : FVec Ideal S4x8x1 .f32) (h4 : S4x8x1.ReducesTo [1] S4x1) (hu : 0 < S_.numel) (p : Fin 4) :
    Host.reduceAdd (F := Ideal) C (constant (F := Ideal) S_ .f32 0x00000000#32) h4 hu (ix2 p 0)
      = ∑ s : Fin 8, C (ix3 p s 0) := by
  have h4r : S4x8x1.Reduces [1] S4x1 := by decide
  rw [hostReduceAdd_apply, Ideal.hostReduceAdd_single h4 h4r, constant_apply, KL.zero_eq, zero_add]
  exact Finset.sum_congr rfl fun s _ => congrArg C (lift_subrow h4r p s)

/-- The maximum over the two cores from −∞, at row r. -/
theorem max_cores (B : FVec Ideal S2x32x1 .f32) (h2 : S2x32x1.ReducesTo [0] S32x1) (hu : 0 < S_.numel) (r : Fin 32) :
    Host.reduce (FloatOps.maximumf (F := Ideal) (φ := .f32)) B (constant (F := Ideal) S_ .f32 0xFF800000#32) h2 hu
        (ix2 r 0)
      = ⨆ c : Fin 2, B (ix3 c r 0) := by
  have h2r : S2x32x1.Reduces [0] S32x1 := by decide
  rw [Host.reduce_eq_fold_single FloatOps.maximumf _ _ h2 h2r hu, constant_apply, KL.negInf_eq, fold_maximumf_bot]
  exact iSup_congr fun c => congrArg B (lift_core h2r r c)

/-- The maximum over the eight sub-rows from −∞, at row p. -/
theorem max_subrows (C : FVec Ideal S4x8x1 .f32) (h4 : S4x8x1.ReducesTo [1] S4x1) (hu : 0 < S_.numel) (p : Fin 4) :
    Host.reduce (FloatOps.maximumf (F := Ideal) (φ := .f32)) C (constant (F := Ideal) S_ .f32 0xFF800000#32) h4 hu
        (ix2 p 0)
      = ⨆ s : Fin 8, C (ix3 p s 0) := by
  have h4r : S4x8x1.Reduces [1] S4x1 := by decide
  rw [Host.reduce_eq_fold_single FloatOps.maximumf _ _ h4 h4r hu, constant_apply, KL.negInf_eq, fold_maximumf_bot]
  exact iSup_congr fun s => congrArg C (lift_subrow h4r p s)

/-! ## The three reads -/

/-- The sum of a per-core accumulator column over cores and sub-rows, at row p. -/
theorem reduce_acc_sum (A : FVec Ideal S64x1 .f32) (h1 : S64x1.ShapeCasts S2x32x1)
    (h2 : S2x32x1.ReducesTo [0] S32x1) (h3 : S32x1.ShapeCasts S4x8x1) (h4 : S4x8x1.ReducesTo [1] S4x1)
    (hu : 0 < S_.numel) (p : Fin 4) :
    Host.reduceAdd (F := Ideal)
        (shapeCast S4x8x1
          (Host.reduceAdd (F := Ideal) (shapeCast S2x32x1 A h1) (constant (F := Ideal) S_ .f32 0x00000000#32) h2 hu) h3)
        (constant (F := Ideal) S_ .f32 0x00000000#32) h4 hu (ix2 p 0)
      = ∑ s : Fin 8, ∑ c : Fin 2, A (ix2 (KL.arow c (KL.mrow p s)) 0) := by
  rw [sum_subrows]
  refine Finset.sum_congr rfl fun s _ => ?_
  rw [cast_4x8x1, sum_cores]
  refine Finset.sum_congr rfl fun c _ => ?_
  rw [cast_2x32x1]

/-- The maximum of a per-core accumulator column over cores and sub-rows, at row p. -/
theorem reduce_acc_max (A : FVec Ideal S64x1 .f32) (h1 : S64x1.ShapeCasts S2x32x1)
    (h2 : S2x32x1.ReducesTo [0] S32x1) (h3 : S32x1.ShapeCasts S4x8x1) (h4 : S4x8x1.ReducesTo [1] S4x1)
    (hu : 0 < S_.numel) (p : Fin 4) :
    Host.reduce (FloatOps.maximumf (F := Ideal) (φ := .f32))
        (shapeCast S4x8x1
          (Host.reduce (FloatOps.maximumf (F := Ideal) (φ := .f32)) (shapeCast S2x32x1 A h1)
            (constant (F := Ideal) S_ .f32 0xFF800000#32) h2 hu) h3)
        (constant (F := Ideal) S_ .f32 0xFF800000#32) h4 hu (ix2 p 0)
      = ⨆ s : Fin 8, ⨆ c : Fin 2, A (ix2 (KL.arow c (KL.mrow p s)) 0) := by
  rw [max_subrows]
  refine iSup_congr fun s => ?_
  rw [cast_4x8x1, max_cores]
  refine iSup_congr fun c => ?_
  rw [cast_2x32x1]

/-- A [4, 1] column copied along a middle axis of 8 and viewed as [32, 1]: row 8p + s reads entry p. -/
theorem column_read (u : FVec Ideal S4x1 .f32)
    (hb : S4x1.BroadcastsInDim S4x8x1 (![0, 2] : Fin 2 → Fin S4x8x1.rank)) (hc : S4x8x1.ShapeCasts S32x1)
    (p : Fin 4) (s : Fin 8) :
    shapeCast S32x1 (broadcastInDim S4x8x1 ![0, 2] hb u) hc (ix2 (KL.mrow p s) 0) = u (ix2 p 0) := by
  refine (shapeCast_apply _ hc _ (ix3 p s 0) ?_).trans ?_
  · rw [Shape.rowMajor_val_two, Shape.rowMajor_val_three]
    show (p.val * 8 + s.val) * 1 + 0 = (8 * p.val + s.val) * 1 + 0
    omega
  · refine broadcastInDim_apply _ hb u _ (ix2 p 0) ?_
    intro a
    fin_cases a <;> rfl

end Cert.KernelIdeal.KValue

end
-- ==== Proof.KHostCols.lean ====
/-
  The regions' accumulators reduced to the rows' numbers. A [32, N/8] matrix M holds the four rows X p of an argument
  by eighths: M (8p + s, m) = X p (s·N/8 + m). Row 32c + 8p + s of a region's per-core accumulator sums (or takes the
  supremum of) a term of M's row 8p + s over core c's 64 tiles of 16384 lanes; reduced over the cores and the eight
  sub-rows this is the sum (supremum) of the term over the whole row X p — the tiling runs through every entry of the
  row once. So the statistics region gives ∑ x, ∑ x², sup x of every row, the second region ∑ exp(x·q − rc), and
  the third, summed over all 64 accumulator rows, the sum over the four rows of the Kullback–Leibler sums.
-/
import proofs.«111140_j6493990552354_2_alg».proof.Proof.KHostDefs
import proofs.«111140_j6493990552354_2_alg».proof.Proof.KHostRead
import proofs.«111140_j6493990552354_2_alg».proof.Proof.KSmall
import proofs.«111140_j6493990552354_2_alg».proof.Proof.Tiles
import proofs.«111140_j6493990552354_2_alg».proof.Proof.Acc

noncomputable section

open scoped BigOperators

namespace Cert.KernelIdeal.KValue

open Cert.KernelIdeal
open Idealize.ShloMosaic Idealize.ShloMosaic.ValueIdx

section Rows

variable (h1 : S64x1.ShapeCasts S2x32x1) (h2 : S2x32x1.ReducesTo [0] S32x1) (h3 : S32x1.ShapeCasts S4x8x1)
  (h4 : S4x8x1.ReducesTo [1] S4x1) (hu : 0 < S_.numel)

/-- An accumulator of tile sums of f, reduced to row p: the sum of f over the row. -/
theorem rowSum_tiles (f : Fin 4 → Fin KL.N → EReal) (A : FVec Ideal S64x1 .f32)
    (hA : ∀ (c : Fin 2) (p : Fin 4) (s : Fin 8),
      A (ix2 (KL.arow c (KL.mrow p s)) (0 : Fin 1)) = ∑ j : Fin 64, ∑ l : Fin 16384, f p (KL.sub s (KL.col c j l)))
    (p : Fin 4) : rowSum h1 h2 h3 h4 hu A (ix2 p (0 : Fin 1)) = ∑ n, f p n := by
  unfold rowSum
  rw [reduce_acc_sum A h1 h2 h3 h4 hu p, ← KL.sum_tiles (f p)]
  exact Finset.sum_congr rfl fun s _ => Finset.sum_congr rfl fun c _ => hA c p s

/-- An accumulator of tile suprema of f, reduced to row p: the supremum of f over the row. -/
theorem rowMax_tiles (f : Fin 4 → Fin KL.N → EReal) (A : FVec Ideal S64x1 .f32)
    (hA : ∀ (c : Fin 2) (p : Fin 4) (s : Fin 8),
      A (ix2 (KL.arow c (KL.mrow p s)) (0 : Fin 1)) = ⨆ j : Fin 64, ⨆ l : Fin 16384, f p (KL.sub s (KL.col c j l)))
    (p : Fin 4) : rowMax h1 h2 h3 h4 hu A (ix2 p (0 : Fin 1)) = ⨆ n, f p n := by
  unfold rowMax
  rw [reduce_acc_max A h1 h2 h3 h4 hu p, ← KL.iSup_tiles (f p)]
  exact iSup_congr fun s => iSup_congr fun c => hA c p s

variable (X : Fin 4 → KL.Row) (M : KL.Mat)
  (hM : ∀ (p : Fin 4) (s : Fin 8) (mc : Fin 2097152), M (ix2 (KL.mrow p s) mc) = X p (KL.sub s mc))

include hM

/-- The entry of M that lane l of tile j of core c contributes to accumulator row 32c + 8p + s. -/
theorem tileEntry_eq (c : Fin 2) (p : Fin 4) (s : Fin 8) (j : Fin 64) (l : Fin 16384) :
    KL.tileEntry M (KL.arow c (KL.mrow p s)) j l = X p (KL.sub s (KL.col c j l)) := by
  show M (ix2 (KL.accR (KL.arow c (KL.mrow p s))) (KL.col (KL.accC (KL.arow c (KL.mrow p s))) j l)) = _
  rw [KL.accR_arow, KL.accC_arow, hM]

theorem rowSum_accSum (p : Fin 4) : rowSum h1 h2 h3 h4 hu (KL.accSum M) (ix2 p (0 : Fin 1)) = ∑ n, X p n :=
  rowSum_tiles h1 h2 h3 h4 hu (fun p n => X p n) _ (fun c p s => by
    show ∑ j : Fin 64, ∑ l : Fin 16384, KL.tileEntry M (KL.arow c (KL.mrow p s)) j l = _
    simp only [tileEntry_eq X M hM]) p

theorem rowSum_accSumSq (p : Fin 4) : rowSum h1 h2 h3 h4 hu (KL.accSumSq M) (ix2 p (0 : Fin 1)) = ∑ n, X p n * X p n :=
  rowSum_tiles h1 h2 h3 h4 hu (fun p n => X p n * X p n) _ (fun c p s => by
    show ∑ j : Fin 64, ∑ l : Fin 16384,
      KL.tileEntry M (KL.arow c (KL.mrow p s)) j l * KL.tileEntry M (KL.arow c (KL.mrow p s)) j l = _
    simp only [tileEntry_eq X M hM]) p

theorem rowMax_accMax (p : Fin 4) : rowMax h1 h2 h3 h4 hu (KL.accMax M) (ix2 p (0 : Fin 1)) = ⨆ n, X p n :=
  rowMax_tiles h1 h2 h3 h4 hu (fun p n => X p n) _ (fun c p s => by
    show ⨆ j : Fin 64, ⨆ l : Fin 16384, KL.tileEntry M (KL.arow c (KL.mrow p s)) j l = _
    simp only [tileEntry_eq X M hM]) p

/-- The second region's accumulator, its parameter columns holding q and rc of each row, reduced to row p:
    ∑ exp (x·q − rc) over the row. -/
theorem rowSum_accSumExp (qc rc : KL.Col32)
    (hq : ∀ (p : Fin 4) (s : Fin 8), qc (ix2 (KL.mrow p s) (0 : Fin 1)) = KL.kQ (X p))
    (hrc : ∀ (p : Fin 4) (s : Fin 8), rc (ix2 (KL.mrow p s) (0 : Fin 1)) = KL.kRc (X p)) (p : Fin 4) :
    rowSum h1 h2 h3 h4 hu (KL.accSumExp M qc rc) (ix2 p (0 : Fin 1)) = KL.kSumExp (X p) :=
  rowSum_tiles h1 h2 h3 h4 hu (fun p n => Ideal.exp (X p n * KL.kQ (X p) - KL.kRc (X p))) _ (fun c p s => by
    show ∑ j : Fin 64, ∑ l : Fin 16384,
      Ideal.exp (KL.tileEntry M (KL.arow c (KL.mrow p s)) j l * qc (ix2 (KL.accR (KL.arow c (KL.mrow p s))) (0 : Fin 1))
        - rc (ix2 (KL.accR (KL.arow c (KL.mrow p s))) (0 : Fin 1))) = _
    simp only [tileEntry_eq X M hM, KL.accR_arow, hq, hrc]) p

end Rows

/-- The third region's accumulator — its parameter columns holding q and c of each current and each initial row —
    summed over all its rows, divided by four and negated: the kernel's result. -/
theorem finalOf_accKl (h : S64x1.ReducesTo [0, 1] S_) (hu : 0 < S_.numel) (Xc Xi : Fin 4 → KL.Row) (Mc Mi : KL.Mat)
    (hMc : ∀ (p : Fin 4) (s : Fin 8) (mc : Fin 2097152), Mc (ix2 (KL.mrow p s) mc) = Xc p (KL.sub s mc))
    (hMi : ∀ (p : Fin 4) (s : Fin 8) (mc : Fin 2097152), Mi (ix2 (KL.mrow p s) mc) = Xi p (KL.sub s mc))
    (ac cc ai ci : KL.Col32)
    (hac : ∀ (p : Fin 4) (s : Fin 8), ac (ix2 (KL.mrow p s) (0 : Fin 1)) = KL.kQ (Xc p))
    (hcc : ∀ (p : Fin 4) (s : Fin 8), cc (ix2 (KL.mrow p s) (0 : Fin 1)) = KL.kC (Xc p))
    (hai : ∀ (p : Fin 4) (s : Fin 8), ai (ix2 (KL.mrow p s) (0 : Fin 1)) = KL.kQ (Xi p))
    (hci : ∀ (p : Fin 4) (s : Fin 8), ci (ix2 (KL.mrow p s) (0 : Fin 1)) = KL.kC (Xi p)) :
    finalOf h hu (KL.accKl Mc Mi ac cc ai ci) = fun _ => KL.kResult Xc Xi := by
  funext j
  show -(Ideal.div (Host.reduceAdd (KL.accKl Mc Mi ac cc ai ci) (constant (F := Ideal) S_ .f32 0x00000000#32) h hu j)
    (Ideal.ofBits .f32 0x40800000#32)) = _
  rw [total_sum_apply _ _ h hu KL.zero_eq j]
  rw [sum_acc_all (fun p n => Ideal.exp (KL.kLp (Xi p) n) * (KL.kLp (Xi p) n - Ideal.log (Ideal.exp (KL.kLp (Xc p) n) + KL.cEps)))
    (fun c r => KL.accKl Mc Mi ac cc ai ci (ix2 (KL.arow c r) (0 : Fin 1))) (fun c p s => by
      show ∑ j : Fin 64, ∑ l : Fin 16384,
        Ideal.exp (KL.tileEntry Mi (KL.arow c (KL.mrow p s)) j l * ai (ix2 (KL.accR (KL.arow c (KL.mrow p s))) (0 : Fin 1))
            - ci (ix2 (KL.accR (KL.arow c (KL.mrow p s))) (0 : Fin 1)))
          * ((KL.tileEntry Mi (KL.arow c (KL.mrow p s)) j l * ai (ix2 (KL.accR (KL.arow c (KL.mrow p s))) (0 : Fin 1))
              - ci (ix2 (KL.accR (KL.arow c (KL.mrow p s))) (0 : Fin 1)))
            - Ideal.log (Ideal.exp (KL.tileEntry Mc (KL.arow c (KL.mrow p s)) j l
                  * ac (ix2 (KL.accR (KL.arow c (KL.mrow p s))) (0 : Fin 1))
                - cc (ix2 (KL.accR (KL.arow c (KL.mrow p s))) (0 : Fin 1))) + KL.cEps)) = _
      simp only [tileEntry_eq Xc Mc hMc, tileEntry_eq Xi Mi hMi, KL.accR_arow, hac, hcc, hai, hci]
      rfl)]
  rfl

end Cert.KernelIdeal.KValue

end
-- ==== Proof.KSmallBnd.lean ====
/-
  The three regions' boundaries: what each array of a region holds when the region ends.  An input window's array is
  never written back, so it holds what the region was entered with; an accumulator array holds the named function
  (sum, sum of squares, maximum, sum of exponentials, Kullback–Leibler sum) of the entry contents; a buffer that is
  no window of the region is untouched.
-/
import proofs.«111140_j6493990552354_2_alg».proof.Proof.KFacts

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable (hR : RegionFacts) (m : (ℓ : Loc nD τ sig) → Buf (Elt Ideal) ℓ) (ρ : Dev nD → PrngReg) (c : Dev nD)

/-! ## The statistics region -/

theorem W2_v0 : W2 m ρ c (Proc.devRef .tc main_v0) = V1 m ρ c main_v0 :=
  (W2_arr m ρ c 0).trans (((dat0 (V1 m ρ) c).arrAt_in 0 rfl _).trans (A_eq0 (V1 m ρ) c 0))
theorem W2_v1 : W2 m ρ c (Proc.devRef .tc main_v1) = V1 m ρ c main_v1 :=
  (W2_arr m ρ c 1).trans (((dat0 (V1 m ρ) c).arrAt_in 1 rfl _).trans (A_eq0 (V1 m ρ) c 1))

include hR

theorem W2_v2_0 : (W2 m ρ c (Proc.devRef .tc main_v2_0) : KL.Acc) = KL.accSum (V1 m ρ c main_v0) :=
  (W2_arr m ρ c 2).trans (hR.sum_cur (V1 m ρ) c)
theorem W2_v2_1 : (W2 m ρ c (Proc.devRef .tc main_v2_1) : KL.Acc) = KL.accSumSq (V1 m ρ c main_v0) :=
  (W2_arr m ρ c 3).trans (hR.sumsq_cur (V1 m ρ) c)
theorem W2_v2_2 : (W2 m ρ c (Proc.devRef .tc main_v2_2) : KL.Acc) = KL.accMax (V1 m ρ c main_v0) :=
  (W2_arr m ρ c 4).trans (hR.max_cur (V1 m ρ) c)
theorem W2_v2_3 : (W2 m ρ c (Proc.devRef .tc main_v2_3) : KL.Acc) = KL.accSum (V1 m ρ c main_v1) :=
  (W2_arr m ρ c 5).trans (hR.sum_init (V1 m ρ) c)
theorem W2_v2_4 : (W2 m ρ c (Proc.devRef .tc main_v2_4) : KL.Acc) = KL.accSumSq (V1 m ρ c main_v1) :=
  (W2_arr m ρ c 6).trans (hR.sumsq_init (V1 m ρ) c)
theorem W2_v2_5 : (W2 m ρ c (Proc.devRef .tc main_v2_5) : KL.Acc) = KL.accMax (V1 m ρ c main_v1) :=
  (W2_arr m ρ c 7).trans (hR.max_init (V1 m ρ) c)

omit hR

/-! ## The sum-of-exponentials region -/

theorem W4_v0 : W4 m ρ c (Proc.devRef .tc main_v0) = V3 m ρ c main_v0 :=
  (W4_arr m ρ c 0).trans (((dat1 (V3 m ρ) c).arrAt_in 0 rfl _).trans (A_eq1 (V3 m ρ) c 0))
theorem W4_v1 : W4 m ρ c (Proc.devRef .tc main_v1) = V3 m ρ c main_v1 :=
  (W4_arr m ρ c 1).trans (((dat1 (V3 m ρ) c).arrAt_in 1 rfl _).trans (A_eq1 (V3 m ρ) c 1))
theorem W4_v66 : W4 m ρ c (Proc.devRef .tc main_v66) = V3 m ρ c main_v66 :=
  (W4_arr m ρ c 2).trans (((dat1 (V3 m ρ) c).arrAt_in 2 rfl _).trans (A_eq1 (V3 m ρ) c 2))
theorem W4_v68 : W4 m ρ c (Proc.devRef .tc main_v68) = V3 m ρ c main_v68 :=
  (W4_arr m ρ c 3).trans (((dat1 (V3 m ρ) c).arrAt_in 3 rfl _).trans (A_eq1 (V3 m ρ) c 3))
theorem W4_v70 : W4 m ρ c (Proc.devRef .tc main_v70) = V3 m ρ c main_v70 :=
  (W4_arr m ρ c 4).trans (((dat1 (V3 m ρ) c).arrAt_in 4 rfl _).trans (A_eq1 (V3 m ρ) c 4))
theorem W4_v72 : W4 m ρ c (Proc.devRef .tc main_v72) = V3 m ρ c main_v72 :=
  (W4_arr m ρ c 5).trans (((dat1 (V3 m ρ) c).arrAt_in 5 rfl _).trans (A_eq1 (V3 m ρ) c 5))
theorem W4_v45 : W4 m ρ c (Proc.devRef .tc main_v45) = V3 m ρ c main_v45 :=
  W4_of_ne m ρ c main_v45 (by decide)
theorem W4_v64 : W4 m ρ c (Proc.devRef .tc main_v64) = V3 m ρ c main_v64 :=
  W4_of_ne m ρ c main_v64 (by decide)

include hR

theorem W4_v73_0 : (W4 m ρ c (Proc.devRef .tc main_v73_0) : KL.Acc)
    = KL.accSumExp (V3 m ρ c main_v0) (V3 m ρ c main_v66) (V3 m ρ c main_v68) :=
  (W4_arr m ρ c 6).trans (hR.sumexp_cur (V3 m ρ) c)
theorem W4_v73_1 : (W4 m ρ c (Proc.devRef .tc main_v73_1) : KL.Acc)
    = KL.accSumExp (V3 m ρ c main_v1) (V3 m ρ c main_v70) (V3 m ρ c main_v72) :=
  (W4_arr m ρ c 7).trans (hR.sumexp_init (V3 m ρ) c)

/-! ## The Kullback–Leibler region -/

theorem W6_v90 : (W6 m ρ c (Proc.devRef .tc main_v90) : KL.Acc)
    = KL.accKl (V5 m ρ c main_v0) (V5 m ρ c main_v1) (V5 m ρ c main_v66) (V5 m ρ c main_v87) (V5 m ρ c main_v70)
        (V5 m ρ c main_v89) :=
  (W6_arr m ρ c 6).trans (hR.kl (V5 m ρ) c)

end Cert.KernelIdeal.KValue

end
-- ==== Proof.KHost.lean ====
/-
  The kernel program's result. The buffer contents at the seven segment boundaries are followed from the launch
  memory to the result buffer: the first stretch regroups the two [4, N] arguments into [32, N/8] matrices (row 8p + s
  is the s-th eighth of row p); the statistics region's six accumulators, reduced over cores and sub-rows, are each
  row's ∑x, ∑x², sup x, from which the second stretch computes q and rc and spreads them over the matrix rows; the
  second region's accumulators reduce to each row's ∑ exp(x·q − rc), from which the third stretch computes c; the
  third region's accumulator, summed over all its rows, is the sum over the four rows of the Kullback–Leibler sums,
  which the last stretch divides by four and negates. Only re-indexing of sums and suprema is used: nothing is
  assumed finite.
-/
import proofs.«111140_j6493990552354_2_alg».proof.Proof.KFacts
import proofs.«111140_j6493990552354_2_alg».proof.Proof.Consts
import proofs.«111140_j6493990552354_2_alg».proof.Proof.KHostOps
import proofs.«111140_j6493990552354_2_alg».proof.Proof.KHostOps1
import proofs.«111140_j6493990552354_2_alg».proof.Proof.KHostCols
import proofs.«111140_j6493990552354_2_alg».proof.Proof.KSmallBnd

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.StableHlo

/-- rc + log ∑exp read at a row: c. -/
theorem addLog_apply (R E : FVec Ideal S4x1 .f32) (i : S4x1.Idx) {x : KL.Row} (hRc : R i = KL.kRc x)
    (hE : E i = KL.kSumExp x) : addf R (Host.log E) i = KL.kC x := by
  show R i + Ideal.log (E i) = _
  rw [hRc, hE]; rfl

variable (m : (ℓ : Loc nD τ sig) → Buf (Elt Ideal) ℓ) (ρ : Dev nD → PrngReg) (c : Dev nD)

/-- The four rows of `current`. -/
abbrev Xc : Fin 4 → KL.Row := KL.rows (m ((c.tc : Thread nD τ).loc main_arg0))
/-- The four rows of `initial`. -/
abbrev Xi : Fin 4 → KL.Row := KL.rows (m ((c.tc : Thread nD τ).loc main_arg1))

/-! ## The current rows -/

/-- The regrouped current argument at matrix row 8p + s: the s-th eighth of row p. -/
theorem V1_v0_apply (p : Fin 4) (s : Fin 8) (mc : Fin 2097152) :
    (V1 m ρ c main_v0 : KL.Mat) (ix2 (KL.mrow p s) mc) = Xc m c p (KL.sub s mc) :=
  (congrFun (ops0_v0 (W0 m ρ c)) _).trans (reshape_arg_apply _ _ p s mc)

/-- No later stretch or region writes the regrouped argument. -/
theorem V3_v0 : V3 m ρ c main_v0 = V1 m ρ c main_v0 := (ops1_v0 (W2 m ρ c)).trans (W2_v0 m ρ c)
theorem V5_v0 : V5 m ρ c main_v0 = V1 m ρ c main_v0 :=
  (ops2_v0 (W4 m ρ c)).trans ((W4_v0 m ρ c).trans (V3_v0 m ρ c))

/-- Row p's sum, sum of squares and supremum from the statistics region's accumulators. -/
theorem sum_cur (hR : RegionFacts) (p : Fin 4) :
    rSum (W2 m ρ c (Proc.devRef .tc main_v2_0)) (ix2 p (0 : Fin 1)) = ∑ n, Xc m c p n := by
  rw [W2_v2_0 hR m ρ c]
  exact rowSum_accSum _ _ _ _ _ (Xc m c) _ (V1_v0_apply m ρ c) p
theorem sumsq_cur (hR : RegionFacts) (p : Fin 4) :
    rSum (W2 m ρ c (Proc.devRef .tc main_v2_1)) (ix2 p (0 : Fin 1)) = ∑ n, Xc m c p n * Xc m c p n := by
  rw [W2_v2_1 hR m ρ c]
  exact rowSum_accSumSq _ _ _ _ _ (Xc m c) _ (V1_v0_apply m ρ c) p
theorem max_cur (hR : RegionFacts) (p : Fin 4) :
    rMax (W2 m ρ c (Proc.devRef .tc main_v2_2)) (ix2 p (0 : Fin 1)) = ⨆ n, Xc m c p n := by
  rw [W2_v2_2 hR m ρ c]
  exact rowMax_accMax _ _ _ _ _ (Xc m c) _ (V1_v0_apply m ρ c) p

/-- The parameter columns of the second region: q and rc of row p at each of its eight matrix rows. -/
theorem V3_v66_apply (hR : RegionFacts) (p : Fin 4) (s : Fin 8) :
    (V3 m ρ c main_v66 : KL.Col32) (ix2 (KL.mrow p s) (0 : Fin 1)) = KL.kQ (Xc m c p) :=
  (congrFun (ops1_v66 (W2 m ρ c)) _).trans ((column_read _ _ _ p s).trans
    (qC_apply _ (sum_cur m ρ c hR p) (sumsq_cur m ρ c hR p)))
theorem V3_v68_apply (hR : RegionFacts) (p : Fin 4) (s : Fin 8) :
    (V3 m ρ c main_v68 : KL.Col32) (ix2 (KL.mrow p s) (0 : Fin 1)) = KL.kRc (Xc m c p) :=
  (congrFun (ops1_v68 (W2 m ρ c)) _).trans ((column_read _ _ _ p s).trans
    (rcC_apply _ (sum_cur m ρ c hR p) (sumsq_cur m ρ c hR p) (max_cur m ρ c hR p)))
/-- … and rc of row p as the [4, 1] column the third stretch reads. -/
theorem V3_v45_apply (hR : RegionFacts) (p : Fin 4) :
    (V3 m ρ c main_v45 : FVec Ideal S4x1 .f32) (ix2 p (0 : Fin 1)) = KL.kRc (Xc m c p) :=
  (congrFun (ops1_v45 (W2 m ρ c)) _).trans
    (rcC_apply _ (sum_cur m ρ c hR p) (sumsq_cur m ρ c hR p) (max_cur m ρ c hR p))

/-- Row p's ∑ exp (x·q − rc) from the second region's accumulator. -/
theorem sumexp_cur (hR : RegionFacts) (p : Fin 4) :
    rSum (W4 m ρ c (Proc.devRef .tc main_v73_0)) (ix2 p (0 : Fin 1)) = KL.kSumExp (Xc m c p) := by
  rw [W4_v73_0 hR m ρ c]
  exact rowSum_accSumExp _ _ _ _ _ (Xc m c) _
    (fun p s mc => (congrFun (V3_v0 m ρ c) _).trans (V1_v0_apply m ρ c p s mc)) _ _
    (V3_v66_apply m ρ c hR) (V3_v68_apply m ρ c hR) p

/-- The third region's parameter columns: q (kept from the second stretch) and c = rc + log ∑exp of row p. -/
theorem V5_v66_apply (hR : RegionFacts) (p : Fin 4) (s : Fin 8) :
    (V5 m ρ c main_v66 : KL.Col32) (ix2 (KL.mrow p s) (0 : Fin 1)) = KL.kQ (Xc m c p) :=
  (congrFun ((ops2_v66 (W4 m ρ c)).trans (W4_v66 m ρ c)) _).trans (V3_v66_apply m ρ c hR p s)
theorem V5_v87_apply (hR : RegionFacts) (p : Fin 4) (s : Fin 8) :
    (V5 m ρ c main_v87 : KL.Col32) (ix2 (KL.mrow p s) (0 : Fin 1)) = KL.kC (Xc m c p) :=
  (congrFun (ops2_v87 (W4 m ρ c)) _).trans ((column_read _ _ _ p s).trans
    (addLog_apply _ _ _ ((congrFun (W4_v45 m ρ c) _).trans (V3_v45_apply m ρ c hR p)) (sumexp_cur m ρ c hR p)))

/-! ## The initial rows -/

/-- The regrouped initial argument at matrix row 8p + s: the s-th eighth of row p. -/
theorem V1_v1_apply (p : Fin 4) (s : Fin 8) (mc : Fin 2097152) :
    (V1 m ρ c main_v1 : KL.Mat) (ix2 (KL.mrow p s) mc) = Xi m c p (KL.sub s mc) :=
  (congrFun (ops0_v1 (W0 m ρ c)) _).trans (reshape_arg_apply _ _ p s mc)

/-- No later stretch or region writes the regrouped argument. -/
theorem V3_v1 : V3 m ρ c main_v1 = V1 m ρ c main_v1 := (ops1_v1 (W2 m ρ c)).trans (W2_v1 m ρ c)
theorem V5_v1 : V5 m ρ c main_v1 = V1 m ρ c main_v1 :=
  (ops2_v1 (W4 m ρ c)).trans ((W4_v1 m ρ c).trans (V3_v1 m ρ c))

/-- Row p's sum, sum of squares and supremum from the statistics region's accumulators. -/
theorem sum_init (hR : RegionFacts) (p : Fin 4) :
    rSum (W2 m ρ c (Proc.devRef .tc main_v2_3)) (ix2 p (0 : Fin 1)) = ∑ n, Xi m c p n := by
  rw [W2_v2_3 hR m ρ c]
  exact rowSum_accSum _ _ _ _ _ (Xi m c) _ (V1_v1_apply m ρ c) p
theorem sumsq_init (hR : RegionFacts) (p : Fin 4) :
    rSum (W2 m ρ c (Proc.devRef .tc main_v2_4)) (ix2 p (0 : Fin 1)) = ∑ n, Xi m c p n * Xi m c p n := by
  rw [W2_v2_4 hR m ρ c]
  exact rowSum_accSumSq _ _ _ _ _ (Xi m c) _ (V1_v1_apply m ρ c) p
theorem max_init (hR : RegionFacts) (p : Fin 4) :
    rMax (W2 m ρ c (Proc.devRef .tc main_v2_5)) (ix2 p (0 : Fin 1)) = ⨆ n, Xi m c p n := by
  rw [W2_v2_5 hR m ρ c]
  exact rowMax_accMax _ _ _ _ _ (Xi m c) _ (V1_v1_apply m ρ c) p

/-- The parameter columns of the second region: q and rc of row p at each of its eight matrix rows. -/
theorem V3_v70_apply (hR : RegionFacts) (p : Fin 4) (s : Fin 8) :
    (V3 m ρ c main_v70 : KL.Col32) (ix2 (KL.mrow p s) (0 : Fin 1)) = KL.kQ (Xi m c p) :=
  (congrFun (ops1_v70 (W2 m ρ c)) _).trans ((column_read _ _ _ p s).trans
    (qC_apply _ (sum_init m ρ c hR p) (sumsq_init m ρ c hR p)))
theorem V3_v72_apply (hR : RegionFacts) (p : Fin 4) (s : Fin 8) :
    (V3 m ρ c main_v72 : KL.Col32) (ix2 (KL.mrow p s) (0 : Fin 1)) = KL.kRc (Xi m c p) :=
  (congrFun (ops1_v72 (W2 m ρ c)) _).trans ((column_read _ _ _ p s).trans
    (rcC_apply _ (sum_init m ρ c hR p) (sumsq_init m ρ c hR p) (max_init m ρ c hR p)))
/-- … and rc of row p as the [4, 1] column the third stretch reads. -/
theorem V3_v64_apply (hR : RegionFacts) (p : Fin 4) :
    (V3 m ρ c main_v64 : FVec Ideal S4x1 .f32) (ix2 p (0 : Fin 1)) = KL.kRc (Xi m c p) :=
  (congrFun (ops1_v64 (W2 m ρ c)) _).trans
    (rcC_apply _ (sum_init m ρ c hR p) (sumsq_init m ρ c hR p) (max_init m ρ c hR p))

/-- Row p's ∑ exp (x·q − rc) from the second region's accumulator. -/
theorem sumexp_init (hR : RegionFacts) (p : Fin 4) :
    rSum (W4 m ρ c (Proc.devRef .tc main_v73_1)) (ix2 p (0 : Fin 1)) = KL.kSumExp (Xi m c p) := by
  rw [W4_v73_1 hR m ρ c]
  exact rowSum_accSumExp _ _ _ _ _ (Xi m c) _
    (fun p s mc => (congrFun (V3_v1 m ρ c) _).trans (V1_v1_apply m ρ c p s mc)) _ _
    (V3_v70_apply m ρ c hR) (V3_v72_apply m ρ c hR) p

/-- The third region's parameter columns: q (kept from the second stretch) and c = rc + log ∑exp of row p. -/
theorem V5_v70_apply (hR : RegionFacts) (p : Fin 4) (s : Fin 8) :
    (V5 m ρ c main_v70 : KL.Col32) (ix2 (KL.mrow p s) (0 : Fin 1)) = KL.kQ (Xi m c p) :=
  (congrFun ((ops2_v70 (W4 m ρ c)).trans (W4_v70 m ρ c)) _).trans (V3_v70_apply m ρ c hR p s)
theorem V5_v89_apply (hR : RegionFacts) (p : Fin 4) (s : Fin 8) :
    (V5 m ρ c main_v89 : KL.Col32) (ix2 (KL.mrow p s) (0 : Fin 1)) = KL.kC (Xi m c p) :=
  (congrFun (ops2_v89 (W4 m ρ c)) _).trans ((column_read _ _ _ p s).trans
    (addLog_apply _ _ _ ((congrFun (W4_v64 m ρ c) _).trans (V3_v64_apply m ρ c hR p)) (sumexp_init m ρ c hR p)))

/-! ## The result -/

theorem result_eq (hR : RegionFacts) (m : (ℓ : Loc nD τ sig) → Buf (Elt Ideal) ℓ) (ρ : Dev nD → PrngReg) (c : Dev nD) :
    W7 m ρ c (Proc.devRef .tc main_v93)
      = (fun _ => KL.kResult (KL.rows (m ((c.tc : Thread nD τ).loc main_arg0))) (KL.rows (m ((c.tc : Thread nD τ).loc main_arg1)))) := by
  refine (ops3_v93 (W6 m ρ c)).trans ?_
  rw [W6_v90 hR m ρ c]
  exact finalOf_accKl _ _ (Xc m c) (Xi m c) _ _
    (fun p s mc => (congrFun (V5_v0 m ρ c) _).trans (V1_v0_apply m ρ c p s mc))
    (fun p s mc => (congrFun (V5_v1 m ρ c) _).trans (V1_v1_apply m ρ c p s mc))
    _ _ _ _
    (V5_v66_apply m ρ c hR) (V5_v87_apply m ρ c hR) (V5_v70_apply m ρ c hR) (V5_v89_apply m ρ c hR)

end Cert.KernelIdeal.KValue

end
-- ==== Proof.RefTerm.lean ====
/-
  The reference's result as a term of its two arguments, built from the stages the program computes.

  For an array x of four rows: the row sums, the row means (the sums over N), the centred array; the variance
  function's own centring (it recomputes the mean, laid as a column), its divisor N − 1 (N minus the integer 1
  converted), the quotient of the sum of squares by it, and the select that keeps that quotient when N − 1 is above
  zero; the square root; the standardised array (the centred one over the deviation plus ε).  For a standardised array
  t: the row maxima, the shifted array, its exponential, the softmax (the exponential over its row sums) and the
  log-softmax (the shifted array minus the logarithm of those sums).  The result is minus the sum over the four rows
  of the row sums of softmax(init) · (logsoftmax(init) − log(softmax(cur) + ε)), over 4.
-/
import proofs.«111140_j6493990552354_2_alg».proof.Proof.Gen.ReferenceIdeal

noncomputable section

namespace Cert.ReferenceIdeal.RefValue

open Cert.ReferenceIdeal Cert.ReferenceIdeal.Gen Idealize.ShloMosaic

variable {F : FTy → Type} [FloatOps F]

/-- A [4, N] array, a length-4 vector, a [4, 1] column and a scalar of floats. -/
abbrev Mx (F : FTy → Type) : Type := (⟨S4x16777216, .f32⟩ : BufTy).Contents (Elt F)
abbrev V4 (F : FTy → Type) : Type := (⟨S4, .f32⟩ : BufTy).Contents (Elt F)
abbrev C4 (F : FTy → Type) : Type := (⟨S4x1, .f32⟩ : BufTy).Contents (Elt F)
abbrev Sc (F : FTy → Type) : Type := (⟨S_, .f32⟩ : BufTy).Contents (Elt F)

/-- The row sums, from zero. -/
def rowSum (x : Mx F) : V4 F :=
  Host.reduceAdd x (constant S_ .f32 0x00000000#32 : Sc F) reducesTo_S4x16777216_S4_d1 h_S_

/-- A length-4 vector laid along the rows: as a column, then along the lanes. -/
def lay (v : V4 F) : Mx F :=
  broadcastInDim S4x16777216 ![0, 1] bcast_S4x1_S4x16777216_0_1 (broadcastInDim S4x1 ![0] bcast_S4_S4x1_0 v)

/-- The row means. -/
def mean (x : Mx F) : V4 F :=
  Host.divf (rowSum x) (broadcastInDim S4 ![] bcast_S_S4 (constant S_ .f32 0x4B800000#32 : Sc F))

/-- The array minus its row means. -/
def centred (x : Mx F) : Mx F := subf x (lay (mean x))

/-- The variance function's row means, as a column. -/
def vMeanCol (x : Mx F) : C4 F :=
  Host.divf (broadcastInDim S4x1 ![0] bcast_S4_S4x1_0 (rowSum x))
    (broadcastInDim S4x1 ![] bcast_S_S4x1 (constant S_ .f32 0x4B800000#32 : Sc F))

/-- The variance function's centred array. -/
def vCentred (x : Mx F) : Mx F :=
  subf x (broadcastInDim S4x16777216 ![0, 1] bcast_S4x1_S4x16777216_0_1 (vMeanCol x))

/-- N minus the integer one converted to a float. -/
def nm1 : Sc F := subf (constant S_ .f32 0x4B800000#32 : Sc F) (sitofp .f32 (constantI S_ 32 1#32))

/-- The sums of squares over N − 1. -/
def vQuot (x : Mx F) : V4 F :=
  Host.divf (rowSum (mulf (vCentred x) (vCentred x))) (broadcastInDim S4 ![] bcast_S_S4 (nm1 : Sc F))

/-- The variance: the quotient where N − 1 is above zero, else the not-a-number pattern. -/
def variance (x : Mx F) : V4 F :=
  select (broadcastInDim S4 ![] bcast_S_S4 (cmpf .ogt (nm1 : Sc F) (constant S_ .f32 0x00000000#32 : Sc F)))
    (vQuot x) (broadcastInDim S4 ![] bcast_S_S4 (id (constant S_ .f32 0x7FC00000#32 : Sc F)))

/-- The standardised array: centred, over the deviation plus ε. -/
def zscore (x : Mx F) : Mx F :=
  Host.divf (centred x)
    (lay (addf (Host.sqrt (variance x)) (broadcastInDim S4 ![] bcast_S_S4 (constant S_ .f32 0x322BCC77#32 : Sc F))))

/-- The row maxima: the reduce from −∞, then the maximum with −∞ once more. -/
def rowMax (t : Mx F) : V4 F :=
  maximumf (broadcastInDim S4 ![] bcast_S_S4 (constant S_ .f32 0xFF800000#32 : Sc F))
    (Host.reduce FloatOps.maximumf t (constant S_ .f32 0xFF800000#32 : Sc F) reducesTo_S4x16777216_S4_d1 h_S_)

/-- The array minus its row maxima. -/
def shifted (t : Mx F) : Mx F := subf t (lay (rowMax t))

/-- The exponential of the shifted array. -/
def expo (t : Mx F) : Mx F := Host.exp (shifted t)

/-- The softmax along the rows. -/
def softmax (t : Mx F) : Mx F := Host.divf (expo t) (lay (rowSum (expo t)))

/-- The log-softmax along the rows. -/
def logSoftmax (t : Mx F) : Mx F :=
  subf (shifted t)
    (broadcastInDim S4x16777216 ![0, 1] bcast_S4x1_S4x16777216_0_1
      (Host.log (broadcastInDim S4x1 ![0] bcast_S4_S4x1_0 (rowSum (expo t)))))

/-- The summands of the divergence. -/
def klTerms (zc zi : Mx F) : Mx F :=
  mulf (softmax zi)
    (subf (logSoftmax zi)
      (Host.log (addf (softmax zc) (broadcastInDim S4x16777216 ![] bcast_S_S4x16777216 (constant S_ .f32 0x322BCC77#32 : Sc F)))))

/-- The program's result from `current` (X) and `initial` (Y). -/
def out (X Y : Mx F) : Sc F :=
  Host.negf
    (Host.divf
      (Host.reduceAdd (rowSum (klTerms (zscore X) (zscore Y))) (constant S_ .f32 0x00000000#32 : Sc F) reducesTo_S4_S_d0 h_S_)
      (constant S_ .f32 0x40800000#32 : Sc F))

end Cert.ReferenceIdeal.RefValue

end
-- ==== Proof.RefRun.lean ====
/-
  The reference program as one straight line of host operations, and its run.

  Its @main calls three outlined functions: the standard deviation (the variance, which ends in a select between
  the quotient and a not-a-number pattern, then a square root) once for each argument, and the log-softmax once.
  A call executes the callee's body on the call's own buffers, so with every call replaced by the callee's
  operations @main is a list of 132 operations: 71 of its own, 23 for each standard deviation (22 of the variance, of
  which 3 are the select's, and the square root) and 15 for the log-softmax.  From that list the run of @main from any
  memory is the fold of the operations' results over the launch contents; read at the result buffer, the fold is the
  term built from the stages, and the two argument buffers are written by no operation.
-/
import proofs.«111140_j6493990552354_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 132 operations in order, each call replaced by the callee's operations over the call's buffers. -/
abbrev ops : List (HloOp τ sig (Elt F)) :=
  [
    nullary main_cst (constant S_ .f32 0x00000000#32),
    binary main_arg1 main_cst main_v0 ((fun x v => Host.reduceAdd x v reducesTo_S4x16777216_S4_d1 h_S_) : (⟨S4x16777216, .f32⟩ : BufTy).Contents (Elt F) → (⟨S_, .f32⟩ : BufTy).Contents (Elt F) → (⟨S4, .f32⟩ : BufTy).Contents (Elt F)),
    nullary main_cst_0 (constant S_ .f32 0x4B800000#32),
    unary main_cst_0 main_v1 (broadcastInDim S4 ![] bcast_S_S4 : (⟨S_, .f32⟩ : BufTy).Contents (Elt F) → (⟨S4, .f32⟩ : BufTy).Contents (Elt F)),
    binary main_v0 main_v1 main_v2 (Host.divf : (⟨S4, .f32⟩ : BufTy).Contents (Elt F) → (⟨S4, .f32⟩ : BufTy).Contents (Elt F) → (⟨S4, .f32⟩ : BufTy).Contents (Elt F)),
    unary main_v2 main_v3 (broadcastInDim S4x1 ![0] bcast_S4_S4x1_0 : (⟨S4, .f32⟩ : BufTy).Contents (Elt F) → (⟨S4x1, .f32⟩ : BufTy).Contents (Elt F)),
    unary main_v3 main_v4 (broadcastInDim S4x16777216 ![0, 1] bcast_S4x1_S4x16777216_0_1 : (⟨S4x1, .f32⟩ : BufTy).Contents (Elt F) → (⟨S4x16777216, .f32⟩ : BufTy).Contents (Elt F)),
    binary main_arg1 main_v4 main_v5 (subf : (⟨S4x16777216, .f32⟩ : BufTy).Contents (Elt F) → (⟨S4x16777216, .f32⟩ : BufTy).Contents (Elt F) → (⟨S4x16777216, .f32⟩ : BufTy).Contents (Elt F)),
    nullary main_c (constantI S_ 32 1#32),
    nullary main_call0_call0_cst (constant S_ .f32 0x00000000#32 : (⟨S_, .f32⟩ : BufTy).Contents (Elt F)),
    binary main_arg1 main_call0_call0_cst main_call0_call0_v0 (fun x v => Host.reduceAdd x v reducesTo_S4x16777216_S4_d1 h_S_ : (⟨S4x16777216, .f32⟩ : BufTy).Contents (Elt F) → (⟨S_, .f32⟩ : BufTy).Contents (Elt F) → (⟨S4, .f32⟩ : BufTy).Contents (Elt F)),
    unary main_call0_call0_v0 main_call0_call0_v1 (broadcastInDim S4x1 ![0] bcast_S4_S4x1_0 : (⟨S4, .f32⟩ : BufTy).Contents (Elt F) → (⟨S4x1, .f32⟩ : BufTy).Contents (Elt F)),
    nullary main_call0_call0_cst_0 (constant S_ .f32 0x4B800000#32 : (⟨S_, .f32⟩ : BufTy).Contents (Elt F)),
    unary main_call0_call0_cst_0 main_call0_call0_v2 (broadcastInDim S4x1 ![] bcast_S_S4x1 : (⟨S_, .f32⟩ : BufTy).Contents (Elt F) → (⟨S4x1, .f32⟩ : BufTy).Contents (Elt F)),
    binary main_call0_call0_v1 main_call0_call0_v2 main_call0_call0_v3 (Host.divf : (⟨S4x1, .f32⟩ : BufTy).Contents (Elt F) → (⟨S4x1, .f32⟩ : BufTy).Contents (Elt F) → (⟨S4x1, .f32⟩ : BufTy).Contents (Elt F)),
    unary main_call0_call0_v3 main_call0_call0_v4 (broadcastInDim S4x16777216 ![0, 1] bcast_S4x1_S4x16777216_0_1 : (⟨S4x1, .f32⟩ : BufTy).Contents (Elt F) → (⟨S4x16777216, .f32⟩ : BufTy).Contents (Elt F)),
    binary main_arg1 main_call0_call0_v4 main_call0_call0_v5 (subf : (⟨S4x16777216, .f32⟩ : BufTy).Contents (Elt F) → (⟨S4x16777216, .f32⟩ : BufTy).Contents (Elt F) → (⟨S4x16777216, .f32⟩ : BufTy).Contents (Elt F)),
    binary main_call0_call0_v5 main_call0_call0_v5 main_call0_call0_v6 (mulf : (⟨S4x16777216, .f32⟩ : BufTy).Contents (Elt F) → (⟨S4x16777216, .f32⟩ : BufTy).Contents (Elt F) → (⟨S4x16777216, .f32⟩ : BufTy).Contents (Elt F)),
    unary main_c main_call0_call0_v7 (sitofp .f32 : (⟨S_, .i32⟩ : BufTy).Contents (Elt F) → (⟨S_, .f32⟩ : BufTy).Contents (Elt F)),
    nullary main_call0_call0_cst_1 (constant S_ .f32 0x4B800000#32 : (⟨S_, .f32⟩ : BufTy).Contents (Elt F)),
    binary main_call0_call0_cst_1 main_call0_call0_v7 main_call0_call0_v8 (subf : (⟨S_, .f32⟩ : BufTy).Contents (Elt F) → (⟨S_, .f32⟩ : BufTy).Contents (Elt F) → (⟨S_, .f32⟩ : BufTy).Contents (Elt F)),
    nullary main_call0_call0_cst_2 (constant S_ .f32 0x00000000#32 : (⟨S_, .f32⟩ : BufTy).Contents (Elt F)),
    binary main_call0_call0_v6 main_call0_call0_cst_2 main_call0_call0_v9 (fun x v => Host.reduceAdd x v reducesTo_S4x16777216_S4_d1 h_S_ : (⟨S4x16777216, .f32⟩ : BufTy).Contents (Elt F) → (⟨S_, .f32⟩ : BufTy).Contents (Elt F) → (⟨S4, .f32⟩ : BufTy).Contents (Elt F)),
    unary main_call0_call0_v8 main_call0_call0_v10 (broadcastInDim S4 ![] bcast_S_S4 : (⟨S_, .f32⟩ : BufTy).Contents (Elt F) → (⟨S4, .f32⟩ : BufTy).Contents (Elt F)),
    binary main_call0_call0_v9 main_call0_call0_v10 main_call0_call0_v11 (Host.divf : (⟨S4, .f32⟩ : BufTy).Contents (Elt F) → (⟨S4, .f32⟩ : BufTy).Contents (Elt F) → (⟨S4, .f32⟩ : BufTy).Contents (Elt F)),
    nullary main_call0_call0_cst_3 (constant S_ .f32 0x00000000#32 : (⟨S_, .f32⟩ : BufTy).Contents (Elt F)),
    binary main_call0_call0_v8 main_call0_call0_cst_3 main_call0_call0_v12 (cmpf .ogt : (⟨S_, .f32⟩ : BufTy).Contents (Elt F) → (⟨S_, .f32⟩ : BufTy).Contents (Elt F) → (⟨S_, .i1⟩ : BufTy).Contents (Elt F)),
    nullary main_call0_call0_cst_4 (constant S_ .f32 0x7FC00000#32 : (⟨S_, .f32⟩ : BufTy).Contents (Elt F)),
    unary main_call0_call0_cst_4 main_call0_call0_call0_v0 (id : (⟨S_, .f32⟩ : BufTy).Contents (Elt F) → (⟨S_, .f32⟩ : BufTy).Contents (Elt F)),
    unary main_call0_call0_call0_v0 main_call0_call0_call0_v1 (broadcastInDim S4 ![] bcast_S_S4 : (⟨S_, .f32⟩ : BufTy).Contents (Elt F) → (⟨S4, .f32⟩ : BufTy).Contents (Elt F)),
    ternary main_call0_call0_v12 main_call0_call0_v11 main_call0_call0_call0_v1 main_call0_v0 (fun p a b => select (broadcastInDim S4 ![] bcast_S_S4 p) a b : (⟨S_, .i1⟩ : BufTy).Contents (Elt F) → (⟨S4, .f32⟩ : BufTy).Contents (Elt F) → (⟨S4, .f32⟩ : BufTy).Contents (Elt F) → (⟨S4, .f32⟩ : BufTy).Contents (Elt F)),
    unary main_call0_v0 main_v6 (Host.sqrt : (⟨S4, .f32⟩ : BufTy).Contents (Elt F) → (⟨S4, .f32⟩ : BufTy).Contents (Elt F)),
    nullary main_cst_1 (constant S_ .f32 0x322BCC77#32),
    unary main_cst_1 main_v7 (broadcastInDim S4 ![] bcast_S_S4 : (⟨S_, .f32⟩ : BufTy).Contents (Elt F) → (⟨S4, .f32⟩ : BufTy).Contents (Elt F)),
    binary main_v6 main_v7 main_v8 (addf : (⟨S4, .f32⟩ : BufTy).Contents (Elt F) → (⟨S4, .f32⟩ : BufTy).Contents (Elt F) → (⟨S4, .f32⟩ : BufTy).Contents (Elt F)),
    unary main_v8 main_v9 (broadcastInDim S4x1 ![0] bcast_S4_S4x1_0 : (⟨S4, .f32⟩ : BufTy).Contents (Elt F) → (⟨S4x1, .f32⟩ : BufTy).Contents (Elt F)),
    unary main_v9 main_v10 (broadcastInDim S4x16777216 ![0, 1] bcast_S4x1_S4x16777216_0_1 : (⟨S4x1, .f32⟩ : BufTy).Contents (Elt F) → (⟨S4x16777216, .f32⟩ : BufTy).Contents (Elt F)),
    binary main_v5 main_v10 main_v11 (Host.divf : (⟨S4x16777216, .f32⟩ : BufTy).Contents (Elt F) → (⟨S4x16777216, .f32⟩ : BufTy).Contents (Elt F) → (⟨S4x16777216, .f32⟩ : BufTy).Contents (Elt F)),
    nullary main_cst_2 (constant S_ .f32 0x00000000#32),
    binary main_arg0 main_cst_2 main_v12 ((fun x v => Host.reduceAdd x v reducesTo_S4x16777216_S4_d1 h_S_) : (⟨S4x16777216, .f32⟩ : BufTy).Contents (Elt F) → (⟨S_, .f32⟩ : BufTy).Contents (Elt F) → (⟨S4, .f32⟩ : BufTy).Contents (Elt F)),
    nullary main_cst_3 (constant S_ .f32 0x4B800000#32),
    unary main_cst_3 main_v13 (broadcastInDim S4 ![] bcast_S_S4 : (⟨S_, .f32⟩ : BufTy).Contents (Elt F) → (⟨S4, .f32⟩ : BufTy).Contents (Elt F)),
    binary main_v12 main_v13 main_v14 (Host.divf : (⟨S4, .f32⟩ : BufTy).Contents (Elt F) → (⟨S4, .f32⟩ : BufTy).Contents (Elt F) → (⟨S4, .f32⟩ : BufTy).Contents (Elt F)),
    unary main_v14 main_v15 (broadcastInDim S4x1 ![0] bcast_S4_S4x1_0 : (⟨S4, .f32⟩ : BufTy).Contents (Elt F) → (⟨S4x1, .f32⟩ : BufTy).Contents (Elt F)),
    unary main_v15 main_v16 (broadcastInDim S4x16777216 ![0, 1] bcast_S4x1_S4x16777216_0_1 : (⟨S4x1, .f32⟩ : BufTy).Contents (Elt F) → (⟨S4x16777216, .f32⟩ : BufTy).Contents (Elt F)),
    binary main_arg0 main_v16 main_v17 (subf : (⟨S4x16777216, .f32⟩ : BufTy).Contents (Elt F) → (⟨S4x16777216, .f32⟩ : BufTy).Contents (Elt F) → (⟨S4x16777216, .f32⟩ : BufTy).Contents (Elt F)),
    nullary main_c_4 (constantI S_ 32 1#32),
    nullary main_call1_call0_cst (constant S_ .f32 0x00000000#32 : (⟨S_, .f32⟩ : BufTy).Contents (Elt F)),
    binary main_arg0 main_call1_call0_cst main_call1_call0_v0 (fun x v => Host.reduceAdd x v reducesTo_S4x16777216_S4_d1 h_S_ : (⟨S4x16777216, .f32⟩ : BufTy).Contents (Elt F) → (⟨S_, .f32⟩ : BufTy).Contents (Elt F) → (⟨S4, .f32⟩ : BufTy).Contents (Elt F)),
    unary main_call1_call0_v0 main_call1_call0_v1 (broadcastInDim S4x1 ![0] bcast_S4_S4x1_0 : (⟨S4, .f32⟩ : BufTy).Contents (Elt F) → (⟨S4x1, .f32⟩ : BufTy).Contents (Elt F)),
    nullary main_call1_call0_cst_0 (constant S_ .f32 0x4B800000#32 : (⟨S_, .f32⟩ : BufTy).Contents (Elt F)),
    unary main_call1_call0_cst_0 main_call1_call0_v2 (broadcastInDim S4x1 ![] bcast_S_S4x1 : (⟨S_, .f32⟩ : BufTy).Contents (Elt F) → (⟨S4x1, .f32⟩ : BufTy).Contents (Elt F)),
    binary main_call1_call0_v1 main_call1_call0_v2 main_call1_call0_v3 (Host.divf : (⟨S4x1, .f32⟩ : BufTy).Contents (Elt F) → (⟨S4x1, .f32⟩ : BufTy).Contents (Elt F) → (⟨S4x1, .f32⟩ : BufTy).Contents (Elt F)),
    unary main_call1_call0_v3 main_call1_call0_v4 (broadcastInDim S4x16777216 ![0, 1] bcast_S4x1_S4x16777216_0_1 : (⟨S4x1, .f32⟩ : BufTy).Contents (Elt F) → (⟨S4x16777216, .f32⟩ : BufTy).Contents (Elt F)),
    binary main_arg0 main_call1_call0_v4 main_call1_call0_v5 (subf : (⟨S4x16777216, .f32⟩ : BufTy).Contents (Elt F) → (⟨S4x16777216, .f32⟩ : BufTy).Contents (Elt F) → (⟨S4x16777216, .f32⟩ : BufTy).Contents (Elt F)),
    binary main_call1_call0_v5 main_call1_call0_v5 main_call1_call0_v6 (mulf : (⟨S4x16777216, .f32⟩ : BufTy).Contents (Elt F) → (⟨S4x16777216, .f32⟩ : BufTy).Contents (Elt F) → (⟨S4x16777216, .f32⟩ : BufTy).Contents (Elt F)),
    unary main_c_4 main_call1_call0_v7 (sitofp .f32 : (⟨S_, .i32⟩ : BufTy).Contents (Elt F) → (⟨S_, .f32⟩ : BufTy).Contents (Elt F)),
    nullary main_call1_call0_cst_1 (constant S_ .f32 0x4B800000#32 : (⟨S_, .f32⟩ : BufTy).Contents (Elt F)),
    binary main_call1_call0_cst_1 main_call1_call0_v7 main_call1_call0_v8 (subf : (⟨S_, .f32⟩ : BufTy).Contents (Elt F) → (⟨S_, .f32⟩ : BufTy).Contents (Elt F) → (⟨S_, .f32⟩ : BufTy).Contents (Elt F)),
    nullary main_call1_call0_cst_2 (constant S_ .f32 0x00000000#32 : (⟨S_, .f32⟩ : BufTy).Contents (Elt F)),
    binary main_call1_call0_v6 main_call1_call0_cst_2 main_call1_call0_v9 (fun x v => Host.reduceAdd x v reducesTo_S4x16777216_S4_d1 h_S_ : (⟨S4x16777216, .f32⟩ : BufTy).Contents (Elt F) → (⟨S_, .f32⟩ : BufTy).Contents (Elt F) → (⟨S4, .f32⟩ : BufTy).Contents (Elt F)),
    unary main_call1_call0_v8 main_call1_call0_v10 (broadcastInDim S4 ![] bcast_S_S4 : (⟨S_, .f32⟩ : BufTy).Contents (Elt F) → (⟨S4, .f32⟩ : BufTy).Contents (Elt F)),
    binary main_call1_call0_v9 main_call1_call0_v10 main_call1_call0_v11 (Host.divf : (⟨S4, .f32⟩ : BufTy).Contents (Elt F) → (⟨S4, .f32⟩ : BufTy).Contents (Elt F) → (⟨S4, .f32⟩ : BufTy).Contents (Elt F)),
    nullary main_call1_call0_cst_3 (constant S_ .f32 0x00000000#32 : (⟨S_, .f32⟩ : BufTy).Contents (Elt F)),
    binary main_call1_call0_v8 main_call1_call0_cst_3 main_call1_call0_v12 (cmpf .ogt : (⟨S_, .f32⟩ : BufTy).Contents (Elt F) → (⟨S_, .f32⟩ : BufTy).Contents (Elt F) → (⟨S_, .i1⟩ : BufTy).Contents (Elt F)),
    nullary main_call1_call0_cst_4 (constant S_ .f32 0x7FC00000#32 : (⟨S_, .f32⟩ : BufTy).Contents (Elt F)),
    unary main_call1_call0_cst_4 main_call1_call0_call0_v0 (id : (⟨S_, .f32⟩ : BufTy).Contents (Elt F) → (⟨S_, .f32⟩ : BufTy).Contents (Elt F)),
    unary main_call1_call0_call0_v0 main_call1_call0_call0_v1 (broadcastInDim S4 ![] bcast_S_S4 : (⟨S_, .f32⟩ : BufTy).Contents (Elt F) → (⟨S4, .f32⟩ : BufTy).Contents (Elt F)),
    ternary main_call1_call0_v12 main_call1_call0_v11 main_call1_call0_call0_v1 main_call1_v0 (fun p a b => select (broadcastInDim S4 ![] bcast_S_S4 p) a b : (⟨S_, .i1⟩ : BufTy).Contents (Elt F) → (⟨S4, .f32⟩ : BufTy).Contents (Elt F) → (⟨S4, .f32⟩ : BufTy).Contents (Elt F) → (⟨S4, .f32⟩ : BufTy).Contents (Elt F)),
    unary main_call1_v0 main_v18 (Host.sqrt : (⟨S4, .f32⟩ : BufTy).Contents (Elt F) → (⟨S4, .f32⟩ : BufTy).Contents (Elt F)),
    nullary main_cst_5 (constant S_ .f32 0x322BCC77#32),
    unary main_cst_5 main_v19 (broadcastInDim S4 ![] bcast_S_S4 : (⟨S_, .f32⟩ : BufTy).Contents (Elt F) → (⟨S4, .f32⟩ : BufTy).Contents (Elt F)),
    binary main_v18 main_v19 main_v20 (addf : (⟨S4, .f32⟩ : BufTy).Contents (Elt F) → (⟨S4, .f32⟩ : BufTy).Contents (Elt F) → (⟨S4, .f32⟩ : BufTy).Contents (Elt F)),
    unary main_v20 main_v21 (broadcastInDim S4x1 ![0] bcast_S4_S4x1_0 : (⟨S4, .f32⟩ : BufTy).Contents (Elt F) → (⟨S4x1, .f32⟩ : BufTy).Contents (Elt F)),
    unary main_v21 main_v22 (broadcastInDim S4x16777216 ![0, 1] bcast_S4x1_S4x16777216_0_1 : (⟨S4x1, .f32⟩ : BufTy).Contents (Elt F) → (⟨S4x16777216, .f32⟩ : BufTy).Contents (Elt F)),
    binary main_v17 main_v22 main_v23 (Host.divf : (⟨S4x16777216, .f32⟩ : BufTy).Contents (Elt F) → (⟨S4x16777216, .f32⟩ : BufTy).Contents (Elt F) → (⟨S4x16777216, .f32⟩ : BufTy).Contents (Elt F)),
    nullary main_cst_6 (constant S_ .f32 0xFF800000#32),
    binary main_v11 main_cst_6 main_v24 ((fun x v => Host.reduce FloatOps.maximumf x v reducesTo_S4x16777216_S4_d1 h_S_) : (⟨S4x16777216, .f32⟩ : BufTy).Contents (Elt F) → (⟨S_, .f32⟩ : BufTy).Contents (Elt F) → (⟨S4, .f32⟩ : BufTy).Contents (Elt F)),
    nullary main_cst_7 (constant S_ .f32 0xFF800000#32),
    unary main_cst_7 main_v25 (broadcastInDim S4 ![] bcast_S_S4 : (⟨S_, .f32⟩ : BufTy).Contents (Elt F) → (⟨S4, .f32⟩ : BufTy).Contents (Elt F)),
    binary main_v25 main_v24 main_v26 (maximumf : (⟨S4, .f32⟩ : BufTy).Contents (Elt F) → (⟨S4, .f32⟩ : BufTy).Contents (Elt F) → (⟨S4, .f32⟩ : BufTy).Contents (Elt F)),
    unary main_v26 main_v27 (broadcastInDim S4x1 ![0] bcast_S4_S4x1_0 : (⟨S4, .f32⟩ : BufTy).Contents (Elt F) → (⟨S4x1, .f32⟩ : BufTy).Contents (Elt F)),
    unary main_v27 main_v28 (broadcastInDim S4x16777216 ![0, 1] bcast_S4x1_S4x16777216_0_1 : (⟨S4x1, .f32⟩ : BufTy).Contents (Elt F) → (⟨S4x16777216, .f32⟩ : BufTy).Contents (Elt F)),
    binary main_v11 main_v28 main_v29 (subf : (⟨S4x16777216, .f32⟩ : BufTy).Contents (Elt F) → (⟨S4x16777216, .f32⟩ : BufTy).Contents (Elt F) → (⟨S4x16777216, .f32⟩ : BufTy).Contents (Elt F)),
    unary main_v29 main_v30 (Host.exp : (⟨S4x16777216, .f32⟩ : BufTy).Contents (Elt F) → (⟨S4x16777216, .f32⟩ : BufTy).Contents (Elt F)),
    nullary main_cst_8 (constant S_ .f32 0x00000000#32),
    binary main_v30 main_cst_8 main_v31 ((fun x v => Host.reduceAdd x v reducesTo_S4x16777216_S4_d1 h_S_) : (⟨S4x16777216, .f32⟩ : BufTy).Contents (Elt F) → (⟨S_, .f32⟩ : BufTy).Contents (Elt F) → (⟨S4, .f32⟩ : BufTy).Contents (Elt F)),
    unary main_v31 main_v32 (broadcastInDim S4x1 ![0] bcast_S4_S4x1_0 : (⟨S4, .f32⟩ : BufTy).Contents (Elt F) → (⟨S4x1, .f32⟩ : BufTy).Contents (Elt F)),
    unary main_v32 main_v33 (broadcastInDim S4x16777216 ![0, 1] bcast_S4x1_S4x16777216_0_1 : (⟨S4x1, .f32⟩ : BufTy).Contents (Elt F) → (⟨S4x16777216, .f32⟩ : BufTy).Contents (Elt F)),
    binary main_v30 main_v33 main_v34 (Host.divf : (⟨S4x16777216, .f32⟩ : BufTy).Contents (Elt F) → (⟨S4x16777216, .f32⟩ : BufTy).Contents (Elt F) → (⟨S4x16777216, .f32⟩ : BufTy).Contents (Elt F)),
    nullary main_call2_cst (constant S_ .f32 0xFF800000#32 : (⟨S_, .f32⟩ : BufTy).Contents (Elt F)),
    binary main_v11 main_call2_cst main_call2_v0 (fun x v => Host.reduce FloatOps.maximumf x v reducesTo_S4x16777216_S4_d1 h_S_ : (⟨S4x16777216, .f32⟩ : BufTy).Contents (Elt F) → (⟨S_, .f32⟩ : BufTy).Contents (Elt F) → (⟨S4, .f32⟩ : BufTy).Contents (Elt F)),
    nullary main_call2_cst_0 (constant S_ .f32 0xFF800000#32 : (⟨S_, .f32⟩ : BufTy).Contents (Elt F)),
    unary main_call2_cst_0 main_call2_v1 (broadcastInDim S4 ![] bcast_S_S4 : (⟨S_, .f32⟩ : BufTy).Contents (Elt F) → (⟨S4, .f32⟩ : BufTy).Contents (Elt F)),
    binary main_call2_v1 main_call2_v0 main_call2_v2 (maximumf : (⟨S4, .f32⟩ : BufTy).Contents (Elt F) → (⟨S4, .f32⟩ : BufTy).Contents (Elt F) → (⟨S4, .f32⟩ : BufTy).Contents (Elt F)),
    unary main_call2_v2 main_call2_v3 (broadcastInDim S4x1 ![0] bcast_S4_S4x1_0 : (⟨S4, .f32⟩ : BufTy).Contents (Elt F) → (⟨S4x1, .f32⟩ : BufTy).Contents (Elt F)),
    unary main_call2_v3 main_call2_v4 (broadcastInDim S4x16777216 ![0, 1] bcast_S4x1_S4x16777216_0_1 : (⟨S4x1, .f32⟩ : BufTy).Contents (Elt F) → (⟨S4x16777216, .f32⟩ : BufTy).Contents (Elt F)),
    binary main_v11 main_call2_v4 main_call2_v5 (subf : (⟨S4x16777216, .f32⟩ : BufTy).Contents (Elt F) → (⟨S4x16777216, .f32⟩ : BufTy).Contents (Elt F) → (⟨S4x16777216, .f32⟩ : BufTy).Contents (Elt F)),
    unary main_call2_v5 main_call2_v6 (Host.exp : (⟨S4x16777216, .f32⟩ : BufTy).Contents (Elt F) → (⟨S4x16777216, .f32⟩ : BufTy).Contents (Elt F)),
    nullary main_call2_cst_1 (constant S_ .f32 0x00000000#32 : (⟨S_, .f32⟩ : BufTy).Contents (Elt F)),
    binary main_call2_v6 main_call2_cst_1 main_call2_v7 (fun x v => Host.reduceAdd x v reducesTo_S4x16777216_S4_d1 h_S_ : (⟨S4x16777216, .f32⟩ : BufTy).Contents (Elt F) → (⟨S_, .f32⟩ : BufTy).Contents (Elt F) → (⟨S4, .f32⟩ : BufTy).Contents (Elt F)),
    unary main_call2_v7 main_call2_v8 (broadcastInDim S4x1 ![0] bcast_S4_S4x1_0 : (⟨S4, .f32⟩ : BufTy).Contents (Elt F) → (⟨S4x1, .f32⟩ : BufTy).Contents (Elt F)),
    unary main_call2_v8 main_call2_v9 (Host.log : (⟨S4x1, .f32⟩ : BufTy).Contents (Elt F) → (⟨S4x1, .f32⟩ : BufTy).Contents (Elt F)),
    unary main_call2_v9 main_call2_v10 (broadcastInDim S4x16777216 ![0, 1] bcast_S4x1_S4x16777216_0_1 : (⟨S4x1, .f32⟩ : BufTy).Contents (Elt F) → (⟨S4x16777216, .f32⟩ : BufTy).Contents (Elt F)),
    binary main_call2_v5 main_call2_v10 main_v35 (subf : (⟨S4x16777216, .f32⟩ : BufTy).Contents (Elt F) → (⟨S4x16777216, .f32⟩ : BufTy).Contents (Elt F) → (⟨S4x16777216, .f32⟩ : BufTy).Contents (Elt F)),
    nullary main_cst_9 (constant S_ .f32 0xFF800000#32),
    binary main_v23 main_cst_9 main_v36 ((fun x v => Host.reduce FloatOps.maximumf x v reducesTo_S4x16777216_S4_d1 h_S_) : (⟨S4x16777216, .f32⟩ : BufTy).Contents (Elt F) → (⟨S_, .f32⟩ : BufTy).Contents (Elt F) → (⟨S4, .f32⟩ : BufTy).Contents (Elt F)),
    nullary main_cst_10 (constant S_ .f32 0xFF800000#32),
    unary main_cst_10 main_v37 (broadcastInDim S4 ![] bcast_S_S4 : (⟨S_, .f32⟩ : BufTy).Contents (Elt F) → (⟨S4, .f32⟩ : BufTy).Contents (Elt F)),
    binary main_v37 main_v36 main_v38 (maximumf : (⟨S4, .f32⟩ : BufTy).Contents (Elt F) → (⟨S4, .f32⟩ : BufTy).Contents (Elt F) → (⟨S4, .f32⟩ : BufTy).Contents (Elt F)),
    unary main_v38 main_v39 (broadcastInDim S4x1 ![0] bcast_S4_S4x1_0 : (⟨S4, .f32⟩ : BufTy).Contents (Elt F) → (⟨S4x1, .f32⟩ : BufTy).Contents (Elt F)),
    unary main_v39 main_v40 (broadcastInDim S4x16777216 ![0, 1] bcast_S4x1_S4x16777216_0_1 : (⟨S4x1, .f32⟩ : BufTy).Contents (Elt F) → (⟨S4x16777216, .f32⟩ : BufTy).Contents (Elt F)),
    binary main_v23 main_v40 main_v41 (subf : (⟨S4x16777216, .f32⟩ : BufTy).Contents (Elt F) → (⟨S4x16777216, .f32⟩ : BufTy).Contents (Elt F) → (⟨S4x16777216, .f32⟩ : BufTy).Contents (Elt F)),
    unary main_v41 main_v42 (Host.exp : (⟨S4x16777216, .f32⟩ : BufTy).Contents (Elt F) → (⟨S4x16777216, .f32⟩ : BufTy).Contents (Elt F)),
    nullary main_cst_11 (constant S_ .f32 0x00000000#32),
    binary main_v42 main_cst_11 main_v43 ((fun x v => Host.reduceAdd x v reducesTo_S4x16777216_S4_d1 h_S_) : (⟨S4x16777216, .f32⟩ : BufTy).Contents (Elt F) → (⟨S_, .f32⟩ : BufTy).Contents (Elt F) → (⟨S4, .f32⟩ : BufTy).Contents (Elt F)),
    unary main_v43 main_v44 (broadcastInDim S4x1 ![0] bcast_S4_S4x1_0 : (⟨S4, .f32⟩ : BufTy).Contents (Elt F) → (⟨S4x1, .f32⟩ : BufTy).Contents (Elt F)),
    unary main_v44 main_v45 (broadcastInDim S4x16777216 ![0, 1] bcast_S4x1_S4x16777216_0_1 : (⟨S4x1, .f32⟩ : BufTy).Contents (Elt F) → (⟨S4x16777216, .f32⟩ : BufTy).Contents (Elt F)),
    binary main_v42 main_v45 main_v46 (Host.divf : (⟨S4x16777216, .f32⟩ : BufTy).Contents (Elt F) → (⟨S4x16777216, .f32⟩ : BufTy).Contents (Elt F) → (⟨S4x16777216, .f32⟩ : BufTy).Contents (Elt F)),
    nullary main_cst_12 (constant S_ .f32 0x322BCC77#32),
    unary main_cst_12 main_v47 (broadcastInDim S4x16777216 ![] bcast_S_S4x16777216 : (⟨S_, .f32⟩ : BufTy).Contents (Elt F) → (⟨S4x16777216, .f32⟩ : BufTy).Contents (Elt F)),
    binary main_v46 main_v47 main_v48 (addf : (⟨S4x16777216, .f32⟩ : BufTy).Contents (Elt F) → (⟨S4x16777216, .f32⟩ : BufTy).Contents (Elt F) → (⟨S4x16777216, .f32⟩ : BufTy).Contents (Elt F)),
    unary main_v48 main_v49 (Host.log : (⟨S4x16777216, .f32⟩ : BufTy).Contents (Elt F) → (⟨S4x16777216, .f32⟩ : BufTy).Contents (Elt F)),
    binary main_v35 main_v49 main_v50 (subf : (⟨S4x16777216, .f32⟩ : BufTy).Contents (Elt F) → (⟨S4x16777216, .f32⟩ : BufTy).Contents (Elt F) → (⟨S4x16777216, .f32⟩ : BufTy).Contents (Elt F)),
    binary main_v34 main_v50 main_v51 (mulf : (⟨S4x16777216, .f32⟩ : BufTy).Contents (Elt F) → (⟨S4x16777216, .f32⟩ : BufTy).Contents (Elt F) → (⟨S4x16777216, .f32⟩ : BufTy).Contents (Elt F)),
    nullary main_cst_13 (constant S_ .f32 0x00000000#32),
    binary main_v51 main_cst_13 main_v52 ((fun x v => Host.reduceAdd x v reducesTo_S4x16777216_S4_d1 h_S_) : (⟨S4x16777216, .f32⟩ : BufTy).Contents (Elt F) → (⟨S_, .f32⟩ : BufTy).Contents (Elt F) → (⟨S4, .f32⟩ : BufTy).Contents (Elt F)),
    nullary main_cst_14 (constant S_ .f32 0x00000000#32),
    binary main_v52 main_cst_14 main_v53 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_15 (constant S_ .f32 0x40800000#32),
    binary main_v53 main_cst_15 main_v54 (Host.divf : (⟨S_, .f32⟩ : BufTy).Contents (Elt F) → (⟨S_, .f32⟩ : BufTy).Contents (Elt F) → (⟨S_, .f32⟩ : BufTy).Contents (Elt F)),
    unary main_v54 main_v55 (Host.negf : (⟨S_, .f32⟩ : BufTy).Contents (Elt F) → (⟨S_, .f32⟩ : BufTy).Contents (Elt F)) ]

attribute [local irreducible] Host.reduce in
set_option maxRecDepth 8192 in
set_option maxHeartbeats 4000000 in
/-- @main is that straight line: the two windows and the functions' bodies unfolded at their calls, both sides are one
    chain of steps once sequencing is re-associated. -/
theorem main_eq (c : Dev nD) : main (F := F) c = seq ops := by
  simp only [main, main_part0, main_part1, fn_std.body, fn_var.body, fn_where.body, fn_log_softmax.body, seq, bind_assoc,
    pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., binary_bufs_sub .., nullary_bufs_sub .., unary_bufs_sub .., binary_bufs_sub .., unary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., nullary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., nullary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., nullary_bufs_sub ..,
    unary_bufs_sub .., binary_bufs_sub .., unary_bufs_sub .., binary_bufs_sub .., binary_bufs_sub .., nullary_bufs_sub ..,
    binary_bufs_sub .., nullary_bufs_sub .., binary_bufs_sub .., nullary_bufs_sub .., binary_bufs_sub .., unary_bufs_sub ..⟩

set_option maxRecDepth 16384 in
set_option maxHeartbeats 4000000 in
/-- The fold at the result buffer is the term built from the stages: each operation's result at its own buffer is its
    function of its operands' contents, at any other buffer what was there. -/
theorem out_eq (V : Valuation τ sig (Elt F)) :
    after ops V (main_v55 : DevRef τ sig) = out (V (main_arg0 : DevRef τ sig)) (V (main_arg1 : DevRef τ sig)) := by
  after_results_simp
  rfl

set_option maxRecDepth 16384 in
set_option maxHeartbeats 4000000 in
/-- No operation writes the first argument's buffer. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of @main
    terminates with the result buffer at the stages' term of the two arguments' launch contents, and the arguments
    unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefValue

end
-- ==== Proof.LibHostRows.lean ====
/-
  Host operations of a layer normalisation over the trailing axis, read at an index written by its coordinates, at the
  ideal values and generic in the extents.

  A reference written with jnp normalises along the last axis of an [a, b, c] or an [a, c] array: it sums along that
  axis, puts the axis back with extent one (a broadcast_in_dim to [a, b, 1] or [a, 1]), divides by a broadcast scalar,
  and lays the result along the axis again (a broadcast_in_dim to the full shape).  Gains and offsets arrive as [b, c]
  or [c] arrays laid along the leading axis.  Each of these operations is read here at a coordinate index:
  * the host's float sum along the last axis of a rank-3 and of a rank-2 array, as the initial value plus a plain sum;
  * the unit trailing axis put back, and the array with a unit trailing axis laid along that axis;
  * a [b, c] array laid along a new leading axis, in the two steps jnp prints ([b, c] -> [1, b, c] -> [a, b, c]);
  * a flat [N] array viewed as [b, c] with N = b * c;
  * the matrix product of an [a, k] and a [k, n] array (plain dimension numbers) as the sum over the shared axis.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-! ## Sums along the last axis -/

/-- The host's float sum of an [a, b, c] array along its last axis, at (r, g): the initial value plus the sum over the
    last axis of the entries (r, g, k). -/
theorem hostSumLast3_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  show init (Shape.Idx.first hu) + ∑ k : Fin c, _ = _
  exact congrArg (init (Shape.Idx.first hu) + ·) (Finset.sum_congr rfl fun k _ => congrArg x (funext fun d => Fin.ext (by
    match d with
    | ⟨0, _⟩ => rfl
    | ⟨1, _⟩ => rfl
    | ⟨2, _⟩ => rfl)))

/-- The host's float sum of an [a, c] array along its last axis, at row r. -/
theorem hostSumLast2_apply {a c : ℕ} {u : Shape} (x : FVec Ideal ⟨2, ![a, c]⟩ .f32) (init : u.Idx → Ideal .f32)
    (h' : (⟨2, ![a, c]⟩ : Shape).ReducesTo [1] ⟨1, ![a]⟩) (h : (⟨2, ![a, c]⟩ : Shape).Reduces [1] ⟨1, ![a]⟩)
    (hu : 0 < u.numel) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  show init (Shape.Idx.first hu) + ∑ k : Fin c, _ = _
  exact congrArg (init (Shape.Idx.first hu) + ·) (Finset.sum_congr rfl fun k _ => congrArg x (funext fun d => Fin.ext (by
    match d with
    | ⟨0, _⟩ => rfl
    | ⟨1, _⟩ => rfl)))

/-! ## The unit trailing axis -/

/-- An [a, b] array given a unit trailing axis reads, at (r, g, 0), the operand at (r, g). -/
theorem addLast3_apply {a b : ℕ} (x : (⟨2, ![a, b]⟩ : Shape).Idx → α)
    (h : (⟨2, ![a, b]⟩ : Shape).BroadcastsInDim ⟨3, ![a, b, 1]⟩ ![0, 1]) (r : Fin a) (g : Fin b) (z : Fin 1) :
    broadcastInDim ⟨3, ![a, b, 1]⟩ ![0, 1] h x (ix3 r g z) = x (ix2 r g) := by
  refine broadcastInDim_apply ![0, 1] h x (ix3 r g z) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- An [a] array given a unit trailing axis reads, at (r, 0), the operand at r. -/
theorem addLast2_apply {a : ℕ} (x : (⟨1, ![a]⟩ : Shape).Idx → α)
    (h : (⟨1, ![a]⟩ : Shape).BroadcastsInDim ⟨2, ![a, 1]⟩ ![0]) (r : Fin a) (z : Fin 1) :
    broadcastInDim ⟨2, ![a, 1]⟩ ![0] h x (ix2 r z) = x (ix1 r) := by
  refine broadcastInDim_apply ![0] h x (ix2 r z) (ix1 r) fun ax => ?_
  match ax with
  | ⟨0, _⟩ =>
    show r.val = if a = 1 then 0 else r.val
    split
    · have := r.isLt; omega
    · rfl

/-- An [a, b, 1] array laid along its last axis reads, at (r, g, k), the operand at (r, g, 0). -/
theorem alongLast3_apply {a b c : ℕ} (x : (⟨3, ![a, b, 1]⟩ : Shape).Idx → α)
    (h : (⟨3, ![a, b, 1]⟩ : Shape).BroadcastsInDim ⟨3, ![a, b, c]⟩ ![0, 1, 2]) (r : Fin a) (g : Fin b) (k : Fin c) :
    broadcastInDim ⟨3, ![a, b, c]⟩ ![0, 1, 2] h x (ix3 r g k) = x (ix3 r g (0 : Fin 1)) := by
  refine broadcastInDim_apply ![0, 1, 2] h x (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- An [a, 1] array laid along its last axis reads, at (r, k), the operand at (r, 0). -/
theorem alongLast2_apply {a c : ℕ} (x : (⟨2, ![a, 1]⟩ : Shape).Idx → α)
    (h : (⟨2, ![a, 1]⟩ : Shape).BroadcastsInDim ⟨2, ![a, c]⟩ ![0, 1]) (r : Fin a) (k : Fin c) :
    broadcastInDim ⟨2, ![a, c]⟩ ![0, 1] h x (ix2 r k) = x (ix2 r (0 : Fin 1)) := by
  refine broadcastInDim_apply ![0, 1] h x (ix2 r k) (ix2 r (0 : Fin 1)) fun ax => ?_
  match ax with
  | ⟨0, _⟩ =>
    show r.val = if a = 1 then 0 else r.val
    split
    · have := r.isLt; omega
    · rfl
  | ⟨1, _⟩ => rfl

/-! ## A [b, c] array laid along a new leading axis -/

/-- A [b, c] array broadcast to [1, b, c] and then to [a, b, c] reads, at (r, g, k), the operand at (g, k). -/
theorem alongFirst3_apply {a b c : ℕ} (x : (⟨2, ![b, c]⟩ : Shape).Idx → α)
    (h1 : (⟨2, ![b, c]⟩ : Shape).BroadcastsInDim ⟨3, ![1, b, c]⟩ ![1, 2])
    (h2 : (⟨3, ![1, b, c]⟩ : Shape).BroadcastsInDim ⟨3, ![a, b, c]⟩ ![0, 1, 2]) (r : Fin a) (g : Fin b) (k : Fin c) :
    broadcastInDim ⟨3, ![a, b, c]⟩ ![0, 1, 2] h2 (broadcastInDim ⟨3, ![1, b, c]⟩ ![1, 2] h1 x) (ix3 r g k) = x (ix2 g k) := by
  refine (broadcastInDim_apply ![0, 1, 2] h2 _ (ix3 r g k) (ix3 (0 : Fin 1) g k) fun ax => ?_).trans ?_
  · match ax with
    | ⟨0, _⟩ => rfl
    | ⟨1, _⟩ =>
      show g.val = if b = 1 then 0 else g.val
      split
      · have := g.isLt; omega
      · rfl
    | ⟨2, _⟩ =>
      show k.val = if c = 1 then 0 else k.val
      split
      · have := k.isLt; omega
      · rfl
  · refine broadcastInDim_apply ![1, 2] h1 x (ix3 (0 : Fin 1) g k) (ix2 g k) fun ax => ?_
    match ax with
    | ⟨0, _⟩ =>
      show g.val = if b = 1 then 0 else g.val
      split
      · have := g.isLt; omega
      · rfl
    | ⟨1, _⟩ =>
      show k.val = if c = 1 then 0 else k.val
      split
      · have := k.isLt; omega
      · rfl

/-- A flat [N] array viewed as [b, c] reads, at (g, k), the operand at position q = g * c + k. -/
theorem shapeCast_n_bc_apply {b c N : ℕ} (x : (⟨1, ![N]⟩ : Shape).Idx → α)
    (h : (⟨1, ![N]⟩ : Shape).ShapeCasts ⟨2, ![b, c]⟩) (g : Fin b) (k : Fin c) (q : Fin N) (hq : q.val = g.val * c + k.val) :
    shapeCast ⟨2, ![b, c]⟩ x h (ix2 g k) = x (ix1 q) :=
  shapeCast_apply x h _ _ (by
    rw [Shape.rowMajor_val_two, Shape.rowMajor_val_one]
    show q.val = g.val * c + k.val
    exact hq)

/-! ## The matrix product -/

/-- The dimension numbers of a plain matrix product, whatever proof of well-formedness they carry. -/
theorem hostDot_apply {A K N : ℕ} (d : DotDims ⟨2, ![A, K]⟩ ⟨2, ![K, N]⟩ ⟨2, ![A, N]⟩) (hd : d = DotDims.plain A K N)
    (x : FVec Ideal ⟨2, ![A, K]⟩ .f32) (w : FVec Ideal ⟨2, ![K, N]⟩ .f32) (r : Fin A) (n : Fin N) :
    Host.dotGeneral d none x w (ix2 r n) = ∑ k : Fin K, x (ix2 r k) * w (ix2 k n) := by
  subst hd
  refine (Ideal.dotGeneral_apply (DotDims.plain A K N) none _ x w (ix2 r n)).trans ?_
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx (ix2 r n) ((contrEquiv1 (DotDims.plain A K N) K rfl rfl).symm k) = ix2 r k := by
    funext a
    match a with
    | ⟨0, _⟩ => rfl
    | ⟨1, _⟩ => exact Fin.ext hk
  have er : (DotDims.plain A K N).rhsIdx (ix2 r n) ((contrEquiv1 (DotDims.plain A K N) K rfl rfl).symm k) = ix2 k n := by
    funext a
    match a with
    | ⟨0, _⟩ => exact Fin.ext hk
    | ⟨1, _⟩ => rfl
  exact congrArg₂ (· * ·) (congrArg x el) (congrArg w er)

end Cert.LibHostRows

end
-- ==== Proof.LibColumnRead.lean ====
/-
  Two reads of a vector laid into a matrix, generic in the extents.

  A length-N vector broadcast to the column [N,1] and then along the lanes to [N,M] reads, at (p, k), the vector's
  entry p (the host's spelling of a per-row factor).  A length-N vector cast to the one row [1,N] reads, at (0, q),
  its entry q (the reshape under which a kernel receives a bias row).
-/
import Idealize.ShloMosaic.Lib.Pipeline.Value
import Idealize.ShloMosaic.Lib.ValueIdx

namespace Cert.LibColumnRead

open Idealize.ShloMosaic Idealize.ShloMosaic.ValueIdx

/-- A vector broadcast to a column and then along the lanes reads, at (p, k), the vector's entry p. -/
theorem col_bcast_apply {α : Type} {N M : ℕ} (n : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, M]⟩ ![0, 1]) (p : Fin N) (k : Fin M) :
    broadcastInDim ⟨2, ![N, M]⟩ ![0, 1] h2 (broadcastInDim ⟨2, ![N, 1]⟩ ![0] h1 n) (ix2 p k) = n (ix1 p) := by
  refine (broadcastInDim_apply ![0, 1] h2 _ (ix2 p k) (ix2 p (0 : Fin 1)) ?_).trans ?_
  · intro a
    match a with
    | ⟨0, _⟩ =>
      show p.val = if N = 1 then 0 else p.val
      split
      · have := p.isLt; omega
      · rfl
    | ⟨1, _⟩ => rfl
  · refine broadcastInDim_apply ![0] h1 n (ix2 p (0 : Fin 1)) (ix1 p) ?_
    intro a
    match a with
    | ⟨0, _⟩ =>
      show p.val = if N = 1 then 0 else p.val
      split
      · have := p.isLt; omega
      · rfl

/-- A vector cast to one row reads, at (0, q), its entry q. -/
theorem row_cast_apply {α : Type} {N : ℕ} (b : (⟨1, ![N]⟩ : Shape).Idx → α)
    (h : (⟨1, ![N]⟩ : Shape).ShapeCasts ⟨2, ![1, N]⟩) (u : Fin 1) (q : Fin N) :
    shapeCast ⟨2, ![1, N]⟩ b h (ix2 u q) = b (ix1 q) :=
  shapeCast_apply b h (ix2 u q) (ix1 q) (by
    have hu : u.val = 0 := by omega
    rw [Shape.rowMajor_val_two, Shape.rowMajor_val_one]
    show q.val = u.val * N + q.val
    rw [hu]; omega)

end Cert.LibColumnRead
-- ==== Proof.RefRead.lean ====
/-
  The reference's term at the exact values is the specification's result.

  Each stage is read at an index written by its coordinates: a row sum is the sum over the row, a vector laid along the
  rows reads its entry of the row, the host's quotient is the exact division of the entries.  Both computations of the
  row mean (the program's own and the variance function's) are the specification's mean; the integer 1 converted is 1,
  so the variance's divisor is N − 1, which is above zero, so the select keeps the quotient and never reads the
  not-a-number pattern; the maximum-reduce from −∞ is the row's supremum and the further maximum with −∞ changes
  nothing.  The sum of exponentials is computed twice (for the softmax and inside the log-softmax) by one formula.
  The final sum over the four rows is the sum over `Fin 4`.
-/
import proofs.«111140_j6493990552354_2_alg».proof.Proof.RefTerm
import proofs.«111140_j6493990552354_2_alg».proof.Proof.Spec
import proofs.«111140_j6493990552354_2_alg».proof.Proof.Consts
import proofs.«111140_j6493990552354_2_alg».proof.Proof.LibHostRows
import proofs.«111140_j6493990552354_2_alg».proof.Proof.LibColumnRead
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Shape facts and small readings -/

/-- The lanes of a [4, N] array reduce away, leaving the four rows. -/
theorem red1 : (⟨2, ![4, 16777216]⟩ : Shape).Reduces [1] ⟨1, ![4]⟩ := by decide

/-- A rank-1 index set is its coordinate's range. -/
def idxEquiv1 {n : Nat} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

/-- The host's maximum-reduce of an [a, c] array along its last axis, started from the bottom element, at row r:
    the supremum of the row. -/
theorem hostMaxLast2_apply {a c : ℕ} {u : Shape} (x : (⟨2, ![a, c]⟩ : Shape).Idx → EReal) (init : u.Idx → EReal)
    (h' : (⟨2, ![a, c]⟩ : Shape).ReducesTo [1] ⟨1, ![a]⟩) (h : (⟨2, ![a, c]⟩ : Shape).Reduces [1] ⟨1, ![a]⟩)
    (hu : 0 < u.numel) (hinit : init (Shape.Idx.first hu) = ⊥) (r : Fin a) :
    Host.reduce (FloatOps.maximumf (F := Ideal) (φ := .f32)) x init h' hu (ix1 r) = ⨆ k : Fin c, x (ix2 r k) := by
  rw [Host.reduce_eq_fold_single _ x init h' h hu (ix1 r), hinit]
  show (Finset.univ : Finset (Fin c)).sup (fun k => x (h.lift (ix1 r) k)) = _
  rw [Finset.sup_univ_eq_iSup]
  exact iSup_congr fun k => congrArg x (funext fun d => Fin.ext (by
    match d with
    | ⟨0, _⟩ => rfl
    | ⟨1, _⟩ => rfl))

/-- The host's square root, exponential and logarithm at an index. -/
theorem hostSqrt_apply {s : Shape} (v : FVec Ideal s .f32) (i : s.Idx) : Host.sqrt v i = Ideal.sqrt (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl
theorem hostNegf_apply {s : Shape} (v : FVec Ideal s .f32) (i : s.Idx) : Host.negf v i = -(v i) := rfl

/-! ## The stages at an index -/

/-- The row sums: row p's sum. -/
theorem rowSum_apply (x : Mx Ideal) (p : Fin 4) : rowSum x (ix1 p) = ∑ n : Fin 16777216, KL.rows x p n := by
  unfold rowSum
  rw [Cert.LibHostRows.hostSumLast2_apply x _ reducesTo_S4x16777216_S4_d1 red1 h_S_ p, constant_apply, KL.zero_eq,
    zero_add]

/-- A vector laid along the rows reads its entry of the row. -/
theorem lay_apply (v : V4 Ideal) (p : Fin 4) (n : Fin 16777216) : lay v (ix2 p n) = v (ix1 p) := by
  unfold lay
  exact Cert.LibColumnRead.col_bcast_apply v _ _ p n

/-- The row means. -/
theorem mean_apply (x : Mx Ideal) (p : Fin 4) : mean x (ix1 p) = KL.rMean (KL.rows x p) := by
  unfold mean KL.rMean KL.cN
  rw [hostDivf_apply, rowSum_apply, broadcastInDim_scalar_apply, constant_apply]

/-- The centred array. -/
theorem centred_apply (x : Mx Ideal) (p : Fin 4) (n : Fin 16777216) :
    centred x (ix2 p n) = x (ix2 p n) - KL.rMean (KL.rows x p) := by
  unfold centred
  rw [subf_apply, lay_apply, mean_apply]

/-- The variance function computes the same row means. -/
theorem vMeanCol_apply (x : Mx Ideal) (p : Fin 4) : vMeanCol x (ix2 p (0 : Fin 1)) = KL.rMean (KL.rows x p) := by
  unfold vMeanCol KL.rMean KL.cN
  rw [hostDivf_apply, Cert.LibHostRows.addLast2_apply, rowSum_apply, broadcastInDim_scalar_apply, constant_apply]

/-- … and the same centred array. -/
theorem vCentred_apply (x : Mx Ideal) (p : Fin 4) (n : Fin 16777216) :
    vCentred x (ix2 p n) = x (ix2 p n) - KL.rMean (KL.rows x p) := by
  unfold vCentred
  rw [subf_apply, Cert.LibHostRows.alongLast2_apply, vMeanCol_apply]

/-- The integer one converted is the extended real one, so the divisor is N − 1. -/
theorem nm1_apply (j : (⟨0, ![]⟩ : Shape).Idx) : (nm1 : Sc Ideal) j = KL.cN - 1 := by
  unfold nm1 KL.cN
  rw [subf_apply, constant_apply, sitofp_apply]
  have h1 : FloatOps.sitofp (F := Ideal) .f32 (constantI S_ 32 1#32 j) = (1 : EReal) := by
    show ((((1#32 : BitVec 32).toInt : ℤ) : ℝ) : EReal) = 1
    have h : (1#32 : BitVec 32).toInt = 1 := by decide
    rw [h, Int.cast_one, EReal.coe_one]
  rw [h1]

/-- N − 1 is above zero. -/
theorem nm1_pos : (0 : EReal) < KL.cN - 1 := by
  rw [KL.cN_eq, ← EReal.coe_one, ← EReal.coe_sub, ← EReal.coe_zero, EReal.coe_lt_coe_iff]
  norm_num

/-- The sums of squares over N − 1: the unbiased variance. -/
theorem vQuot_apply (x : Mx Ideal) (p : Fin 4) : vQuot x (ix1 p) = KL.rVar (KL.rows x p) := by
  unfold vQuot KL.rVar
  rw [hostDivf_apply, rowSum_apply, broadcastInDim_scalar_apply, nm1_apply]
  refine congrArg (fun s => Ideal.div s (KL.cN - 1)) (Finset.sum_congr rfl fun n _ => ?_)
  show mulf (vCentred x) (vCentred x) (ix2 p n) = _
  rw [mulf_apply, vCentred_apply]

/-- The select keeps the quotient: its condition, N − 1 above zero, holds. -/
theorem variance_apply (x : Mx Ideal) (p : Fin 4) : variance x (ix1 p) = KL.rVar (KL.rows x p) := by
  unfold variance
  rw [select_apply, broadcastInDim_scalar_apply, cmpf_apply, nm1_apply, constant_apply, KL.zero_eq, vQuot_apply]
  have hc : FloatOps.cmpf (F := Ideal) (φ := .f32) .ogt (KL.cN - 1) 0 = 1#1 := by
    show BitVec.ofBool (decide ((0 : EReal) < KL.cN - 1)) = 1#1
    rw [decide_eq_true nm1_pos]
    rfl
  rw [hc, select_one]

/-- The standardised array, entry by entry. -/
theorem zscore_apply (x : Mx Ideal) (p : Fin 4) (n : Fin 16777216) :
    zscore x (ix2 p n) = KL.rZ (KL.rows x p) n := by
  unfold zscore KL.rZ KL.rStd KL.cEps
  rw [hostDivf_apply, centred_apply, lay_apply, addf_apply, hostSqrt_apply, variance_apply, broadcastInDim_scalar_apply,
    constant_apply]

/-- Its rows are the standardised rows. -/
theorem zrows (x : Mx Ideal) (p : Fin 4) : KL.rows (zscore x) p = KL.rZ (KL.rows x p) :=
  funext fun n => zscore_apply x p n

/-- The row maxima: the maximum with the bottom element changes nothing. -/
theorem rowMax_apply (t : Mx Ideal) (p : Fin 4) : rowMax t (ix1 p) = ⨆ n : Fin 16777216, KL.rows t p n := by
  unfold rowMax
  rw [maximumf_apply, broadcastInDim_scalar_apply, constant_apply, KL.negInf_eq,
    hostMaxLast2_apply t _ reducesTo_S4x16777216_S4_d1 red1 h_S_ KL.negInf_eq p]
  exact max_eq_right bot_le

/-! ## The softmax stages of an array by rows -/

/-- A row minus its supremum. -/
def rowSh (r : KL.Row) (n : Fin KL.N) : EReal := r n - ⨆ k, r k
/-- The sum of the exponentials of the shifted row. -/
def rowS (r : KL.Row) : EReal := ∑ n, Ideal.exp (rowSh r n)

theorem shifted_apply (t : Mx Ideal) (p : Fin 4) (n : Fin 16777216) : shifted t (ix2 p n) = rowSh (KL.rows t p) n := by
  unfold shifted rowSh
  rw [subf_apply, lay_apply, rowMax_apply]

theorem expo_apply (t : Mx Ideal) (p : Fin 4) (n : Fin 16777216) :
    expo t (ix2 p n) = Ideal.exp (rowSh (KL.rows t p) n) := by
  unfold expo
  rw [hostExp_apply, shifted_apply]

theorem sumExp_apply (t : Mx Ideal) (p : Fin 4) : rowSum (expo t) (ix1 p) = rowS (KL.rows t p) := by
  rw [rowSum_apply]
  exact Finset.sum_congr rfl fun n _ => expo_apply t p n

theorem softmax_apply (t : Mx Ideal) (p : Fin 4) (n : Fin 16777216) :
    softmax t (ix2 p n) = Ideal.div (Ideal.exp (rowSh (KL.rows t p) n)) (rowS (KL.rows t p)) := by
  unfold softmax
  rw [hostDivf_apply, expo_apply, lay_apply, sumExp_apply]

theorem logSoftmax_apply (t : Mx Ideal) (p : Fin 4) (n : Fin 16777216) :
    logSoftmax t (ix2 p n) = rowSh (KL.rows t p) n - Ideal.log (rowS (KL.rows t p)) := by
  unfold logSoftmax
  rw [subf_apply, shifted_apply, Cert.LibHostRows.alongLast2_apply, hostLog_apply, Cert.LibHostRows.addLast2_apply,
    sumExp_apply]

/-- On a standardised row the stages are the specification's. -/
theorem rowSh_rZ (x : KL.Row) (n : Fin KL.N) : rowSh (KL.rZ x) n = KL.rSh x n := rfl
theorem rowS_rZ (x : KL.Row) : rowS (KL.rZ x) = KL.rS x := rfl

/-- The summands of the divergence, entry by entry. -/
theorem klTerms_apply (X Y : Mx Ideal) (p : Fin 4) (n : Fin 16777216) :
    klTerms (zscore X) (zscore Y) (ix2 p n)
      = KL.rP (KL.rows Y p) n * (KL.rLp (KL.rows Y p) n - Ideal.log (KL.rP (KL.rows X p) n + KL.cEps)) := by
  unfold klTerms KL.cEps
  rw [mulf_apply, subf_apply, softmax_apply, logSoftmax_apply, hostLog_apply, addf_apply, softmax_apply,
    broadcastInDim_scalar_apply, constant_apply, zrows, zrows]
  rfl

/-- The row sums of the summands are the rows' divergences. -/
theorem klRow_apply (X Y : Mx Ideal) (p : Fin 4) :
    rowSum (klTerms (zscore X) (zscore Y)) (ix1 p) = KL.rKl (KL.rows X p) (KL.rows Y p) := by
  rw [rowSum_apply]
  exact Finset.sum_congr rfl fun n _ => klTerms_apply X Y p n

/-- The program's term at the exact values is the specification's result. -/
theorem out_eq_rResult (X Y : Mx Ideal) : out X Y = fun _ => KL.rResult (KL.rows X) (KL.rows Y) := by
  funext j
  unfold out KL.rResult KL.cFour
  rw [hostNegf_apply, hostDivf_apply, hostReduceAdd_apply,
    Ideal.hostReduceAdd_total reducesTo_S4_S_d0 (fun b => b.elim0), constant_apply, constant_apply, KL.zero_eq, zero_add,
    sum_idx1]
  exact congrArg (fun s => -(Ideal.div s (Ideal.ofBits .f32 0x40800000#32)))
    (Finset.sum_congr rfl fun p _ => klRow_apply X Y p)

end Cert.ReferenceIdeal.RefValue

end
-- ==== Proof.RefFinal.lean ====
/-
  The reference's run read down to the specification: from any memory, @main terminates with its result buffer at
  the specification's result of the rows of the two argument arrays, and the arguments unchanged.
-/
import proofs.«111140_j6493990552354_2_alg».proof.Proof.RefRun
import proofs.«111140_j6493990552354_2_alg».proof.Proof.RefRead

noncomputable section

namespace Cert.ReferenceIdeal.RefValue

open Cert.ReferenceIdeal Cert.ReferenceIdeal.Gen Idealize.ShloMosaic Idealize.ShloMosaic.TcCoe Idealize.SL.Sem

/-- On every device, at the exact values, from any memory with zero counters: every weakly fair execution of @main
    terminates with the result at the specification's result of the rows of `current` (argument 0) and `initial`
    (argument 1), and both arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55)
          = (fun _ => KL.rResult (KL.rows (m ((c.tc : Thread nD τ).loc main_arg0))) (KL.rows (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono
    (fun _ h c => ⟨(h c).1.trans (out_eq_rResult _ _), (h c).2.1, (h c).2.2⟩) (run_out m ρ)

end Cert.ReferenceIdeal.RefValue

end
-- ==== Proof.lean ====
/-
  The certificate of the Kullback–Leibler reward kernel against its jnp reference.

  Both programs take `current` and `initial`, two [4, 16777216] arrays of finite numbers, standardise each row
  (subtract the mean, divide by the unbiased standard deviation plus ε), take the softmax of each standardised row, and
  return minus the mean over the four rows of  ∑ₙ p_init(n) · (log p_init(n) − log (p_cur(n) + ε)).
  The kernel does it in three passes over the data seen as a [32, 2097152] matrix, in 128 tiles of 16384 lanes split
  over two cores — per-row sums, sums of squares and maxima; then sums of exponentials; then the Kullback–Leibler
  sums — with the per-row scalars computed between the passes; the reference is the textbook chain of reductions.
  On the extended reals the two are one function of the arguments wherever every entry is a real number:
  ∑(x − mean)² = ∑x² − N·mean², the maximum passes through the positive scale 1/σ, and
  exp(shifted − log S) = exp(shifted)/S for the positive sum S of exponentials (KlReal, KlMath); the kernel's tiling
  of a row is a bijection (Tiles). The kernel's value is read off its frame: each region's accumulators by induction
  over the grid points (KReg0, KReg1, KReg2, collected in KRegions), the host arithmetic between the regions operation
  by operation (KSmall, KSmallBnd, KHost…), from the run that names the result buffer (KRun); the reference's run is
  its operations in order (RefTerm, RefRun) read the same way (RefRead, RefFinal). The precondition gives the
  finiteness (Finite), and Assemble puts the five conjuncts together.
-/
import proofs.«111140_j6493990552354_2_alg».proof.Proof.Assemble
import proofs.«111140_j6493990552354_2_alg».proof.Proof.KRegions
import proofs.«111140_j6493990552354_2_alg».proof.Proof.KHost
import proofs.«111140_j6493990552354_2_alg».proof.Proof.RefFinal

noncomputable section

namespace Cert.Proof

open Idealize.ShloMosaic Idealize.SL.Sem

theorem claim : Cert.Claim :=
  claim_of (fun m ρ c => Cert.KernelIdeal.KValue.result_eq Cert.KernelIdeal.KValue.regionFacts m ρ c)
    Cert.ReferenceIdeal.RefValue.run

end Cert.Proof

end
